-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v118) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x8 : Shape := ⟨2, ![1, 8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S128x64 .f32) (main_arg15 : FVec F S64 .f32) (main_arg16 : FVec F S64x1 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S1x8 .f32) (main_arg10 : FVec F S128x128 .f32) (main_arg11 : FVec F S128 .f32) (main_arg12 : FVec F S128x128 .f32) (main_arg13 : FVec F S128 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S1x8 .f32 := Host.absf main_arg9
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128 .f32) (main_arg7 : FVec F S128x8 .f32) (main_arg8 : FVec F S8 .f32) (main_arg9 : FVec F S1x8 .f32) (main_arg10 : FVec F S128x128 .f32) (main_arg11 : FVec F S128 .f32) (main_arg12 : FVec F S128x128 .f32) (main_arg13 : FVec F S128 .f32) (main_arg14 : FVec F S128x64 .f32) (main_arg15 : FVec F S64 .f32) (main_arg16 : FVec F S64x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg7
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x8 .f32) (main_arg8 : FVec F S8 .f32) (main_arg9 : FVec F S1x8 .f32) (main_arg10 : FVec F S128x128 .f32) (main_arg11 : FVec F S128 .f32) (main_arg12 : FVec F S128x128 .f32) (main_arg13 : FVec F S128 .f32) (main_arg14 : FVec F S128x64 .f32) (main_arg15 : FVec F S64 .f32) (main_arg16 : FVec F S64x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x8 : Shape := ⟨2, ![1, 8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x8 : Shape := ⟨2, ![100000, 8]⟩
abbrev S10000x8 : Shape := ⟨2, ![10000, 8]⟩
abbrev S64x128 : Shape := ⟨2, ![64, 128]⟩
abbrev S100000x1 : Shape := ⟨2, ![100000, 1]⟩
abbrev S1x64 : Shape := ⟨2, ![1, 64]⟩
abbrev S1x1 : Shape := ⟨2, ![1, 1]⟩
abbrev S64x64 : Shape := ⟨2, ![64, 64]⟩

abbrev nBuf : Space → Nat
  | .hbm => 166
  | .vmem => 52
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x8, .f32⟩
  | 8 => ⟨S8, .f32⟩
  | 9 => ⟨S1x8, .f32⟩
  | 10 => ⟨S128x128, .f32⟩
  | 11 => ⟨S128, .f32⟩
  | 12 => ⟨S128x128, .f32⟩
  | 13 => ⟨S128, .f32⟩
  | 14 => ⟨S128x64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S100000, .i32⟩
  | 23 => ⟨S1700000, .i32⟩
  | 24 => ⟨S1700000, .i32⟩
  | 25 => ⟨S_, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S_, .f32⟩
  | 36 => ⟨S1700000, .f32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S_, .f32⟩
  | 45 => ⟨S_, .f32⟩
  | 46 => ⟨S100000, .f32⟩
  | 47 => ⟨S100000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S100000x128, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x128, .f32⟩
  | 77 => ⟨S1700000x1, .f32⟩
  | 78 => ⟨S1700000x128, .f32⟩
  | 79 => ⟨S1700000x128, .f32⟩
  | 80 => ⟨S_, .f32⟩
  | 81 => ⟨S100000x128, .f32⟩
  | 82 => ⟨S1700000x1, .i32⟩
  | 83 => ⟨S100000x128, .f32⟩
  | 84 => ⟨S1x128, .f32⟩
  | 85 => ⟨S100000x128, .f32⟩
  | 86 => ⟨S100000x128, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x128, .f32⟩
  | 96 => ⟨S1700000x1, .f32⟩
  | 97 => ⟨S1700000x128, .f32⟩
  | 98 => ⟨S1700000x128, .f32⟩
  | 99 => ⟨S_, .f32⟩
  | 100 => ⟨S100000x128, .f32⟩
  | 101 => ⟨S1700000x1, .i32⟩
  | 102 => ⟨S100000x128, .f32⟩
  | 103 => ⟨S1x128, .f32⟩
  | 104 => ⟨S100000x128, .f32⟩
  | 105 => ⟨S1x8, .f32⟩
  | 106 => ⟨S100000x8, .f32⟩
  | 107 => ⟨S1x8, .f32⟩
  | 108 => ⟨S100000x8, .f32⟩
  | 109 => ⟨S100000x128, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x128, .f32⟩
  | 10 => ⟨S1700000x1, .f32⟩
  | 11 => ⟨S1700000x128, .f32⟩
  | 12 => ⟨S1700000x128, .f32⟩
  | 13 => ⟨S_, .f32⟩
  | 14 => ⟨S100000x128, .f32⟩
  | 15 => ⟨S1700000x1, .i32⟩
  | 16 => ⟨S100000x128, .f32⟩
  | 17 => ⟨S1x128, .f32⟩
  | 18 => ⟨S100000x128, .f32⟩
  | 19 => ⟨S_, .f32⟩
  | 20 => ⟨S64x128, .f32⟩
  | 21 => ⟨S100000x1, .i32⟩
  | 22 => ⟨S64x128, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S64x1, .f32⟩
  | 33 => ⟨S64x128, .f32⟩
  | 34 => ⟨S64x128, .f32⟩
  | 35 => ⟨S1x64, .f32⟩
  | 36 => ⟨S1x1, .f32⟩
  | 37 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x8, .f32⟩
  | .local _ .vmem, ⟨23, _⟩ => ⟨S1x8, .f32⟩
  | .local _ .vmem, ⟨24, _⟩ => ⟨S10000x8, .f32⟩
  | .local _ .vmem, ⟨25, _⟩ => ⟨S10000x8, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | .local _ .vmem, ⟨46, _⟩ => ⟨S64x128, .f32⟩
  | .local _ .vmem, ⟨47, _⟩ => ⟨S128x64, .f32⟩
  | .local _ .vmem, ⟨48, _⟩ => ⟨S1x64, .f32⟩
  | .local _ .vmem, ⟨49, _⟩ => ⟨S64x1, .f32⟩
  | .local _ .vmem, ⟨50, _⟩ => ⟨S1x1, .f32⟩
  | .local _ .vmem, ⟨51, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_c_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_7 : Ref sig .tc := ⟨.hbm, 57, rfl⟩
abbrev main_v28 : Ref sig .tc := ⟨.hbm, 58, rfl⟩
abbrev main_v29 : Ref sig .tc := ⟨.hbm, 59, rfl⟩
abbrev main_c_8 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_c_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_12 : Ref sig .tc := ⟨.hbm, 87, rfl⟩
abbrev main_v53 : Ref sig .tc := ⟨.hbm, 88, rfl⟩
abbrev main_v54 : Ref sig .tc := ⟨.hbm, 89, rfl⟩
abbrev main_c_13 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_18 : Ref sig .tc := ⟨.hbm, 129, rfl⟩
abbrev main_v89 : Ref sig .tc := ⟨.hbm, 130, rfl⟩
abbrev main_v90 : Ref sig .tc := ⟨.hbm, 131, rfl⟩
abbrev main_c_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_22 : Ref sig .tc := ⟨.hbm, 151, rfl⟩
abbrev main_v107 : Ref sig .tc := ⟨.hbm, 152, rfl⟩
abbrev main_cst_23 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_24 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg2_1 : Ref sig .tc := ⟨.vmem, 40, rfl⟩
abbrev cc8_stg0_0 : Ref sig .tc := ⟨.vmem, 41, rfl⟩
abbrev cc8_stg0_1 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg2_1 : Ref sig .tc := ⟨.vmem, 45, rfl⟩
abbrev cc9_stg0_0 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg3_0 : Ref sig .tc := ⟨.vmem, 49, rfl⟩
abbrev cc9_stg4_0 : Ref sig .tc := ⟨.vmem, 50, rfl⟩
abbrev cc9_stg5_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem2_1 : DmaSem sig := 40
abbrev cc8_sem0_0 : DmaSem sig := 41
abbrev cc8_sem0_1 : DmaSem sig := 42
abbrev cc8_sem1_0 : DmaSem sig := 43
abbrev cc8_sem2_0 : DmaSem sig := 44
abbrev cc8_sem2_1 : DmaSem sig := 45
abbrev cc9_sem0_0 : DmaSem sig := 46
abbrev cc9_sem1_0 : DmaSem sig := 47
abbrev cc9_sem2_0 : DmaSem sig := 48
abbrev cc9_sem3_0 : DmaSem sig := 49
abbrev cc9_sem4_0 : DmaSem sig := 50
abbrev cc9_sem5_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  bcast_S1x8_S100000x8_0_1 : S1x8.BroadcastsInDim S100000x8 (![0, 1] : Fin 2 → Fin S100000x8.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x8_S10000x8_1_0_0_1_n_n_wf : DotDims.WF S10000x128 S128x8 S10000x8 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x8.size a ≤ S128x8.size a
  hwx4_1 : ∀ i : grid4.Coords, EltTy.bits .f32 = 32 ∨ (Rect.block (s := S128x8) S128x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x8.size a ≤ S100000x8.size a
  hwx4_3 : ∀ i : grid4.Coords, EltTy.bits .f32 = 32 ∨ (Rect.block (s := S100000x8) S10000x8.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S100000x128.size a
  hwx7_2 : ∀ i : grid7.Coords, EltTy.bits .f32 = 32 ∨ (Rect.block (s := S100000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x128.size a ≤ S100000x128.size a
  hwx8_2 : ∀ i : grid8.Coords, EltTy.bits .f32 = 32 ∨ (Rect.block (s := S100000x128) S10000x128.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x128.size a ≤ S64x128.size a
  hwx9_0 : ∀ i : grid9.Coords, EltTy.bits .f32 = 32 ∨ (Rect.block (s := S64x128) S64x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x1.size a ≤ S64x1.size a
  hwx9_3 : ∀ i : grid9.Coords, EltTy.bits .f32 = 32 ∨ (Rect.block (s := S64x1) S64x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1.size a ≤ S1x1.size a
  hwx9_4 : ∀ i : grid9.Coords, EltTy.bits .f32 = 32 ∨ (Rect.block (s := S1x1) S1x1.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x1.size a ≤ S64x1.size a
  hwx9_5 : ∀ i : grid9.Coords, EltTy.bits .f32 = 32 ∨ (Rect.block (s := S64x1) S64x1.size (cc9_transform_5 i) (hinb9_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S10000x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v85) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v87) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v88) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v101) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v102) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S10000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v115) S64x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v116) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg16) S64x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v117) S1x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v118) S64x1.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x8 : Shape := ⟨2, ![1, 8]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S64x128 : Shape := ⟨2, ![64, 128]⟩
abbrev S100000x1 : Shape := ⟨2, ![100000, 1]⟩
abbrev S64x64 : Shape := ⟨2, ![64, 64]⟩
abbrev S1x64 : Shape := ⟨2, ![1, 64]⟩
abbrev S1x1 : Shape := ⟨2, ![1, 1]⟩

abbrev nBuf : Space → Nat
  | .hbm => 328
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x8, .f32⟩
  | 8 => ⟨S8, .f32⟩
  | 9 => ⟨S1x8, .f32⟩
  | 10 => ⟨S128x128, .f32⟩
  | 11 => ⟨S128, .f32⟩
  | 12 => ⟨S128x128, .f32⟩
  | 13 => ⟨S128, .f32⟩
  | 14 => ⟨S128x64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S100000, .i32⟩
  | 23 => ⟨S1700000, .i32⟩
  | 24 => ⟨S1700000, .i32⟩
  | 25 => ⟨S_, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S_, .f32⟩
  | 36 => ⟨S1700000, .f32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S_, .f32⟩
  | 45 => ⟨S_, .f32⟩
  | 46 => ⟨S100000, .f32⟩
  | 47 => ⟨S100000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S100000x128, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x128, .f32⟩
  | 77 => ⟨S1700000x1, .f32⟩
  | 78 => ⟨S1700000x128, .f32⟩
  | 79 => ⟨S1700000x128, .f32⟩
  | 80 => ⟨S_, .f32⟩
  | 81 => ⟨S100000x128, .f32⟩
  | 82 => ⟨S1700000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000, .i32⟩
  | 91 => ⟨S1700000, .i32⟩
  | 92 => ⟨S1700000, .i32⟩
  | 93 => ⟨S_, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S_, .f32⟩
  | 104 => ⟨S1700000, .f32⟩
  | 105 => ⟨S100000, .f32⟩
  | 106 => ⟨S_, .f32⟩
  | 107 => ⟨S100000, .f32⟩
  | 108 => ⟨S100000, .i1⟩
  | 109 => ⟨S_, .f32⟩
  | 110 => ⟨S100000, .f32⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S1700000, .f32⟩
  | 7 => ⟨S100000x128, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x128, .f32⟩
  | 17 => ⟨S1700000x1, .f32⟩
  | 18 => ⟨S1700000x128, .f32⟩
  | 19 => ⟨S1700000x128, .f32⟩
  | 20 => ⟨S_, .f32⟩
  | 21 => ⟨S100000x128, .f32⟩
  | 22 => ⟨S1700000x1, .i32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x8, .f32⟩
  | 31 => ⟨S1x8, .f32⟩
  | 32 => ⟨S100000x8, .f32⟩
  | 33 => ⟨S100000x8, .f32⟩
  | 34 => ⟨S100000x8, .f32⟩
  | 35 => ⟨S1x8, .f32⟩
  | 36 => ⟨S100000x8, .f32⟩
  | 37 => ⟨S100000, .i32⟩
  | 38 => ⟨S1700000, .i32⟩
  | 39 => ⟨S1700000, .i32⟩
  | 40 => ⟨S_, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S_, .f32⟩
  | 51 => ⟨S1700000, .f32⟩
  | 52 => ⟨S100000, .f32⟩
  | 53 => ⟨S_, .f32⟩
  | 54 => ⟨S100000, .f32⟩
  | 55 => ⟨S100000, .i1⟩
  | 56 => ⟨S_, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S1700000, .f32⟩
  | 82 => ⟨S100000x128, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x128, .f32⟩
  | 92 => ⟨S1700000x1, .f32⟩
  | 93 => ⟨S1700000x128, .f32⟩
  | 94 => ⟨S1700000x128, .f32⟩
  | 95 => ⟨S_, .f32⟩
  | 96 => ⟨S100000x128, .f32⟩
  | 97 => ⟨S1700000x1, .i32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000, .i32⟩
  | 106 => ⟨S1700000, .i32⟩
  | 107 => ⟨S1700000, .i32⟩
  | 108 => ⟨S_, .f32⟩
  | 109 => ⟨S100000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S_, .f32⟩
  | 119 => ⟨S1700000, .f32⟩
  | 120 => ⟨S100000, .f32⟩
  | 121 => ⟨S_, .f32⟩
  | 122 => ⟨S100000, .f32⟩
  | 123 => ⟨S100000, .i1⟩
  | 124 => ⟨S_, .f32⟩
  | 125 => ⟨S100000, .f32⟩
  | 126 => ⟨S100000, .f32⟩
  | 127 => ⟨S_, .f32⟩
  | _ => ⟨S100000x128, .f32⟩

abbrev hbmTy0_2 (i : Nat) : BufTy := match i % 128 with
  | 0 => ⟨S_, .f32⟩
  | 1 => ⟨S100000, .f32⟩
  | 2 => ⟨S100000, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000, .f32⟩
  | 21 => ⟨S1700000, .f32⟩
  | 22 => ⟨S100000x128, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x128, .f32⟩
  | 32 => ⟨S1700000x1, .f32⟩
  | 33 => ⟨S1700000x128, .f32⟩
  | 34 => ⟨S1700000x128, .f32⟩
  | 35 => ⟨S_, .f32⟩
  | 36 => ⟨S100000x128, .f32⟩
  | 37 => ⟨S1700000x1, .i32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S64x128, .f32⟩
  | 47 => ⟨S100000x1, .i32⟩
  | 48 => ⟨S64x128, .f32⟩
  | 49 => ⟨S_, .f32⟩
  | 50 => ⟨S100000, .f32⟩
  | 51 => ⟨S_, .f32⟩
  | 52 => ⟨S64, .f32⟩
  | 53 => ⟨S100000x1, .i32⟩
  | 54 => ⟨S64, .f32⟩
  | 55 => ⟨S_, .f32⟩
  | 56 => ⟨S64, .f32⟩
  | 57 => ⟨S64, .f32⟩
  | 58 => ⟨S64x1, .f32⟩
  | 59 => ⟨S64x128, .f32⟩
  | 60 => ⟨S64x128, .f32⟩
  | 61 => ⟨S64x64, .f32⟩
  | 62 => ⟨S1x64, .f32⟩
  | 63 => ⟨S64x64, .f32⟩
  | 64 => ⟨S64x64, .f32⟩
  | 65 => ⟨S_, .f32⟩
  | 66 => ⟨S64x64, .f32⟩
  | 67 => ⟨S64x64, .f32⟩
  | 68 => ⟨S64x1, .f32⟩
  | 69 => ⟨S1x1, .f32⟩
  | 70 => ⟨S64x1, .f32⟩
  | 71 => ⟨S64x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_c_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_7 : Ref sig .tc := ⟨.hbm, 57, rfl⟩
abbrev main_v28 : Ref sig .tc := ⟨.hbm, 58, rfl⟩
abbrev main_v29 : Ref sig .tc := ⟨.hbm, 59, rfl⟩
abbrev main_c_8 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_c_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_cst : Ref sig .tc := ⟨.hbm, 87, rfl⟩
abbrev main_call1_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_c_13 : Ref sig .tc := ⟨.hbm, 95, rfl⟩
abbrev main_v58 : Ref sig .tc := ⟨.hbm, 96, rfl⟩
abbrev main_v59 : Ref sig .tc := ⟨.hbm, 97, rfl⟩
abbrev main_c_14 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_cst_16 : Ref sig .tc := ⟨.hbm, 106, rfl⟩
abbrev main_v66 : Ref sig .tc := ⟨.hbm, 107, rfl⟩
abbrev main_v67 : Ref sig .tc := ⟨.hbm, 108, rfl⟩
abbrev main_cst_17 : Ref sig .tc := ⟨.hbm, 109, rfl⟩
abbrev main_v68 : Ref sig .tc := ⟨.hbm, 110, rfl⟩
abbrev main_v69 : Ref sig .tc := ⟨.hbm, 111, rfl⟩
abbrev main_cst_18 : Ref sig .tc := ⟨.hbm, 112, rfl⟩
abbrev main_call2_v0 : Ref sig .tc := ⟨.hbm, 113, rfl⟩
abbrev main_call2_v1 : Ref sig .tc := ⟨.hbm, 114, rfl⟩
abbrev main_v70 : Ref sig .tc := ⟨.hbm, 115, rfl⟩
abbrev main_c_19 : Ref sig .tc := ⟨.hbm, 116, rfl⟩
abbrev main_v71 : Ref sig .tc := ⟨.hbm, 117, rfl⟩
abbrev main_v72 : Ref sig .tc := ⟨.hbm, 118, rfl⟩
abbrev main_c_20 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_21 : Ref sig .tc := ⟨.hbm, 125, rfl⟩
abbrev main_v78 : Ref sig .tc := ⟨.hbm, 126, rfl⟩
abbrev main_v79 : Ref sig .tc := ⟨.hbm, 127, rfl⟩
abbrev main_c_22 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_23 : Ref sig .tc := ⟨.hbm, 136, rfl⟩
abbrev main_v87 : Ref sig .tc := ⟨.hbm, 137, rfl⟩
abbrev main_v88 : Ref sig .tc := ⟨.hbm, 138, rfl⟩
abbrev main_c_24 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_25 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_call3_cst : Ref sig .tc := ⟨.hbm, 155, rfl⟩
abbrev main_call3_v0 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_26 : Ref sig .tc := ⟨.hbm, 168, rfl⟩
abbrev main_v114 : Ref sig .tc := ⟨.hbm, 169, rfl⟩
abbrev main_c_27 : Ref sig .tc := ⟨.hbm, 170, rfl⟩
abbrev main_v115 : Ref sig .tc := ⟨.hbm, 171, rfl⟩
abbrev main_v116 : Ref sig .tc := ⟨.hbm, 172, rfl⟩
abbrev main_c_28 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_29 : Ref sig .tc := ⟨.hbm, 178, rfl⟩
abbrev main_v121 : Ref sig .tc := ⟨.hbm, 179, rfl⟩
abbrev main_v122 : Ref sig .tc := ⟨.hbm, 180, rfl⟩
abbrev main_cst_30 : Ref sig .tc := ⟨.hbm, 181, rfl⟩
abbrev main_v123 : Ref sig .tc := ⟨.hbm, 182, rfl⟩
abbrev main_v124 : Ref sig .tc := ⟨.hbm, 183, rfl⟩
abbrev main_cst_31 : Ref sig .tc := ⟨.hbm, 184, rfl⟩
abbrev main_v125 : Ref sig .tc := ⟨.hbm, 185, rfl⟩
abbrev main_v126 : Ref sig .tc := ⟨.hbm, 186, rfl⟩
abbrev main_cst_32 : Ref sig .tc := ⟨.hbm, 187, rfl⟩
abbrev main_call4_v0 : Ref sig .tc := ⟨.hbm, 188, rfl⟩
abbrev main_call4_v1 : Ref sig .tc := ⟨.hbm, 189, rfl⟩
abbrev main_v127 : Ref sig .tc := ⟨.hbm, 190, rfl⟩
abbrev main_c_33 : Ref sig .tc := ⟨.hbm, 191, rfl⟩
abbrev main_v128 : Ref sig .tc := ⟨.hbm, 192, rfl⟩
abbrev main_v129 : Ref sig .tc := ⟨.hbm, 193, rfl⟩
abbrev main_c_34 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_35 : Ref sig .tc := ⟨.hbm, 200, rfl⟩
abbrev main_v135 : Ref sig .tc := ⟨.hbm, 201, rfl⟩
abbrev main_v136 : Ref sig .tc := ⟨.hbm, 202, rfl⟩
abbrev main_c_36 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_c_37 : Ref sig .tc := ⟨.hbm, 211, rfl⟩
abbrev main_v144 : Ref sig .tc := ⟨.hbm, 212, rfl⟩
abbrev main_v145 : Ref sig .tc := ⟨.hbm, 213, rfl⟩
abbrev main_c_38 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_39 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_call5_cst : Ref sig .tc := ⟨.hbm, 230, rfl⟩
abbrev main_call5_v0 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_cst_40 : Ref sig .tc := ⟨.hbm, 236, rfl⟩
abbrev main_v164 : Ref sig .tc := ⟨.hbm, 237, rfl⟩
abbrev main_c_41 : Ref sig .tc := ⟨.hbm, 238, rfl⟩
abbrev main_v165 : Ref sig .tc := ⟨.hbm, 239, rfl⟩
abbrev main_v166 : Ref sig .tc := ⟨.hbm, 240, rfl⟩
abbrev main_c_42 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_43 : Ref sig .tc := ⟨.hbm, 246, rfl⟩
abbrev main_v171 : Ref sig .tc := ⟨.hbm, 247, rfl⟩
abbrev main_v172 : Ref sig .tc := ⟨.hbm, 248, rfl⟩
abbrev main_cst_44 : Ref sig .tc := ⟨.hbm, 249, rfl⟩
abbrev main_v173 : Ref sig .tc := ⟨.hbm, 250, rfl⟩
abbrev main_v174 : Ref sig .tc := ⟨.hbm, 251, rfl⟩
abbrev main_cst_45 : Ref sig .tc := ⟨.hbm, 252, rfl⟩
abbrev main_v175 : Ref sig .tc := ⟨.hbm, 253, rfl⟩
abbrev main_v176 : Ref sig .tc := ⟨.hbm, 254, rfl⟩
abbrev main_cst_46 : Ref sig .tc := ⟨.hbm, 255, rfl⟩
abbrev main_call6_v0 : Ref sig .tc := ⟨.hbm, 256, rfl⟩
abbrev main_call6_v1 : Ref sig .tc := ⟨.hbm, 257, rfl⟩
abbrev main_v177 : Ref sig .tc := ⟨.hbm, 258, rfl⟩
abbrev main_c_47 : Ref sig .tc := ⟨.hbm, 259, rfl⟩
abbrev main_v178 : Ref sig .tc := ⟨.hbm, 260, rfl⟩
abbrev main_v179 : Ref sig .tc := ⟨.hbm, 261, rfl⟩
abbrev main_c_48 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_c_49 : Ref sig .tc := ⟨.hbm, 268, rfl⟩
abbrev main_v185 : Ref sig .tc := ⟨.hbm, 269, rfl⟩
abbrev main_v186 : Ref sig .tc := ⟨.hbm, 270, rfl⟩
abbrev main_c_50 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_c_51 : Ref sig .tc := ⟨.hbm, 279, rfl⟩
abbrev main_v194 : Ref sig .tc := ⟨.hbm, 280, rfl⟩
abbrev main_v195 : Ref sig .tc := ⟨.hbm, 281, rfl⟩
abbrev main_c_52 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_cst_53 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_call7_cst : Ref sig .tc := ⟨.hbm, 298, rfl⟩
abbrev main_call7_v0 : Ref sig .tc := ⟨.hbm, 299, rfl⟩
abbrev main_v210 : Ref sig .tc := ⟨.hbm, 300, rfl⟩
abbrev main_cst_54 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_cst_55 : Ref sig .tc := ⟨.hbm, 305, rfl⟩
abbrev main_v214 : Ref sig .tc := ⟨.hbm, 306, rfl⟩
abbrev main_cst_56 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_cst_57 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_call8_cst : Ref sig .tc := ⟨.hbm, 321, rfl⟩
abbrev main_call8_v0 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Spec.lean ====
/-
  The function both programs compute, written once over whole arrays.

  A graph on 100000 nodes is given by 1600000 directed edges (row 0 of the edge array holds the sources, row 1 the
  targets); every node also gets a self loop, so there are 1700000 "extended" edges. With deg(v) the number of
  extended edges whose (wrapped) target is v and dinv(v) = deg(v)^(-1/2) where deg(v) > 0 and 0 elsewhere, an
  extended edge e = (s, d) carries the weight norm(e) = dinv(s) * dinv(d). One convolution layer maps node features
  x to relu (A (x · W) + b), where (A h)(v) is the sum over the extended edges e with target v of h(source e) * norm(e).
  The actor applies two layers and a tanh head, the critic two layers, a mean over the nodes of each of 64 graphs
  (the sum divided by max(count, 1)) and a two-layer perceptron. Every stage is stated with the host operations of the
  reference program, so that the reference's result is this function by unfolding alone.
-/
import proofs.«143567_j2740189135247_1_alg».proof.Proof.Gen.ReferenceIdeal

noncomputable section

namespace Cert.Spec

open Idealize.ShloMosaic Cert.ReferenceIdeal Cert.ReferenceIdeal.Gen

variable {F : FTy → Type} [FloatOps F]

/-- Contents of an integer array of shape `S`. -/
abbrev IC (F : FTy → Type) [FloatOps F] (S : Shape) : Type := (⟨S, .i32⟩ : BufTy).Contents (Elt F)
/-- Contents of a float array of shape `S`. -/
abbrev FC (F : FTy → Type) [FloatOps F] (S : Shape) : Type := (⟨S, .f32⟩ : BufTy).Contents (Elt F)

/-- The sources of the extended edges: row 0 of the edge array followed by 0 … 99999 (the self loops). -/
def srcIdx (ei : IC F S2x1600000) : IC F S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the extended edges: row 1 of the edge array followed by 0 … 99999. -/
def dstIdx (ei : IC F S2x1600000) : IC F S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative node index counts from the end: `i < 0 ↦ i + 100000`. -/
def wrapIdx (s : IC F S1700000) : IC F S1700000 :=
  select (cmpi .slt s (broadcastInDim S1700000 ![] bcast_S_S1700000 (constantI S_ 32 0#32))) (addi s (broadcastInDim S1700000 ![] bcast_S_S1700000 (constantI S_ 32 100000#32))) s

/-- deg(v): one unit added at the wrapped target of every extended edge. -/
def degree (d : IC F S1700000) : FC F S100000 :=
  Host.scatterAdd scatter_S100000_S1700000x1_S1700000_n_0_0_1 (broadcastInDim S100000 ![] bcast_S_S100000 (constant S_ .f32 0x00000000#32)) (broadcastInDim S1700000x1 ![0] bcast_S1700000_S1700000x1_0 (wrapIdx d)) (broadcastInDim S1700000 ![] bcast_S_S1700000 (constant S_ .f32 0x3F800000#32))

/-- dinv(v) = deg(v)^(-1/2) where deg(v) > 0, and 0 elsewhere. -/
def invSqrtDeg (d : IC F S1700000) : FC F S100000 :=
  select (cmpf .ogt (degree d) (broadcastInDim S100000 ![] bcast_S_S100000 (constant S_ .f32 0x00000000#32))) (Host.powf (degree d) (broadcastInDim S100000 ![] bcast_S_S100000 (constant S_ .f32 0xBF000000#32))) (broadcastInDim S100000 ![] bcast_S_S100000 (id (constant S_ .f32 0x00000000#32)))

/-- norm(e) = dinv(source e) * dinv(target e). -/
def edgeNorm (s d : IC F S1700000) : FC F S1700000 :=
  mulf (Host.gather gather_S100000_S1700000x1_S1700000_n_0_n_n_0_1_1 (invSqrtDeg d) (broadcastInDim S1700000x1 ![0] bcast_S1700000_S1700000x1_0 (wrapIdx s))) (Host.gather gather_S100000_S1700000x1_S1700000_n_0_n_n_0_1_1 (invSqrtDeg d) (broadcastInDim S1700000x1 ![0] bcast_S1700000_S1700000x1_0 (wrapIdx d)))

/-- (A h)(v): the rows h(source e) * w(e) of the extended edges e added at their targets, for edge weights `w`. -/
def aggregate (h : FC F S100000x128) (s d : IC F S1700000) (w : FC F S1700000) : FC F S100000x128 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrapIdx s))) (broadcastInDim S1700000x128 ![0, 1] bcast_S1700000x1_S1700000x128_0_1 (broadcastInDim S1700000x1 ![0] bcast_S1700000_S1700000x1_0 w)))

/-- x · W for node features x. -/
def linear (x : FC F S100000x128) (W : FC F S128x128) : FC F S100000x128 :=
  Host.dotGeneral dot_S100000x128_S128x128_S100000x128_1_0_0_1_n_n none x W

/-- relu (a + b), the bias a row vector repeated down the rows. -/
def biasRelu (a : FC F S100000x128) (b : FC F S1x128) : FC F S100000x128 :=
  maximumf (addf a (broadcastInDim S100000x128 ![0, 1] bcast_S1x128_S100000x128_0_1 b)) (broadcastInDim S100000x128 ![] bcast_S_S100000x128 (constant S_ .f32 0x00000000#32))

/-- A vector of length 128 as a 1 × 128 row. -/
def row128 (b : FC F S128) : FC F S1x128 := broadcastInDim S1x128 ![1] bcast_S128_S1x128_1 b
/-- A vector of length 8 as a 1 × 8 row. -/
def row8 (b : FC F S8) : FC F S1x8 := broadcastInDim S1x8 ![1] bcast_S8_S1x8_1 b
/-- A vector of length 64 as a 1 × 64 row. -/
def row64 (b : FC F S64) : FC F S1x64 := broadcastInDim S1x64 ![1] bcast_S64_S1x64_1 b
/-- A vector of length 1 as a 1 × 1 row. -/
def row1 (b : FC F S1) : FC F S1x1 := broadcastInDim S1x1 ![1] bcast_S1_S1x1_1 b

/-- One convolution layer: relu (A (x · W) + b). -/
def layer (x : FC F S100000x128) (W : FC F S128x128) (b : FC F S128) (s d : IC F S1700000) (w : FC F S1700000) : FC F S100000x128 :=
  biasRelu (aggregate (linear x W) s d w) (row128 b)

/-- The actor's head: tanh (a · W + b). -/
def meanHead (a : FC F S100000x128) (W : FC F S128x8) (b : FC F S1x8) : FC F S100000x8 :=
  Host.tanh (addf (Host.dotGeneral dot_S100000x128_S128x8_S100000x8_1_0_0_1_n_n none a W) (broadcastInDim S100000x8 ![0, 1] bcast_S1x8_S100000x8_0_1 b))

/-- The per-graph mean of node features: the rows added at their graph's index, divided by max(count, 1). -/
def pool (c : FC F S100000x128) (batch : IC F S100000) : FC F S64x128 :=
  Host.divf (Host.scatterAdd scatter_S64x128_S100000x1_S100000x128_1_0_0_1 (broadcastInDim S64x128 ![] bcast_S_S64x128 (constant S_ .f32 0x00000000#32)) (broadcastInDim S100000x1 ![0] bcast_S100000_S100000x1_0 batch) c) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))

/-- The critic's head: relu (g · W1 + b1) · W2 + b2. -/
def valueHead (g : FC F S64x128) (W1 : FC F S128x64) (b1 : FC F S1x64) (W2 : FC F S64x1) (b2 : FC F S1x1) : FC F S64x1 :=
  addf (Host.dotGeneral dot_S64x64_S64x1_S64x1_1_0_0_1_n_n none (maximumf (addf (Host.dotGeneral dot_S64x128_S128x64_S64x64_1_0_0_1_n_n none g W1) (broadcastInDim S64x64 ![0, 1] bcast_S1x64_S64x64_0_1 b1)) (broadcastInDim S64x64 ![] bcast_S_S64x64 (constant S_ .f32 0x00000000#32))) W2) (broadcastInDim S64x1 ![0, 1] bcast_S1x1_S64x1_0_1 b2)

/-- The standard deviation: exp of its logarithm, one row repeated for every node. -/
def stdOf (ls : FC F S1x8) : FC F S100000x8 :=
  broadcastInDim S100000x8 ![0, 1] bcast_S1x8_S100000x8_0_1 (Host.exp ls)

/-- Two convolution layers over one graph. -/
def twoLayers (x : FC F S100000x128) (ei : IC F S2x1600000) (W1 : FC F S128x128) (b1 : FC F S128) (W2 : FC F S128x128) (b2 : FC F S128) : FC F S100000x128 :=
  layer (layer x W1 b1 (srcIdx ei) (dstIdx ei) (edgeNorm (srcIdx ei) (dstIdx ei))) W2 b2 (srcIdx ei) (dstIdx ei) (edgeNorm (srcIdx ei) (dstIdx ei))

/-- The actor's mean. -/
def mean (x : FC F S100000x128) (ei : IC F S2x1600000) (W1 : FC F S128x128) (b1 : FC F S128) (W2 : FC F S128x128) (b2 : FC F S128) (mW : FC F S128x8) (mb : FC F S8) : FC F S100000x8 :=
  meanHead (twoLayers x ei W1 b1 W2 b2) mW (row8 mb)

/-- The critic's value. -/
def value (x : FC F S100000x128) (ei : IC F S2x1600000) (batch : IC F S100000) (W1 : FC F S128x128) (b1 : FC F S128) (W2 : FC F S128x128) (b2 : FC F S128)
    (f1W : FC F S128x64) (f1b : FC F S64) (f2W : FC F S64x1) (f2b : FC F S1) : FC F S64x1 :=
  valueHead (pool (twoLayers x ei W1 b1 W2 b2) batch) f1W (row64 f1b) f2W (row1 f2b)

end Cert.Spec

end
-- ==== Proof.RefSide.lean ====
/-
  The reference program's three results are the specification's functions of its arguments: its composed terms,
  unfolded, are those functions' bodies word for word.
-/
import proofs.«143567_j2740189135247_1_alg».proof.Proof.RefRunP
import proofs.«143567_j2740189135247_1_alg».proof.Proof.Spec

set_option maxRecDepth 16384

noncomputable section

namespace Cert.RefSide

open Idealize.ShloMosaic Idealize.ShloMosaic.TcCoe Idealize.SL.Sem Cert.ReferenceIdeal Cert.ReferenceIdeal.ValueP

variable {F : FTy → Type} [FloatOps F]
variable (m : (ℓ : Loc nD τ sig) → Buf (Elt F) ℓ) (c : Dev nD)

/-- The reference's first result is the actor's mean of its arguments. -/
theorem mean_eq : res_main_v108 m c = Cert.Spec.mean (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) := by
  unfold res_main_v108 Cert.Spec.mean Cert.Spec.meanHead Cert.Spec.twoLayers Cert.Spec.layer Cert.Spec.biasRelu Cert.Spec.aggregate Cert.Spec.linear
    Cert.Spec.edgeNorm Cert.Spec.invSqrtDeg Cert.Spec.degree Cert.Spec.wrapIdx Cert.Spec.srcIdx Cert.Spec.dstIdx Cert.Spec.row128 Cert.Spec.row8
  rfl

/-- The reference's third result is the critic's value of its arguments. -/
theorem value_eq : res_main_v231 m c = Cert.Spec.value (m ((c.tc : Thread nD τ).loc main_arg0)) (m ((c.tc : Thread nD τ).loc main_arg1)) (m ((c.tc : Thread nD τ).loc main_arg2))
    (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16)) (m ((c.tc : Thread nD τ).loc main_arg17)) := by
  unfold res_main_v231 Cert.Spec.value Cert.Spec.valueHead Cert.Spec.pool Cert.Spec.twoLayers Cert.Spec.layer Cert.Spec.biasRelu Cert.Spec.aggregate Cert.Spec.linear
    Cert.Spec.edgeNorm Cert.Spec.invSqrtDeg Cert.Spec.degree Cert.Spec.wrapIdx Cert.Spec.srcIdx Cert.Spec.dstIdx Cert.Spec.row128 Cert.Spec.row64 Cert.Spec.row1
  rfl

end Cert.RefSide

end
-- ==== Proof.KRun.lean ====
/-
  The idealized kernel's run with every buffer named: the program is ten pipelined kernel regions among stretches of
  host operations, and the library's theorem for such a program (`Pipeline.θ_run_regions_kit`) ends every weakly fair
  execution in a memory that holds, at every unscoped buffer, the contents the last segment boundary names (`Gen.W20`).
  The frame claim keeps only the argument arrays of that reading; a value claim needs the result arrays too, so the
  theorem is applied once more over the same segments and the whole reading is kept.
-/
import proofs.«143567_j2740189135247_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and the final memory holds at every unscoped buffer of every core
    what the fold through @main's segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core is dealt a ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      -- the first thread state: the unscoped buffers at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      -- the last thread state holds every unscoped buffer whole, so the final memory agrees with it there
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

end Cert.KernelIdeal.Hand

end
-- ==== Proof.Carry.lean ====
/-
  Across a kernel region every buffer other than the region's result keeps its contents: an input window's array is
  only read (the pipeline's fold leaves it as entered), and a buffer that is no window's array is not touched.
-/
import proofs.«143567_j2740189135247_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- Region 0 changes no buffer but its result `main_v36`. -/
theorem keep0 (b : Ref sig .tc) (h : b ≠ main_v36) : W4 m ρ c (Proc.devRef .tc b) = W3 m ρ c (Proc.devRef .tc b) := by
  by_cases h0 : b = main_arg0
  · subst h0; exact (W4_arr m ρ c 0).trans (((dat0 (V3 m ρ) c).arrAt_in 0 rfl _).trans (A_eq0 (V3 m ρ) c 0))
  by_cases h1 : b = main_arg3
  · subst h1; exact (W4_arr m ρ c 1).trans (((dat0 (V3 m ρ) c).arrAt_in 1 rfl _).trans (A_eq0 (V3 m ρ) c 1))
  exact W4_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 1 changes no buffer but its result `main_v51`. -/
theorem keep1 (b : Ref sig .tc) (h : b ≠ main_v51) : W6 m ρ c (Proc.devRef .tc b) = W5 m ρ c (Proc.devRef .tc b) := by
  by_cases h0 : b = main_v49
  · subst h0; exact (W6_arr m ρ c 0).trans (((dat1 (V5 m ρ) c).arrAt_in 0 rfl _).trans (A_eq1 (V5 m ρ) c 0))
  by_cases h1 : b = main_v50
  · subst h1; exact (W6_arr m ρ c 1).trans (((dat1 (V5 m ρ) c).arrAt_in 1 rfl _).trans (A_eq1 (V5 m ρ) c 1))
  exact W6_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 2 changes no buffer but its result `main_v52`. -/
theorem keep2 (b : Ref sig .tc) (h : b ≠ main_v52) : W7 m ρ c (Proc.devRef .tc b) = W6 m ρ c (Proc.devRef .tc b) := by
  by_cases h0 : b = main_v51
  · subst h0; exact (W7_arr m ρ c 0).trans (((dat2 (V6 m ρ) c).arrAt_in 0 rfl _).trans (A_eq2 (V6 m ρ) c 0))
  by_cases h1 : b = main_arg5
  · subst h1; exact (W7_arr m ρ c 1).trans (((dat2 (V6 m ρ) c).arrAt_in 1 rfl _).trans (A_eq2 (V6 m ρ) c 1))
  exact W7_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 3 changes no buffer but its result `main_v67`. -/
theorem keep3 (b : Ref sig .tc) (h : b ≠ main_v67) : W9 m ρ c (Proc.devRef .tc b) = W8 m ρ c (Proc.devRef .tc b) := by
  by_cases h0 : b = main_v65
  · subst h0; exact (W9_arr m ρ c 0).trans (((dat3 (V8 m ρ) c).arrAt_in 0 rfl _).trans (A_eq3 (V8 m ρ) c 0))
  by_cases h1 : b = main_v66
  · subst h1; exact (W9_arr m ρ c 1).trans (((dat3 (V8 m ρ) c).arrAt_in 1 rfl _).trans (A_eq3 (V8 m ρ) c 1))
  exact W9_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 4 changes no buffer but its result `main_v69`. -/
theorem keep4 (b : Ref sig .tc) (h : b ≠ main_v69) : W11 m ρ c (Proc.devRef .tc b) = W10 m ρ c (Proc.devRef .tc b) := by
  by_cases h0 : b = main_v67
  · subst h0; exact (W11_arr m ρ c 0).trans (((dat4 (V10 m ρ) c).arrAt_in 0 rfl _).trans (A_eq4 (V10 m ρ) c 0))
  by_cases h1 : b = main_arg7
  · subst h1; exact (W11_arr m ρ c 1).trans (((dat4 (V10 m ρ) c).arrAt_in 1 rfl _).trans (A_eq4 (V10 m ρ) c 1))
  by_cases h2 : b = main_v68
  · subst h2; exact (W11_arr m ρ c 2).trans (((dat4 (V10 m ρ) c).arrAt_in 2 rfl _).trans (A_eq4 (V10 m ρ) c 2))
  exact W11_of_ne m ρ c b (fun w => match w with
    | ⟨0, _⟩ => Ne.symm h0
    | ⟨1, _⟩ => Ne.symm h1
    | ⟨2, _⟩ => Ne.symm h2
    | ⟨3, _⟩ => Ne.symm h
    | ⟨_ + 4, hw⟩ => absurd hw (Nat.not_lt.2 (Nat.le_add_left _ _)))

/-- Region 5 changes no buffer but its result `main_v72`. -/
theorem keep5 (b : Ref sig .tc) (h : b ≠ main_v72) : W13 m ρ c (Proc.devRef .tc b) = W12 m ρ c (Proc.devRef .tc b) := by
  by_cases h0 : b = main_arg0
  · subst h0; exact (W13_arr m ρ c 0).trans (((dat5 (V12 m ρ) c).arrAt_in 0 rfl _).trans (A_eq5 (V12 m ρ) c 0))
  by_cases h1 : b = main_arg10
  · subst h1; exact (W13_arr m ρ c 1).trans (((dat5 (V12 m ρ) c).arrAt_in 1 rfl _).trans (A_eq5 (V12 m ρ) c 1))
  exact W13_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 6 changes no buffer but its result `main_v87`. -/
theorem keep6 (b : Ref sig .tc) (h : b ≠ main_v87) : W15 m ρ c (Proc.devRef .tc b) = W14 m ρ c (Proc.devRef .tc b) := by
  by_cases h0 : b = main_v85
  · subst h0; exact (W15_arr m ρ c 0).trans (((dat6 (V14 m ρ) c).arrAt_in 0 rfl _).trans (A_eq6 (V14 m ρ) c 0))
  by_cases h1 : b = main_v86
  · subst h1; exact (W15_arr m ρ c 1).trans (((dat6 (V14 m ρ) c).arrAt_in 1 rfl _).trans (A_eq6 (V14 m ρ) c 1))
  exact W15_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 7 changes no buffer but its result `main_v88`. -/
theorem keep7 (b : Ref sig .tc) (h : b ≠ main_v88) : W16 m ρ c (Proc.devRef .tc b) = W15 m ρ c (Proc.devRef .tc b) := by
  by_cases h0 : b = main_v87
  · subst h0; exact (W16_arr m ρ c 0).trans (((dat7 (V15 m ρ) c).arrAt_in 0 rfl _).trans (A_eq7 (V15 m ρ) c 0))
  by_cases h1 : b = main_arg12
  · subst h1; exact (W16_arr m ρ c 1).trans (((dat7 (V15 m ρ) c).arrAt_in 1 rfl _).trans (A_eq7 (V15 m ρ) c 1))
  exact W16_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 8 changes no buffer but its result `main_v103`. -/
theorem keep8 (b : Ref sig .tc) (h : b ≠ main_v103) : W18 m ρ c (Proc.devRef .tc b) = W17 m ρ c (Proc.devRef .tc b) := by
  by_cases h0 : b = main_v101
  · subst h0; exact (W18_arr m ρ c 0).trans (((dat8 (V17 m ρ) c).arrAt_in 0 rfl _).trans (A_eq8 (V17 m ρ) c 0))
  by_cases h1 : b = main_v102
  · subst h1; exact (W18_arr m ρ c 1).trans (((dat8 (V17 m ρ) c).arrAt_in 1 rfl _).trans (A_eq8 (V17 m ρ) c 1))
  exact W18_of_ne m ρ c b (fun w => match w with
    | ⟨0, _⟩ => Ne.symm h0
    | ⟨1, _⟩ => Ne.symm h1
    | ⟨2, _⟩ => Ne.symm h
    | ⟨_ + 3, hw⟩ => absurd hw (Nat.not_lt.2 (Nat.le_add_left _ _)))

/-- Region 9 changes no buffer but its result `main_v118`. -/
theorem keep9 (b : Ref sig .tc) (h : b ≠ main_v118) : W20 m ρ c (Proc.devRef .tc b) = W19 m ρ c (Proc.devRef .tc b) := by
  by_cases h0 : b = main_v115
  · subst h0; exact (W20_arr m ρ c 0).trans (((dat9 (V19 m ρ) c).arrAt_in 0 rfl _).trans (A_eq9 (V19 m ρ) c 0))
  by_cases h1 : b = main_arg14
  · subst h1; exact (W20_arr m ρ c 1).trans (((dat9 (V19 m ρ) c).arrAt_in 1 rfl _).trans (A_eq9 (V19 m ρ) c 1))
  by_cases h2 : b = main_v116
  · subst h2; exact (W20_arr m ρ c 2).trans (((dat9 (V19 m ρ) c).arrAt_in 2 rfl _).trans (A_eq9 (V19 m ρ) c 2))
  by_cases h3 : b = main_arg16
  · subst h3; exact (W20_arr m ρ c 3).trans (((dat9 (V19 m ρ) c).arrAt_in 3 rfl _).trans (A_eq9 (V19 m ρ) c 3))
  by_cases h4 : b = main_v117
  · subst h4; exact (W20_arr m ρ c 4).trans (((dat9 (V19 m ρ) c).arrAt_in 4 rfl _).trans (A_eq9 (V19 m ρ) c 4))
  exact W20_of_ne m ρ c b (fun w => match w with
    | ⟨0, _⟩ => Ne.symm h0
    | ⟨1, _⟩ => Ne.symm h1
    | ⟨2, _⟩ => Ne.symm h2
    | ⟨3, _⟩ => Ne.symm h3
    | ⟨4, _⟩ => Ne.symm h4
    | ⟨5, _⟩ => Ne.symm h
    | ⟨_ + 6, hw⟩ => absurd hw (Nat.not_lt.2 (Nat.le_add_left _ _)))

end Cert.KernelIdeal.Hand

end
-- ==== Proof.HostSkip.lean ====
/-
  Which buffers each stretch of host operations of the idealized kernel's @main writes, and hence that every other
  buffer keeps its contents across the stretch.
-/
import proofs.«143567_j2740189135247_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The buffers the operations of `hostOps0` write, in order. -/
abbrev written0 : List (Ref sig .tc) := [main_v0, main_v1, main_v2, main_v3, main_v4, main_v5, main_v6, main_cst, main_v7, main_c, main_v8, main_v9, main_c_0, main_v10, main_v11, main_v12, main_v13, main_cst_1, main_v14, main_v15, main_cst_2, main_v16, main_v17, main_cst_3, main_v18, main_v19, main_cst_4]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps0` does not write keeps its contents across it. -/
theorem skip0 (V : Valuation τ sig (Elt F)) (b : Ref sig .tc) (h : b ∉ written0) :
    StableHlo.after (hostOps0 : List (HloOp τ sig (Elt F))) V (Proc.devRef .tc b) = V (Proc.devRef .tc b) :=
  StableHlo.after_of_writes_sub hostOps0 V writes0 h

/-- The buffers the operations of `hostOps0_1` write, in order. -/
abbrev written0_1 : List (Ref sig .tc) := [main_call0_v0, main_call0_v1, main_v20]
theorem writes0_1 : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps0_1` does not write keeps its contents across it. -/
theorem skip0_1 (V : Valuation τ sig (Elt F)) (b : Ref sig .tc) (h : b ∉ written0_1) :
    StableHlo.after (hostOps0_1 : List (HloOp τ sig (Elt F))) V (Proc.devRef .tc b) = V (Proc.devRef .tc b) :=
  StableHlo.after_of_writes_sub hostOps0_1 V writes0_1 h

/-- The buffers the operations of `hostOps0_2` write, in order. -/
abbrev written0_2 : List (Ref sig .tc) := [main_c_5, main_v21, main_v22, main_c_6, main_v23, main_v24, main_v25, main_v26, main_v27, main_c_7, main_v28, main_v29, main_c_8, main_v30, main_v31, main_v32, main_v33, main_v34, main_v35]
theorem writes0_2 : (hostOps0_2 : List (HloOp τ sig (Elt F))).Forall fun op => op.writes ⊆ (written0_2.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps0_2` does not write keeps its contents across it. -/
theorem skip0_2 (V : Valuation τ sig (Elt F)) (b : Ref sig .tc) (h : b ∉ written0_2) :
    StableHlo.after (hostOps0_2 : List (HloOp τ sig (Elt F))) V (Proc.devRef .tc b) = V (Proc.devRef .tc b) :=
  StableHlo.after_of_writes_sub hostOps0_2 V writes0_2 h

/-- The buffers the operations of `hostOps1` write, in order. -/
abbrev written1 : List (Ref sig .tc) := [main_c_9, main_v37, main_v38, main_c_10, main_v39, main_v40, main_v41, main_v42, main_v43, main_v44, main_v45, main_v46, main_cst_11, main_v47, main_v48, main_v49, main_v50]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps1` does not write keeps its contents across it. -/
theorem skip1 (V : Valuation τ sig (Elt F)) (b : Ref sig .tc) (h : b ∉ written1) :
    StableHlo.after (hostOps1 : List (HloOp τ sig (Elt F))) V (Proc.devRef .tc b) = V (Proc.devRef .tc b) :=
  StableHlo.after_of_writes_sub hostOps1 V writes1 h

/-- The buffers the operations of `hostOps3` write, in order. -/
abbrev written3 : List (Ref sig .tc) := [main_c_12, main_v53, main_v54, main_c_13, main_v55, main_v56, main_v57, main_v58, main_v59, main_v60, main_v61, main_v62, main_cst_14, main_v63, main_v64, main_v65, main_v66]
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps3` does not write keeps its contents across it. -/
theorem skip3 (V : Valuation τ sig (Elt F)) (b : Ref sig .tc) (h : b ∉ written3) :
    StableHlo.after (hostOps3 : List (HloOp τ sig (Elt F))) V (Proc.devRef .tc b) = V (Proc.devRef .tc b) :=
  StableHlo.after_of_writes_sub hostOps3 V writes3 h

/-- The buffers the operations of `hostOps4` write, in order. -/
abbrev written4 : List (Ref sig .tc) := [main_v68]
theorem writes4 : (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps4` does not write keeps its contents across it. -/
theorem skip4 (V : Valuation τ sig (Elt F)) (b : Ref sig .tc) (h : b ∉ written4) :
    StableHlo.after (hostOps4 : List (HloOp τ sig (Elt F))) V (Proc.devRef .tc b) = V (Proc.devRef .tc b) :=
  StableHlo.after_of_writes_sub hostOps4 V writes4 h

/-- The buffers the operations of `hostOps5` write, in order. -/
abbrev written5 : List (Ref sig .tc) := [main_v70, main_v71]
theorem writes5 : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps5` does not write keeps its contents across it. -/
theorem skip5 (V : Valuation τ sig (Elt F)) (b : Ref sig .tc) (h : b ∉ written5) :
    StableHlo.after (hostOps5 : List (HloOp τ sig (Elt F))) V (Proc.devRef .tc b) = V (Proc.devRef .tc b) :=
  StableHlo.after_of_writes_sub hostOps5 V writes5 h

/-- The buffers the operations of `hostOps6` write, in order. -/
abbrev written6 : List (Ref sig .tc) := [main_c_15, main_v73, main_v74, main_c_16, main_v75, main_v76, main_v77, main_v78, main_v79, main_v80, main_v81, main_v82, main_cst_17, main_v83, main_v84, main_v85, main_v86]
theorem writes6 : (hostOps6 : List (HloOp τ sig (Elt F))).Forall fun op => op.writes ⊆ (written6.map (Proc.devRef (τ := τ) .tc)).toFinset := by
  simp only [hostOps6, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps6` does not write keeps its contents across it. -/
theorem skip6 (V : Valuation τ sig (Elt F)) (b : Ref sig .tc) (h : b ∉ written6) :
    StableHlo.after (hostOps6 : List (HloOp τ sig (Elt F))) V (Proc.devRef .tc b) = V (Proc.devRef .tc b) :=
  StableHlo.after_of_writes_sub hostOps6 V writes6 h

/-- The buffers the operations of `hostOps8` write, in order. -/
abbrev written8 : List (Ref sig .tc) := [main_c_18, main_v89, main_v90, main_c_19, main_v91, main_v92, main_v93, main_v94, main_v95, main_v96, main_v97, main_v98, main_cst_20, main_v99, main_v100, main_v101, main_v102]
theorem writes8 : (hostOps8 : List (HloOp τ sig (Elt F))).Forall fun op => op.writes ⊆ (written8.map (Proc.devRef (τ := τ) .tc)).toFinset := by
  simp only [hostOps8, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps8` does not write keeps its contents across it. -/
theorem skip8 (V : Valuation τ sig (Elt F)) (b : Ref sig .tc) (h : b ∉ written8) :
    StableHlo.after (hostOps8 : List (HloOp τ sig (Elt F))) V (Proc.devRef .tc b) = V (Proc.devRef .tc b) :=
  StableHlo.after_of_writes_sub hostOps8 V writes8 h

/-- The buffers the operations of `hostOps9` write, in order. -/
abbrev written9 : List (Ref sig .tc) := [main_cst_21, main_v104, main_v105, main_v106, main_cst_22, main_v107, main_cst_23, main_v108, main_v109, main_v110, main_cst_24, main_v111, main_v112, main_v113, main_v114, main_v115, main_v116, main_v117]
theorem writes9 : (hostOps9 : List (HloOp τ sig (Elt F))).Forall fun op => op.writes ⊆ (written9.map (Proc.devRef (τ := τ) .tc)).toFinset := by
  simp only [hostOps9, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer `hostOps9` does not write keeps its contents across it. -/
theorem skip9 (V : Valuation τ sig (Elt F)) (b : Ref sig .tc) (h : b ∉ written9) :
    StableHlo.after (hostOps9 : List (HloOp τ sig (Elt F))) V (Proc.devRef .tc b) = V (Proc.devRef .tc b) :=
  StableHlo.after_of_writes_sub hostOps9 V writes9 h

end Cert.KernelIdeal.Hand

end
-- ==== Proof.RowCast.lean ====
/-
  A vector of length n laid out as a 1 × n row is the same row whether it is made by a reshape (same elements in
  row-major order) or by a broadcast along a new leading unit axis: both read entry (0, j) from entry j.
-/
import Idealize.ShloMosaic.Lib.Pipeline.Value

noncomputable section

namespace Cert.Hand

open Idealize.ShloMosaic

/-- Reshaping a length-n vector to 1 × n is broadcasting it to 1 × n along axis 1. -/
theorem rowCast_eq {α : Type} {n : Nat} (b : (⟨1, ![n]⟩ : Shape).Idx → α)
    (h1 : (⟨1, ![n]⟩ : Shape).ShapeCasts ⟨2, ![1, n]⟩) (h2 : (⟨1, ![n]⟩ : Shape).BroadcastsInDim ⟨2, ![1, n]⟩ ![1]) :
    shapeCast ⟨2, ![1, n]⟩ b h1 = broadcastInDim ⟨2, ![1, n]⟩ ![1] h2 b := by
  funext j
  rw [shapeCast_addUnit_apply ![n] b h1 j]
  refine (broadcastInDim_apply ![1] h2 b j (fun a => j a.succ) ?_).symm
  intro a
  have ha : a = 0 := Subsingleton.elim _ _
  subst ha
  show (j 1).val = if n = 1 then 0 else (j 1).val
  split_ifs with hn
  · have hj : (j 1).val < n := (j 1).isLt
    omega
  · rfl

end Cert.Hand

end
-- ==== Proof.HostVal.lean ====
/-
  What each stretch of host operations of the idealized kernel's @main leaves in the buffers later segments read,
  as the specification's stages of the contents the stretch starts from: the operations are the reference's own
  (the edge lists with self loops and the edge weights once; per layer the gather, weighting and scatter-add; the
  biases as rows; the pooling), so each equation is the operations' composition read off the list.
-/
import proofs.«143567_j2740189135247_1_alg».proof.Proof.Gen.KernelIdeal.Launch
import proofs.«143567_j2740189135247_1_alg».proof.Proof.Spec
import proofs.«143567_j2740189135247_1_alg».proof.Proof.RowCast
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-- The first three stretches leave the sources of the extended edges in `main_v5`. -/
theorem pre_src : after hostOps0_2 (after hostOps0_1 (after hostOps0 V)) (Proc.devRef .tc main_v5) = Cert.Spec.srcIdx (V (Proc.devRef .tc main_arg1)) := by
  after_results_simp
  rfl
/-- … the targets in `main_v6`. -/
theorem pre_dst : after hostOps0_2 (after hostOps0_1 (after hostOps0 V)) (Proc.devRef .tc main_v6) = Cert.Spec.dstIdx (V (Proc.devRef .tc main_arg1)) := by
  after_results_simp
  rfl
/-- … and the edge weights in `main_v35`. -/
theorem pre_norm : after hostOps0_2 (after hostOps0_1 (after hostOps0 V)) (Proc.devRef .tc main_v35)
    = Cert.Spec.edgeNorm (Cert.Spec.srcIdx (V (Proc.devRef .tc main_arg1))) (Cert.Spec.dstIdx (V (Proc.devRef .tc main_arg1))) := by
  after_results_simp
  rfl

/-- `hostOps1` aggregates the rows of `main_v36` along the extended edges into `main_v49`. -/
theorem agg1 : after hostOps1 V (Proc.devRef .tc main_v49)
    = Cert.Spec.aggregate (V (Proc.devRef .tc main_v36)) (V (Proc.devRef .tc main_v5)) (V (Proc.devRef .tc main_v6)) (V (Proc.devRef .tc main_v35)) := by
  after_results_simp
  rfl
/-- … and lays the bias `main_arg4` out as a row in `main_v50`. -/
theorem bias1 : after hostOps1 V (Proc.devRef .tc main_v50) = Cert.Spec.row128 (V (Proc.devRef .tc main_arg4)) := by
  after_results_simp
  exact Cert.Hand.rowCast_eq _ _ _

/-- `hostOps3` aggregates the rows of `main_v52` along the extended edges into `main_v65`. -/
theorem agg3 : after hostOps3 V (Proc.devRef .tc main_v65)
    = Cert.Spec.aggregate (V (Proc.devRef .tc main_v52)) (V (Proc.devRef .tc main_v5)) (V (Proc.devRef .tc main_v6)) (V (Proc.devRef .tc main_v35)) := by
  after_results_simp
  rfl
/-- … and lays the bias `main_arg6` out as a row in `main_v66`. -/
theorem bias3 : after hostOps3 V (Proc.devRef .tc main_v66) = Cert.Spec.row128 (V (Proc.devRef .tc main_arg6)) := by
  after_results_simp
  exact Cert.Hand.rowCast_eq _ _ _

/-- `hostOps6` aggregates the rows of `main_v72` along the extended edges into `main_v85`. -/
theorem agg6 : after hostOps6 V (Proc.devRef .tc main_v85)
    = Cert.Spec.aggregate (V (Proc.devRef .tc main_v72)) (V (Proc.devRef .tc main_v5)) (V (Proc.devRef .tc main_v6)) (V (Proc.devRef .tc main_v35)) := by
  after_results_simp
  rfl
/-- … and lays the bias `main_arg11` out as a row in `main_v86`. -/
theorem bias6 : after hostOps6 V (Proc.devRef .tc main_v86) = Cert.Spec.row128 (V (Proc.devRef .tc main_arg11)) := by
  after_results_simp
  exact Cert.Hand.rowCast_eq _ _ _

/-- `hostOps8` aggregates the rows of `main_v88` along the extended edges into `main_v101`. -/
theorem agg8 : after hostOps8 V (Proc.devRef .tc main_v101)
    = Cert.Spec.aggregate (V (Proc.devRef .tc main_v88)) (V (Proc.devRef .tc main_v5)) (V (Proc.devRef .tc main_v6)) (V (Proc.devRef .tc main_v35)) := by
  after_results_simp
  rfl
/-- … and lays the bias `main_arg13` out as a row in `main_v102`. -/
theorem bias8 : after hostOps8 V (Proc.devRef .tc main_v102) = Cert.Spec.row128 (V (Proc.devRef .tc main_arg13)) := by
  after_results_simp
  exact Cert.Hand.rowCast_eq _ _ _

/-- `hostOps4` lays the actor head's bias out as a row. -/
theorem bias4 : after hostOps4 V (Proc.devRef .tc main_v68) = Cert.Spec.row8 (V (Proc.devRef .tc main_arg8)) := by
  after_results_simp
  exact Cert.Hand.rowCast_eq _ _ _

/-- `hostOps5` computes the standard deviation. -/
theorem std5 : after hostOps5 V (Proc.devRef .tc main_v71) = Cert.Spec.stdOf (V (Proc.devRef .tc main_arg9)) := by
  after_results_simp
  rfl

/-- `hostOps9` pools the critic's node features per graph. -/
theorem pool9 : after hostOps9 V (Proc.devRef .tc main_v115) = Cert.Spec.pool (V (Proc.devRef .tc main_v103)) (V (Proc.devRef .tc main_arg2)) := by
  after_results_simp
  rfl
/-- … and lays the two perceptron biases out as rows. -/
theorem bias9a : after hostOps9 V (Proc.devRef .tc main_v116) = Cert.Spec.row64 (V (Proc.devRef .tc main_arg15)) := by
  after_results_simp
  exact Cert.Hand.rowCast_eq _ _ _
theorem bias9b : after hostOps9 V (Proc.devRef .tc main_v117) = Cert.Spec.row1 (V (Proc.devRef .tc main_arg17)) := by
  after_results_simp
  exact Cert.Hand.rowCast_eq _ _ _

end Cert.KernelIdeal.Hand

end
-- ==== Proof.RegLinear.lean ====
/-
  The four matrix-product regions: each leaves in its result array the product of its two operand arrays as the region finds them.

  Each region multiplies a [100000,128] operand by a [128,128] weight in ten row blocks of 10000 rows: at grid point t
  the body reads rows 10000 t … 10000 t + 9999 of the operand and the whole weight, and its matrix product into a zero
  accumulator is, at the ideal values, the plain sum over the contracted index, so entry (p, q) of what it writes back is
  the sum over k of operand (10000 t + p, k) * weight (k, q). The ten blocks tile the result (row r lies in the block of
  point r / 10000), so the result array ends as the function (r, j) ↦ ∑ k, operand (r, k) * weight (k, j), which is also
  what the host's product of the two arrays is, entry by entry.
-/
import proofs.«143567_j2740189135247_1_alg».proof.Proof.Gen.KernelIdeal.Frame
import proofs.«143567_j2740189135247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's product of a row block with the weight, read at an entry -/

/-- The contraction's left operand index at output (p, q) and contraction coordinate k is (p, k). -/
theorem blockDot_lhs (j : S10000x128.Idx) (k : Fin 128) :
    dot_S10000x128_S128x128_S10000x128_1_0_0_1_n_n.lhsIdx j ((contrEquiv1 dot_S10000x128_S128x128_S10000x128_1_0_0_1_n_n 128 rfl rfl).symm k)
      = ix2 (n0 := 10000) (n1 := 128) ⟨(j 0).val, idx2_lt0 j⟩ k := by
  have hk := contrEquiv1_symm_val dot_S10000x128_S128x128_S10000x128_1_0_0_1_n_n 128 rfl rfl k
  funext a; apply Fin.ext
  match a with
  | ⟨0, _⟩ =>
    show (dot_S10000x128_S128x128_S10000x128_1_0_0_1_n_n.lhsIdx j _ 0).val = (j 0).val
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  | ⟨1, _⟩ => exact (dot_S10000x128_S128x128_S10000x128_1_0_0_1_n_n.lhsIdx_val_of_single rfl j _).trans hk

/-- The right operand index there is (k, q). -/
theorem blockDot_rhs (j : S10000x128.Idx) (k : Fin 128) :
    dot_S10000x128_S128x128_S10000x128_1_0_0_1_n_n.rhsIdx j ((contrEquiv1 dot_S10000x128_S128x128_S10000x128_1_0_0_1_n_n 128 rfl rfl).symm k)
      = ix2 (n0 := 128) (n1 := 128) k ⟨(j 1).val, idx2_lt1 j⟩ := by
  have hk := contrEquiv1_symm_val dot_S10000x128_S128x128_S10000x128_1_0_0_1_n_n 128 rfl rfl k
  funext a; apply Fin.ext
  match a with
  | ⟨0, _⟩ => exact (dot_S10000x128_S128x128_S10000x128_1_0_0_1_n_n.rhsIdx_val_of_single rfl j _).trans hk
  | ⟨1, _⟩ =>
    show (dot_S10000x128_S128x128_S10000x128_1_0_0_1_n_n.rhsIdx j _ 1).val = (j 1).val
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- The body's product of a row block with the weight, read at (p, q): the sum over k of x0 (p, k) * x1 (k, q). -/
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  rw [blockDot_lhs, blockDot_rhs]
  rfl

/-- Regions 2 and 7 first cast the row block to its own shape, which changes nothing; region 5's body is region 0's. -/
theorem pay2_eq (x0 : Vec Ideal S10000x128 .f32) (x1 : Vec Ideal S128x128 .f32) : k2_pay1 (F := Ideal) x0 x1 = k0_pay1 x0 x1 := by
  unfold k2_pay1 k0_pay1
  rw [shapeCast_self]
theorem pay5_eq (x0 : Vec Ideal S10000x128 .f32) (x1 : Vec Ideal S128x128 .f32) : k5_pay1 (F := Ideal) x0 x1 = k0_pay1 x0 x1 := rfl
theorem pay7_eq (x0 : Vec Ideal S10000x128 .f32) (x1 : Vec Ideal S128x128 .f32) : k7_pay1 (F := Ideal) x0 x1 = k0_pay1 x0 x1 := by
  unfold k7_pay1 k0_pay1
  rw [shapeCast_self]

/-! ## The product as one function of the two arrays -/

/-- The product of a [100000,128] array with a [128,128] one: entry (r, j) is the sum over k of a (r, k) * W (k, j). -/
def matProd (a : (⟨2, ![100000, 128]⟩ : Shape).Idx → EReal) (W : (⟨2, ![128, 128]⟩ : Shape).Idx → EReal) : (⟨2, ![100000, 128]⟩ : Shape).Idx → EReal :=
  fun i => ∑ k : Fin 128, a (ix2 (n0 := 100000) (n1 := 128) ⟨(i 0).val, idx2_lt0 i⟩ k) * W (ix2 (n0 := 128) (n1 := 128) k ⟨(i 1).val, idx2_lt1 i⟩)
theorem zeroOffsets : (![0, 0] : Fin 2 → Nat) = fun _ => 0 := funext fun a => by fin_cases a <;> rfl

/-- Where the left block holds rows n * 10000 … of `a` and the right block is `W`, the body's product of the blocks at
    (p, q) is entry (n * 10000 + p, q) of the product of the arrays. -/
theorem block_point (x0 : Vec Ideal S10000x128 .f32) (x1 : Vec Ideal S128x128 .f32)
    (a : S100000x128.Idx → EReal) (W : S128x128.Idx → EReal) (n : Nat)
    (h0 : ∀ (u : S10000x128.Idx) (i : S100000x128.Idx), (i 0).val = n * 10000 + (u 0).val → (i 1).val = (u 1).val → x0 u = a i)
    (h1 : ∀ u : S128x128.Idx, x1 u = W u)
    (y : S10000x128.Idx) (i : S100000x128.Idx) (hi0 : (i 0).val = n * 10000 + (y 0).val) (hi1 : (i 1).val = (y 1).val) :
    k0_pay1 (F := Ideal) x0 x1 y = matProd a W i := by
  obtain ⟨p, q, rfl⟩ : ∃ (p : Fin 10000) (q : Fin 128), y = ix2 p q := ⟨y 0, y 1, eq_ix2 y⟩
  rw [pay0_apply]
  unfold matProd
  refine Finset.sum_congr rfl fun k _ => ?_
  rw [h0 (ix2 p k) (ix2 ⟨(i 0).val, idx2_lt0 i⟩ k) hi0 rfl, h1]
  have hq : q = ⟨(i 1).val, idx2_lt1 i⟩ := Fin.ext hi1.symm
  rw [hq]

/-! ## The host's product of the two arrays, read at an entry -/

/-- The host product's left operand index at output (r, j) and contraction coordinate k is (r, k). -/
theorem hostDot_lhs (j : (⟨2, ![100000, 128]⟩ : Shape).Idx) (k : Fin 128) :
    Cert.ReferenceIdeal.dot_S100000x128_S128x128_S100000x128_1_0_0_1_n_n.lhsIdx j ((contrEquiv1 Cert.ReferenceIdeal.dot_S100000x128_S128x128_S100000x128_1_0_0_1_n_n 128 rfl rfl).symm k)
      = ix2 (n0 := 100000) (n1 := 128) ⟨(j 0).val, idx2_lt0 j⟩ k := by
  have hk := contrEquiv1_symm_val Cert.ReferenceIdeal.dot_S100000x128_S128x128_S100000x128_1_0_0_1_n_n 128 rfl rfl k
  funext a; apply Fin.ext
  match a with
  | ⟨0, _⟩ =>
    show (Cert.ReferenceIdeal.dot_S100000x128_S128x128_S100000x128_1_0_0_1_n_n.lhsIdx j _ 0).val = (j 0).val
    unfold DotDims.lhsIdx
    rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
    rfl
  | ⟨1, _⟩ => exact (Cert.ReferenceIdeal.dot_S100000x128_S128x128_S100000x128_1_0_0_1_n_n.lhsIdx_val_of_single rfl j _).trans hk

/-- Its right operand index there is (k, j). -/
theorem hostDot_rhs (j : (⟨2, ![100000, 128]⟩ : Shape).Idx) (k : Fin 128) :
    Cert.ReferenceIdeal.dot_S100000x128_S128x128_S100000x128_1_0_0_1_n_n.rhsIdx j ((contrEquiv1 Cert.ReferenceIdeal.dot_S100000x128_S128x128_S100000x128_1_0_0_1_n_n 128 rfl rfl).symm k)
      = ix2 (n0 := 128) (n1 := 128) k ⟨(j 1).val, idx2_lt1 j⟩ := by
  have hk := contrEquiv1_symm_val Cert.ReferenceIdeal.dot_S100000x128_S128x128_S100000x128_1_0_0_1_n_n 128 rfl rfl k
  funext a; apply Fin.ext
  match a with
  | ⟨0, _⟩ => exact (Cert.ReferenceIdeal.dot_S100000x128_S128x128_S100000x128_1_0_0_1_n_n.rhsIdx_val_of_single rfl j _).trans hk
  | ⟨1, _⟩ =>
    show (Cert.ReferenceIdeal.dot_S100000x128_S128x128_S100000x128_1_0_0_1_n_n.rhsIdx j _ 1).val = (j 1).val
    unfold DotDims.rhsIdx
    rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
    rfl

/-- The host's product of the two arrays is the same sum, entry by entry. -/
theorem linear_eq (a : Cert.Spec.FC Ideal Cert.ReferenceIdeal.S100000x128) (W : Cert.Spec.FC Ideal Cert.ReferenceIdeal.S128x128) :
    Cert.Spec.linear (F := Ideal) a W = matProd a W := by
  funext i
  unfold Cert.Spec.linear matProd
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  rw [hostDot_lhs, hostDot_rhs]

/-! ## From the row blocks to the result array, region by region -/

variable (V : (c : Dev nD) → (b : Ref sig .tc) → Buf (Elt Ideal) ((c : Thread nD τ).loc b)) (c : Dev nD)

/-! ## Region 0 -/

/-- The printed index maps over the grid: the operand's and the result's row blocks move with the point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point t is rows 10000 t … 10000 t + 9999 of the operand. -/
theorem iblk0_rows (t : Fin cfg0.N) (u : S10000x128.Idx) (i : S100000x128.Idx)
    (h0 : (i 0).val = t.val * 10000 + (u 0).val) (h1 : (i 1).val = (u 1).val) :
    (iblk0 (F := Ideal) V c 0 t : Vec Ideal S10000x128 .f32) u = (V c main_arg0 : S100000x128.Idx → EReal) i := by
  obtain ⟨e0, e1, -, -, -, -⟩ := idx_facts0 t
  unfold iblk0
  show V c main_arg0 (((cfg0.win 0).blk t).view.emb u) = V c main_arg0 i
  congr 1
  funext a; apply Fin.ext
  match a with
  | ⟨0, _⟩ => show win0_0.index t (0 : Fin 2) * 10000 + 1 * (u 0).val = (i 0).val; rw [e0, h0]; omega
  | ⟨1, _⟩ => show win0_0.index t (1 : Fin 2) * 128 + 1 * (u 1).val = (i 1).val; rw [e1, h1]; omega

/-- The weight's block at every point is the weight. -/
theorem iblk0_weight (t : Fin cfg0.N) (u : S128x128.Idx) :
    (iblk0 (F := Ideal) V c 1 t : Vec Ideal S128x128 .f32) u = (V c main_arg3 : S128x128.Idx → EReal) u := by
  obtain ⟨-, -, e0, e1, -, -⟩ := idx_facts0 t
  unfold iblk0
  show V c main_arg3 (((cfg0.win 1).blk t).view.emb u) = V c main_arg3 u
  congr 1
  funext a; apply Fin.ext
  match a with
  | ⟨0, _⟩ => show win0_1.index t (0 : Fin 2) * 128 + 1 * (u 0).val = (u 0).val; rw [e0]; omega
  | ⟨1, _⟩ => show win0_1.index t (1 : Fin 2) * 128 + 1 * (u 1).val = (u 1).val; rw [e1]; omega

/-- What point t writes back is block t of the product of the operand and the weight as the region finds them. -/
theorem flushed0_eq (t : Fin cfg0.N) :
    (dat0 (F := Ideal) V c).flushed 2 t = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  obtain ⟨-, -, -, -, e0, e1⟩ := idx_facts0 t
  funext y
  show k0_pay1 (iblk0 V c 0 t) (iblk0 V c 1 t) y = matProd (V c main_arg0) (V c main_arg3) (((cfg0.win 2).blk t).view.emb y)
  refine block_point _ _ _ _ t.val (iblk0_rows V c t) (iblk0_weight V c t) y _ ?_ ?_
  · show win0_2.index t (0 : Fin 2) * 10000 + 1 * (y 0).val = t.val * 10000 + (y 0).val; rw [e0]; omega
  · show win0_2.index t (1 : Fin 2) * 128 + 1 * (y 1).val = (y 1).val; rw [e1]; omega

/-- An index of the result is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v36).slice (win0_2.rect t)).set ↔ _
  rw [View.set_slice_whole, Rect.mem_set_unit]
  exact Iff.rfl

/-- Row r of the result lies in the block of point r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have ht : (i 0).val / 10000 < cfg0.N := Nat.lt_of_lt_of_eq (by omega : (i 0).val / 10000 < 10) hN.symm
  obtain ⟨-, -, -, -, e0, e1⟩ := idx_facts0 ⟨(i 0).val / 10000, ht⟩
  refine ⟨⟨(i 0).val / 10000, ht⟩, flush0_2 _, ?_⟩
  rw [mem_blk0]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; rw [e0]; show (i 0).val / 10000 * 10000 ≤ (i 0).val ∧ (i 0).val < (i 0).val / 10000 * 10000 + 10000; omega
  | ⟨1, _⟩ => show win0_2.index ⟨(i 0).val / 10000, ht⟩ (1 : Fin 2) * 128 ≤ (i 1).val ∧ (i 1).val < win0_2.index ⟨(i 0).val / 10000, ht⟩ (1 : Fin 2) * 128 + 128; rw [e1]; omega

/-- The result array after the region: the product of the operand and the weight as the region finds them. -/
theorem final0 : (dat0 (F := Ideal) V c).arrAt 2 cfg0.N = matProd (V c main_arg0) (V c main_arg3) :=
  (dat0 V c).arrAt_eq_of_cover 2 (matProd (V c main_arg0) (V c main_arg3)) (fun t _ => flushed0_eq V c t) (cover0)

/-! ## Region 2 -/

/-- The printed index maps over the grid: the operand's and the result's row blocks move with the point, the weight stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The operand's block at point t is rows 10000 t … 10000 t + 9999 of the operand. -/
theorem iblk2_rows (t : Fin cfg2.N) (u : S10000x128.Idx) (i : S100000x128.Idx)
    (h0 : (i 0).val = t.val * 10000 + (u 0).val) (h1 : (i 1).val = (u 1).val) :
    (iblk2 (F := Ideal) V c 0 t : Vec Ideal S10000x128 .f32) u = (V c main_v51 : S100000x128.Idx → EReal) i := by
  obtain ⟨e0, e1, -, -, -, -⟩ := idx_facts2 t
  unfold iblk2
  show V c main_v51 (((cfg2.win 0).blk t).view.emb u) = V c main_v51 i
  congr 1
  funext a; apply Fin.ext
  match a with
  | ⟨0, _⟩ => show win2_0.index t (0 : Fin 2) * 10000 + 1 * (u 0).val = (i 0).val; rw [e0, h0]; omega
  | ⟨1, _⟩ => show win2_0.index t (1 : Fin 2) * 128 + 1 * (u 1).val = (i 1).val; rw [e1, h1]; omega

/-- The weight's block at every point is the weight. -/
theorem iblk2_weight (t : Fin cfg2.N) (u : S128x128.Idx) :
    (iblk2 (F := Ideal) V c 1 t : Vec Ideal S128x128 .f32) u = (V c main_arg5 : S128x128.Idx → EReal) u := by
  obtain ⟨-, -, e0, e1, -, -⟩ := idx_facts2 t
  unfold iblk2
  show V c main_arg5 (((cfg2.win 1).blk t).view.emb u) = V c main_arg5 u
  congr 1
  funext a; apply Fin.ext
  match a with
  | ⟨0, _⟩ => show win2_1.index t (0 : Fin 2) * 128 + 1 * (u 0).val = (u 0).val; rw [e0]; omega
  | ⟨1, _⟩ => show win2_1.index t (1 : Fin 2) * 128 + 1 * (u 1).val = (u 1).val; rw [e1]; omega

/-- What point t writes back is block t of the product of the operand and the weight as the region finds them. -/
theorem flushed2_eq (t : Fin cfg2.N) :
    (dat2 (F := Ideal) V c).flushed 2 t = ((cfg2.win 2).blk t).view.read (Elt Ideal) (matProd (V c main_v51) (V c main_arg5)) := by
  show (cfg2.win 2).cut (grid2.coords t) ((dat2 V c).after 2 t) = _
  rw [after2_2]
  unfold out2_2
  rw [View.canon_unit_zero zeroOffsets]
  simp only [View.ld_unit_zero (S := S10000x128) zeroOffsets, View.ld_unit_zero (S := S128x128) zeroOffsets]
  obtain ⟨-, -, -, -, e0, e1⟩ := idx_facts2 t
  funext y
  show k2_pay1 (iblk2 V c 0 t) (iblk2 V c 1 t) y = matProd (V c main_v51) (V c main_arg5) (((cfg2.win 2).blk t).view.emb y)
  refine (congrFun (pay2_eq _ _) y).trans ?_
  refine block_point _ _ _ _ t.val (iblk2_rows V c t) (iblk2_weight V c t) y _ ?_ ?_
  · show win2_2.index t (0 : Fin 2) * 10000 + 1 * (y 0).val = t.val * 10000 + (y 0).val; rw [e0]; omega
  · show win2_2.index t (1 : Fin 2) * 128 + 1 * (y 1).val = (y 1).val; rw [e1]; omega

/-- An index of the result is in point t's block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v52).slice (win2_2.rect t)).set ↔ _
  rw [View.set_slice_whole, Rect.mem_set_unit]
  exact Iff.rfl

/-- Row r of the result lies in the block of point r / 10000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  have ht : (i 0).val / 10000 < cfg2.N := Nat.lt_of_lt_of_eq (by omega : (i 0).val / 10000 < 10) hN.symm
  obtain ⟨-, -, -, -, e0, e1⟩ := idx_facts2 ⟨(i 0).val / 10000, ht⟩
  refine ⟨⟨(i 0).val / 10000, ht⟩, flush2_2 _, ?_⟩
  rw [mem_blk2]
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; rw [e0]; show (i 0).val / 10000 * 10000 ≤ (i 0).val ∧ (i 0).val < (i 0).val / 10000 * 10000 + 10000; omega
  | ⟨1, _⟩ => show win2_2.index ⟨(i 0).val / 10000, ht⟩ (1 : Fin 2) * 128 ≤ (i 1).val ∧ (i 1).val < win2_2.index ⟨(i 0).val / 10000, ht⟩ (1 : Fin 2) * 128 + 128; rw [e1]; omega

/-- The result array after the region: the product of the operand and the weight as the region finds them. -/
theorem final2 : (dat2 (F := Ideal) V c).arrAt 2 cfg2.N = matProd (V c main_v51) (V c main_arg5) :=
  (dat2 V c).arrAt_eq_of_cover 2 (matProd (V c main_v51) (V c main_arg5)) (fun t _ => flushed2_eq V c t) (cover2)

/-! ## Region 5 -/

/-- The printed index maps over the grid: the operand's and the result's row blocks move with the point, the weight stays. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The operand's block at point t is rows 10000 t … 10000 t + 9999 of the operand. -/
theorem iblk5_rows (t : Fin cfg5.N) (u : S10000x128.Idx) (i : S100000x128.Idx)
    (h0 : (i 0).val = t.val * 10000 + (u 0).val) (h1 : (i 1).val = (u 1).val) :
    (iblk5 (F := Ideal) V c 0 t : Vec Ideal S10000x128 .f32) u = (V c main_arg0 : S100000x128.Idx → EReal) i := by
  obtain ⟨e0, e1, -, -, -, -⟩ := idx_facts5 t
  unfold iblk5
  show V c main_arg0 (((cfg5.win 0).blk t).view.emb u) = V c main_arg0 i
  congr 1
  funext a; apply Fin.ext
  match a with
  | ⟨0, _⟩ => show win5_0.index t (0 : Fin 2) * 10000 + 1 * (u 0).val = (i 0).val; rw [e0, h0]; omega
  | ⟨1, _⟩ => show win5_0.index t (1 : Fin 2) * 128 + 1 * (u 1).val = (i 1).val; rw [e1, h1]; omega

/-- The weight's block at every point is the weight. -/
theorem iblk5_weight (t : Fin cfg5.N) (u : S128x128.Idx) :
    (iblk5 (F := Ideal) V c 1 t : Vec Ideal S128x128 .f32) u = (V c main_arg10 : S128x128.Idx → EReal) u := by
  obtain ⟨-, -, e0, e1, -, -⟩ := idx_facts5 t
  unfold iblk5
  show V c main_arg10 (((cfg5.win 1).blk t).view.emb u) = V c main_arg10 u
  congr 1
  funext a; apply Fin.ext
  match a with
  | ⟨0, _⟩ => show win5_1.index t (0 : Fin 2) * 128 + 1 * (u 0).val = (u 0).val; rw [e0]; omega
  | ⟨1, _⟩ => show win5_1.index t (1 : Fin 2) * 128 + 1 * (u 1).val = (u 1).val; rw [e1]; omega

/-- What point t writes back is block t of the product of the operand and the weight as the region finds them. -/
theorem flushed5_eq (t : Fin cfg5.N) :
    (dat5 (F := Ideal) V c).flushed 2 t = ((cfg5.win 2).blk t).view.read (Elt Ideal) (matProd (V c main_arg0) (V c main_arg10)) := by
  show (cfg5.win 2).cut (grid5.coords t) ((dat5 V c).after 2 t) = _
  rw [after5_2]
  unfold out5_2
  rw [View.canon_unit_zero zeroOffsets]
  simp only [View.ld_unit_zero (S := S10000x128) zeroOffsets, View.ld_unit_zero (S := S128x128) zeroOffsets]
  obtain ⟨-, -, -, -, e0, e1⟩ := idx_facts5 t
  funext y
  show k5_pay1 (iblk5 V c 0 t) (iblk5 V c 1 t) y = matProd (V c main_arg0) (V c main_arg10) (((cfg5.win 2).blk t).view.emb y)
  refine (congrFun (pay5_eq _ _) y).trans ?_
  refine block_point _ _ _ _ t.val (iblk5_rows V c t) (iblk5_weight V c t) y _ ?_ ?_
  · show win5_2.index t (0 : Fin 2) * 10000 + 1 * (y 0).val = t.val * 10000 + (y 0).val; rw [e0]; omega
  · show win5_2.index t (1 : Fin 2) * 128 + 1 * (y 1).val = (y 1).val; rw [e1]; omega

/-- An index of the result is in point t's block iff each coordinate is in the block's range on its axis. -/
theorem mem_blk5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v72).slice (win5_2.rect t)).set ↔ _
  rw [View.set_slice_whole, Rect.mem_set_unit]
  exact Iff.rfl

/-- Row r of the result lies in the block of point r / 10000. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  have ht : (i 0).val / 10000 < cfg5.N := Nat.lt_of_lt_of_eq (by omega : (i 0).val / 10000 < 10) hN.symm
  obtain ⟨-, -, -, -, e0, e1⟩ := idx_facts5 ⟨(i 0).val / 10000, ht⟩
  refine ⟨⟨(i 0).val / 10000, ht⟩, flush5_2 _, ?_⟩
  rw [mem_blk5]
  intro a
  match a with
  | ⟨0, _⟩ => show win5_2.index ⟨(i 0).val / 10000, ht⟩ (0 : Fin 2) * 10000 ≤ (i 0).val ∧ (i 0).val < win5_2.index ⟨(i 0).val / 10000, ht⟩ (0 : Fin 2) * 10000 + 10000; rw [e0]; show (i 0).val / 10000 * 10000 ≤ (i 0).val ∧ (i 0).val < (i 0).val / 10000 * 10000 + 10000; omega
  | ⟨1, _⟩ => show win5_2.index ⟨(i 0).val / 10000, ht⟩ (1 : Fin 2) * 128 ≤ (i 1).val ∧ (i 1).val < win5_2.index ⟨(i 0).val / 10000, ht⟩ (1 : Fin 2) * 128 + 128; rw [e1]; omega

/-- The result array after the region: the product of the operand and the weight as the region finds them. -/
theorem final5 : (dat5 (F := Ideal) V c).arrAt 2 cfg5.N = matProd (V c main_arg0) (V c main_arg10) :=
  (dat5 V c).arrAt_eq_of_cover 2 (matProd (V c main_arg0) (V c main_arg10)) (fun t _ => flushed5_eq V c t) (cover5)

/-! ## Region 7 -/

/-- The printed index maps over the grid: the operand's and the result's row blocks move with the point, the weight stays. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The operand's block at point t is rows 10000 t … 10000 t + 9999 of the operand. -/
theorem iblk7_rows (t : Fin cfg7.N) (u : S10000x128.Idx) (i : S100000x128.Idx)
    (h0 : (i 0).val = t.val * 10000 + (u 0).val) (h1 : (i 1).val = (u 1).val) :
    (iblk7 (F := Ideal) V c 0 t : Vec Ideal S10000x128 .f32) u = (V c main_v87 : S100000x128.Idx → EReal) i := by
  obtain ⟨e0, e1, -, -, -, -⟩ := idx_facts7 t
  unfold iblk7
  show V c main_v87 (((cfg7.win 0).blk t).view.emb u) = V c main_v87 i
  congr 1
  funext a; apply Fin.ext
  match a with
  | ⟨0, _⟩ => show win7_0.index t (0 : Fin 2) * 10000 + 1 * (u 0).val = (i 0).val; rw [e0, h0]; omega
  | ⟨1, _⟩ => show win7_0.index t (1 : Fin 2) * 128 + 1 * (u 1).val = (i 1).val; rw [e1, h1]; omega

/-- The weight's block at every point is the weight. -/
theorem iblk7_weight (t : Fin cfg7.N) (u : S128x128.Idx) :
    (iblk7 (F := Ideal) V c 1 t : Vec Ideal S128x128 .f32) u = (V c main_arg12 : S128x128.Idx → EReal) u := by
  obtain ⟨-, -, e0, e1, -, -⟩ := idx_facts7 t
  unfold iblk7
  show V c main_arg12 (((cfg7.win 1).blk t).view.emb u) = V c main_arg12 u
  congr 1
  funext a; apply Fin.ext
  match a with
  | ⟨0, _⟩ => show win7_1.index t (0 : Fin 2) * 128 + 1 * (u 0).val = (u 0).val; rw [e0]; omega
  | ⟨1, _⟩ => show win7_1.index t (1 : Fin 2) * 128 + 1 * (u 1).val = (u 1).val; rw [e1]; omega

/-- What point t writes back is block t of the product of the operand and the weight as the region finds them. -/
theorem flushed7_eq (t : Fin cfg7.N) :
    (dat7 (F := Ideal) V c).flushed 2 t = ((cfg7.win 2).blk t).view.read (Elt Ideal) (matProd (V c main_v87) (V c main_arg12)) := by
  show (cfg7.win 2).cut (grid7.coords t) ((dat7 V c).after 2 t) = _
  rw [after7_2]
  unfold out7_2
  rw [View.canon_unit_zero zeroOffsets]
  simp only [View.ld_unit_zero (S := S10000x128) zeroOffsets, View.ld_unit_zero (S := S128x128) zeroOffsets]
  obtain ⟨-, -, -, -, e0, e1⟩ := idx_facts7 t
  funext y
  show k7_pay1 (iblk7 V c 0 t) (iblk7 V c 1 t) y = matProd (V c main_v87) (V c main_arg12) (((cfg7.win 2).blk t).view.emb y)
  refine (congrFun (pay7_eq _ _) y).trans ?_
  refine block_point _ _ _ _ t.val (iblk7_rows V c t) (iblk7_weight V c t) y _ ?_ ?_
  · show win7_2.index t (0 : Fin 2) * 10000 + 1 * (y 0).val = t.val * 10000 + (y 0).val; rw [e0]; omega
  · show win7_2.index t (1 : Fin 2) * 128 + 1 * (y 1).val = (y 1).val; rw [e1]; omega

/-- An index of the result is in point t's block iff each coordinate is in the block's range on its axis. -/
theorem mem_blk7 (t : Fin cfg7.N) (i : S100000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v88).slice (win7_2.rect t)).set ↔ _
  rw [View.set_slice_whole, Rect.mem_set_unit]
  exact Iff.rfl

/-- Row r of the result lies in the block of point r / 10000. -/
theorem cover7 (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 10 := N_7
  have ht : (i 0).val / 10000 < cfg7.N := Nat.lt_of_lt_of_eq (by omega : (i 0).val / 10000 < 10) hN.symm
  obtain ⟨-, -, -, -, e0, e1⟩ := idx_facts7 ⟨(i 0).val / 10000, ht⟩
  refine ⟨⟨(i 0).val / 10000, ht⟩, flush7_2 _, ?_⟩
  rw [mem_blk7]
  intro a
  match a with
  | ⟨0, _⟩ => show win7_2.index ⟨(i 0).val / 10000, ht⟩ (0 : Fin 2) * 10000 ≤ (i 0).val ∧ (i 0).val < win7_2.index ⟨(i 0).val / 10000, ht⟩ (0 : Fin 2) * 10000 + 10000; rw [e0]; show (i 0).val / 10000 * 10000 ≤ (i 0).val ∧ (i 0).val < (i 0).val / 10000 * 10000 + 10000; omega
  | ⟨1, _⟩ => show win7_2.index ⟨(i 0).val / 10000, ht⟩ (1 : Fin 2) * 128 ≤ (i 1).val ∧ (i 1).val < win7_2.index ⟨(i 0).val / 10000, ht⟩ (1 : Fin 2) * 128 + 128; rw [e1]; omega

/-- The result array after the region: the product of the operand and the weight as the region finds them. -/
theorem final7 : (dat7 (F := Ideal) V c).arrAt 2 cfg7.N = matProd (V c main_v87) (V c main_arg12) :=
  (dat7 V c).arrAt_eq_of_cover 2 (matProd (V c main_v87) (V c main_arg12)) (fun t _ => flushed7_eq V c t) (cover7)

/-! ## The four regions' result arrays -/

theorem region0_val : (dat0 (F := Ideal) V c).arrAt 2 cfg0.N = Cert.Spec.linear (F := Ideal) (V c main_arg0) (V c main_arg3) :=
  (final0 V c).trans (linear_eq (V c main_arg0) (V c main_arg3)).symm
theorem region2_val : (dat2 (F := Ideal) V c).arrAt 2 cfg2.N = Cert.Spec.linear (F := Ideal) (V c main_v51) (V c main_arg5) :=
  (final2 V c).trans (linear_eq (V c main_v51) (V c main_arg5)).symm
theorem region5_val : (dat5 (F := Ideal) V c).arrAt 2 cfg5.N = Cert.Spec.linear (F := Ideal) (V c main_arg0) (V c main_arg10) :=
  (final5 V c).trans (linear_eq (V c main_arg0) (V c main_arg10)).symm
theorem region7_val : (dat7 (F := Ideal) V c).arrAt 2 cfg7.N = Cert.Spec.linear (F := Ideal) (V c main_v87) (V c main_arg12) :=
  (final7 V c).trans (linear_eq (V c main_v87) (V c main_arg12)).symm

end Cert.KernelIdeal.Hand

end
-- ==== Proof.RegBiasRelu.lean ====
/-
  The four bias-and-relu regions: each leaves in its result array relu (a + b), b a 1 × 128 row repeated down the rows.

  The result is pointwise: entry (r, j) is max (a (r, j) + b (0, j)) 0. Each of the ten grid points reads rows
  10000 t … 10000 t + 9999 of the operand and the whole bias row, and writes back the same rows of the result, so the
  ten blocks cover the result and each holds that function of the operand and the bias.
-/
import proofs.«143567_j2740189135247_1_alg».proof.Proof.Gen.KernelIdeal.Frame
import proofs.«143567_j2740189135247_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## relu (a + b) index by index -/

/-- Both spellings of the zero offsets. -/
theorem hz : (![0, 0] : Fin 2 → Nat) = fun _ => 0 := funext fun a => by fin_cases a <;> rfl

/-- relu (a + b) index by index: entry (r, j) is max (a (r, j) + b (0, j)) 0. -/
def reluRow (a : S100000x128.Idx → Elt Ideal .f32) (b : S1x128.Idx → Elt Ideal .f32) : S100000x128.Idx → Elt Ideal .f32 :=
  fun i => max (a i + b (ix2 (0 : Fin 1) (⟨(i 1).val, idx2_lt1 i⟩ : Fin 128))) (Ideal.ofBits .f32 0x00000000#32)

/-- relu (a + b) read at (r, q). -/
theorem reluRow_apply (a : S100000x128.Idx → Elt Ideal .f32) (b : S1x128.Idx → Elt Ideal .f32) (r : Fin 100000) (q : Fin 128) :
    reluRow a b (ix2 r q) = max (a (ix2 r q) + b (ix2 (0 : Fin 1) q)) (Ideal.ofBits .f32 0x00000000#32) := rfl

/-- The whole-array statement is that function: the row broadcast down the rows reads the row at (0, q), and the zero
    scalar broadcast to the array reads zero. -/
theorem biasRelu_eq (a : Cert.Spec.FC Ideal Cert.ReferenceIdeal.S100000x128) (b : Cert.Spec.FC Ideal Cert.ReferenceIdeal.S1x128) :
    Cert.Spec.biasRelu (F := Ideal) a b = reluRow a b := by
  funext i
  obtain ⟨r, q, rfl⟩ : ∃ (r : Fin 100000) (q : Fin 128), i = ix2 r q := ⟨i 0, i 1, eq_ix2 i⟩
  refine Eq.trans ?_ (reluRow_apply _ _ r q).symm
  unfold Cert.Spec.biasRelu
  rw [maximumf_apply, addf_apply]
  rw [broadcastInDim_oneRow_apply _ b r q]
  rw [broadcastInDim_scalar_apply _ _ (ix2 r q)]
  rfl

variable (V : (c : Dev nD) → (b : Ref sig .tc) → Buf (Elt Ideal) ((c : Thread nD τ).loc b)) (c : Dev nD)

/-! ## Region 1: operand `main_v49`, bias row `main_v50`, result `main_v51` -/

/-- The body's value on one block: entry (p, q) is max (x (p, q) + row (0, q)) 0. The casts to the same shape are the
    identity, the row broadcast down the block reads the row, the splat of the zero word reads zero. -/
theorem pay1_apply (row : Vec Ideal S1x128 .f32) (x : Vec Ideal S10000x128 .f32) (p : Fin 10000) (q : Fin 128) :
    k1_pay1 row x (ix2 p q) = max (x (ix2 p q) + row (ix2 (0 : Fin 1) q)) (Ideal.ofBits .f32 0x00000000#32) := by
  unfold k1_pay1
  rw [shapeCast_self, shapeCast_self, shapeCast_self]
  rw [maximumf_apply, addf_apply, broadcast_apply]
  rw [broadcastTo_apply row broadcasts_S1x128_S10000x128 (ix2 p q) (ix2 (0 : Fin 1) q) (by
    intro a
    match a with
    | ⟨0, _⟩ => rfl
    | ⟨1, _⟩ => rfl)]
  rfl

/-- The index maps over the grid: the operand's and the result's row block is the point's number, the bias row's
    block is always the first, and no window moves along the columns. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The operand's block at point `t` is rows `10000 t … 10000 t + 9999` of the operand. -/
theorem blk1_0_apply (t : Fin cfg1.N) (x : S10000x128.Idx) (k : S100000x128.Idx)
    (hk0 : (k 0).val = t.val * 10000 + (x 0).val) (hk1 : (k 1).val = (x 1).val) :
    (iblk1 V c 0 t : Vec Ideal S10000x128 .f32) x = (V c main_v49 : S100000x128.Idx → Elt Ideal .f32) k := by
  obtain ⟨e0, e1, -⟩ := idx_facts1 t
  unfold iblk1
  rw [View.read_apply]
  show V c main_v49 _ = V c main_v49 _
  refine congrArg _ (funext fun a => Fin.ext ?_)
  match a with
  | ⟨0, _⟩ => show win1_0.index t (0 : Fin 2) * 10000 + 1 * (x 0).val = (k 0).val; rw [e0, hk0]; omega
  | ⟨1, _⟩ => show win1_0.index t (1 : Fin 2) * 128 + 1 * (x 1).val = (k 1).val; rw [e1, hk1]; omega

/-- The bias window's block at every point is the whole bias row. -/
theorem blk1_1_apply (t : Fin cfg1.N) (x : S1x128.Idx) (k : S1x128.Idx)
    (hk0 : (k 0).val = (x 0).val) (hk1 : (k 1).val = (x 1).val) :
    (iblk1 V c 1 t : Vec Ideal S1x128 .f32) x = (V c main_v50 : S1x128.Idx → Elt Ideal .f32) k := by
  obtain ⟨-, -, e0, e1, -⟩ := idx_facts1 t
  unfold iblk1
  rw [View.read_apply]
  show V c main_v50 _ = V c main_v50 _
  refine congrArg _ (funext fun a => Fin.ext ?_)
  match a with
  | ⟨0, _⟩ => show win1_1.index t (0 : Fin 2) * 1 + 1 * (x 0).val = (k 0).val; rw [e0, hk0]; omega
  | ⟨1, _⟩ => show win1_1.index t (1 : Fin 2) * 128 + 1 * (x 1).val = (k 1).val; rw [e1, hk1]; omega

/-- What point `t` writes back is block `t` of relu (a + b): the body's value at (p, q) of its block reads the operand at
    row `10000 t + p` and the bias at column `q`, and the result's block `t` starts at that same row. -/
theorem flushed1_eq (t : Fin cfg1.N) :
    (dat1 (F := Ideal) V c).flushed 2 t = ((cfg1.win 2).blk t).view.read (Elt Ideal) (reluRow (V c main_v49) (V c main_v50)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨-, -, -, -, e0, e1⟩ := idx_facts1 t
  funext j
  obtain ⟨p, q, rfl⟩ : ∃ (p : Fin 10000) (q : Fin 128), j = ix2 p q := ⟨j 0, j 1, eq_ix2 j⟩
  refine (pay1_apply _ _ p q).trans ?_
  rw [View.read_apply]
  have hp : t.val * 10000 + p.val < 100000 := by
    have hN : grid1.N = 10 := N_1
    have ht : t.val < grid1.N := t.isLt
    have := p.isLt
    omega
  have hi : ((cfg1.win 2).blk t).view.emb (ix2 p q) = ix2 (⟨t.val * 10000 + p.val, hp⟩ : Fin 100000) q := by
    funext a; apply Fin.ext
    match a with
    | ⟨0, _⟩ => show win1_2.index t (0 : Fin 2) * 10000 + 1 * p.val = t.val * 10000 + p.val; rw [e0]; omega
    | ⟨1, _⟩ => show win1_2.index t (1 : Fin 2) * 128 + 1 * q.val = q.val; rw [e1]; omega
  show _ = reluRow (V c main_v49) (V c main_v50) (((cfg1.win 2).blk t).view.emb (ix2 p q))
  rw [hi]
  refine Eq.trans ?_ (reluRow_apply _ _ _ q).symm
  rw [blk1_0_apply V c t (ix2 p q) (ix2 (⟨t.val * 10000 + p.val, hp⟩ : Fin 100000) q) rfl rfl,
    blk1_1_apply V c t (ix2 (0 : Fin 1) q) (ix2 (0 : Fin 1) q) rfl rfl]

/-- An index of the result is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v51).slice (win1_2.rect t)).set ↔ _
  rw [View.set_slice_whole, Rect.mem_set_unit]
  exact Iff.rfl

/-- Row `r` lies in the block of point `r / 10000`, and every point writes back: the blocks cover the result. -/
theorem cover1 (i : S100000x128.Idx) :
    ∃ t : Fin cfg1.N, (cfg1.win 2).flush t = true ∧ i ∈ ((cfg1.win 2).blk t).view.set := by
  have hN : grid1.N = 10 := N_1
  have hi0 : (i 0).val < 100000 := idx2_lt0 i
  have hi1 : (i 1).val < 128 := idx2_lt1 i
  have ht : (i 0).val / 10000 < grid1.N := by rw [hN]; omega
  refine ⟨⟨(i 0).val / 10000, ht⟩, flush1_2 _, ?_⟩
  rw [mem_blk1]
  obtain ⟨-, -, -, -, e0, e1⟩ := idx_facts1 ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_2.index ⟨(i 0).val / 10000, ht⟩ (1 : Fin 2) * 128 ≤ (i 1).val ∧ (i 1).val < win1_2.index ⟨(i 0).val / 10000, ht⟩ (1 : Fin 2) * 128 + 128
    rw [e1]
    omega

/-- The result array after region 1, index by index. -/
theorem final1 : (dat1 (F := Ideal) V c).arrAt 2 cfg1.N = reluRow (V c main_v49) (V c main_v50) :=
  (dat1 (F := Ideal) V c).arrAt_eq_of_cover 2 (reluRow (V c main_v49) (V c main_v50)) (fun t _ => flushed1_eq V c t) cover1

/-! ## Region 3: operand `main_v65`, bias row `main_v66`, result `main_v67` -/

/-- The body's value on one block: entry (p, q) is max (x (p, q) + row (0, q)) 0. The casts to the same shape are the
    identity, the row broadcast down the block reads the row, the splat of the zero word reads zero. -/
theorem pay3_apply (row : Vec Ideal S1x128 .f32) (x : Vec Ideal S10000x128 .f32) (p : Fin 10000) (q : Fin 128) :
    k3_pay1 row x (ix2 p q) = max (x (ix2 p q) + row (ix2 (0 : Fin 1) q)) (Ideal.ofBits .f32 0x00000000#32) := by
  unfold k3_pay1
  rw [shapeCast_self, shapeCast_self, shapeCast_self]
  rw [maximumf_apply, addf_apply, broadcast_apply]
  rw [broadcastTo_apply row broadcasts_S1x128_S10000x128 (ix2 p q) (ix2 (0 : Fin 1) q) (by
    intro a
    match a with
    | ⟨0, _⟩ => rfl
    | ⟨1, _⟩ => rfl)]
  rfl

/-- The index maps over the grid: the operand's and the result's row block is the point's number, the bias row's
    block is always the first, and no window moves along the columns. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The operand's block at point `t` is rows `10000 t … 10000 t + 9999` of the operand. -/
theorem blk3_0_apply (t : Fin cfg3.N) (x : S10000x128.Idx) (k : S100000x128.Idx)
    (hk0 : (k 0).val = t.val * 10000 + (x 0).val) (hk1 : (k 1).val = (x 1).val) :
    (iblk3 V c 0 t : Vec Ideal S10000x128 .f32) x = (V c main_v65 : S100000x128.Idx → Elt Ideal .f32) k := by
  obtain ⟨e0, e1, -⟩ := idx_facts3 t
  unfold iblk3
  rw [View.read_apply]
  show V c main_v65 _ = V c main_v65 _
  refine congrArg _ (funext fun a => Fin.ext ?_)
  match a with
  | ⟨0, _⟩ => show win3_0.index t (0 : Fin 2) * 10000 + 1 * (x 0).val = (k 0).val; rw [e0, hk0]; omega
  | ⟨1, _⟩ => show win3_0.index t (1 : Fin 2) * 128 + 1 * (x 1).val = (k 1).val; rw [e1, hk1]; omega

/-- The bias window's block at every point is the whole bias row. -/
theorem blk3_1_apply (t : Fin cfg3.N) (x : S1x128.Idx) (k : S1x128.Idx)
    (hk0 : (k 0).val = (x 0).val) (hk1 : (k 1).val = (x 1).val) :
    (iblk3 V c 1 t : Vec Ideal S1x128 .f32) x = (V c main_v66 : S1x128.Idx → Elt Ideal .f32) k := by
  obtain ⟨-, -, e0, e1, -⟩ := idx_facts3 t
  unfold iblk3
  rw [View.read_apply]
  show V c main_v66 _ = V c main_v66 _
  refine congrArg _ (funext fun a => Fin.ext ?_)
  match a with
  | ⟨0, _⟩ => show win3_1.index t (0 : Fin 2) * 1 + 1 * (x 0).val = (k 0).val; rw [e0, hk0]; omega
  | ⟨1, _⟩ => show win3_1.index t (1 : Fin 2) * 128 + 1 * (x 1).val = (k 1).val; rw [e1, hk1]; omega

/-- What point `t` writes back is block `t` of relu (a + b): the body's value at (p, q) of its block reads the operand at
    row `10000 t + p` and the bias at column `q`, and the result's block `t` starts at that same row. -/
theorem flushed3_eq (t : Fin cfg3.N) :
    (dat3 (F := Ideal) V c).flushed 2 t = ((cfg3.win 2).blk t).view.read (Elt Ideal) (reluRow (V c main_v65) (V c main_v66)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨-, -, -, -, e0, e1⟩ := idx_facts3 t
  funext j
  obtain ⟨p, q, rfl⟩ : ∃ (p : Fin 10000) (q : Fin 128), j = ix2 p q := ⟨j 0, j 1, eq_ix2 j⟩
  refine (pay3_apply _ _ p q).trans ?_
  rw [View.read_apply]
  have hp : t.val * 10000 + p.val < 100000 := by
    have hN : grid3.N = 10 := N_3
    have ht : t.val < grid3.N := t.isLt
    have := p.isLt
    omega
  have hi : ((cfg3.win 2).blk t).view.emb (ix2 p q) = ix2 (⟨t.val * 10000 + p.val, hp⟩ : Fin 100000) q := by
    funext a; apply Fin.ext
    match a with
    | ⟨0, _⟩ => show win3_2.index t (0 : Fin 2) * 10000 + 1 * p.val = t.val * 10000 + p.val; rw [e0]; omega
    | ⟨1, _⟩ => show win3_2.index t (1 : Fin 2) * 128 + 1 * q.val = q.val; rw [e1]; omega
  show _ = reluRow (V c main_v65) (V c main_v66) (((cfg3.win 2).blk t).view.emb (ix2 p q))
  rw [hi]
  refine Eq.trans ?_ (reluRow_apply _ _ _ q).symm
  rw [blk3_0_apply V c t (ix2 p q) (ix2 (⟨t.val * 10000 + p.val, hp⟩ : Fin 100000) q) rfl rfl,
    blk3_1_apply V c t (ix2 (0 : Fin 1) q) (ix2 (0 : Fin 1) q) rfl rfl]

/-- An index of the result is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v67).slice (win3_2.rect t)).set ↔ _
  rw [View.set_slice_whole, Rect.mem_set_unit]
  exact Iff.rfl

/-- Row `r` lies in the block of point `r / 10000`, and every point writes back: the blocks cover the result. -/
theorem cover3 (i : S100000x128.Idx) :
    ∃ t : Fin cfg3.N, (cfg3.win 2).flush t = true ∧ i ∈ ((cfg3.win 2).blk t).view.set := by
  have hN : grid3.N = 10 := N_3
  have hi0 : (i 0).val < 100000 := idx2_lt0 i
  have hi1 : (i 1).val < 128 := idx2_lt1 i
  have ht : (i 0).val / 10000 < grid3.N := by rw [hN]; omega
  refine ⟨⟨(i 0).val / 10000, ht⟩, flush3_2 _, ?_⟩
  rw [mem_blk3]
  obtain ⟨-, -, -, -, e0, e1⟩ := idx_facts3 ⟨(i 0).val / 10000, ht⟩
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win3_2.index ⟨(i 0).val / 10000, ht⟩ (1 : Fin 2) * 128 ≤ (i 1).val ∧ (i 1).val < win3_2.index ⟨(i 0).val / 10000, ht⟩ (1 : Fin 2) * 128 + 128
    rw [e1]
    omega

/-- The result array after region 3, index by index. -/
theorem final3 : (dat3 (F := Ideal) V c).arrAt 2 cfg3.N = reluRow (V c main_v65) (V c main_v66) :=
  (dat3 (F := Ideal) V c).arrAt_eq_of_cover 2 (reluRow (V c main_v65) (V c main_v66)) (fun t _ => flushed3_eq V c t) cover3

/-! ## Region 6: operand `main_v85`, bias row `main_v86`, result `main_v87` -/

/-- The body's value on one block: entry (p, q) is max (x (p, q) + row (0, q)) 0. The casts to the same shape are the
    identity, the row broadcast down the block reads the row, the splat of the zero word reads zero. -/
theorem pay6_apply (row : Vec Ideal S1x128 .f32) (x : Vec Ideal S10000x128 .f32) (p : Fin 10000) (q : Fin 128) :
    k6_pay1 row x (ix2 p q) = max (x (ix2 p q) + row (ix2 (0 : Fin 1) q)) (Ideal.ofBits .f32 0x00000000#32) := by
  unfold k6_pay1
  rw [shapeCast_self, shapeCast_self, shapeCast_self]
  rw [maximumf_apply, addf_apply, broadcast_apply]
  rw [broadcastTo_apply row broadcasts_S1x128_S10000x128 (ix2 p q) (ix2 (0 : Fin 1) q) (by
    intro a
    match a with
    | ⟨0, _⟩ => rfl
    | ⟨1, _⟩ => rfl)]
  rfl

/-- The index maps over the grid: the operand's and the result's row block is the point's number, the bias row's
    block is always the first, and no window moves along the columns. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The operand's block at point `t` is rows `10000 t … 10000 t + 9999` of the operand. -/
theorem blk6_0_apply (t : Fin cfg6.N) (x : S10000x128.Idx) (k : S100000x128.Idx)
    (hk0 : (k 0).val = t.val * 10000 + (x 0).val) (hk1 : (k 1).val = (x 1).val) :
    (iblk6 V c 0 t : Vec Ideal S10000x128 .f32) x = (V c main_v85 : S100000x128.Idx → Elt Ideal .f32) k := by
  obtain ⟨e0, e1, -⟩ := idx_facts6 t
  unfold iblk6
  rw [View.read_apply]
  show V c main_v85 _ = V c main_v85 _
  refine congrArg _ (funext fun a => Fin.ext ?_)
  match a with
  | ⟨0, _⟩ => show win6_0.index t (0 : Fin 2) * 10000 + 1 * (x 0).val = (k 0).val; rw [e0, hk0]; omega
  | ⟨1, _⟩ => show win6_0.index t (1 : Fin 2) * 128 + 1 * (x 1).val = (k 1).val; rw [e1, hk1]; omega

/-- The bias window's block at every point is the whole bias row. -/
theorem blk6_1_apply (t : Fin cfg6.N) (x : S1x128.Idx) (k : S1x128.Idx)
    (hk0 : (k 0).val = (x 0).val) (hk1 : (k 1).val = (x 1).val) :
    (iblk6 V c 1 t : Vec Ideal S1x128 .f32) x = (V c main_v86 : S1x128.Idx → Elt Ideal .f32) k := by
  obtain ⟨-, -, e0, e1, -⟩ := idx_facts6 t
  unfold iblk6
  rw [View.read_apply]
  show V c main_v86 _ = V c main_v86 _
  refine congrArg _ (funext fun a => Fin.ext ?_)
  match a with
  | ⟨0, _⟩ => show win6_1.index t (0 : Fin 2) * 1 + 1 * (x 0).val = (k 0).val; rw [e0, hk0]; omega
  | ⟨1, _⟩ => show win6_1.index t (1 : Fin 2) * 128 + 1 * (x 1).val = (k 1).val; rw [e1, hk1]; omega

/-- What point `t` writes back is block `t` of relu (a + b): the body's value at (p, q) of its block reads the operand at
    row `10000 t + p` and the bias at column `q`, and the result's block `t` starts at that same row. -/
theorem flushed6_eq (t : Fin cfg6.N) :
    (dat6 (F := Ideal) V c).flushed 2 t = ((cfg6.win 2).blk t).view.read (Elt Ideal) (reluRow (V c main_v85) (V c main_v86)) := by
  show (cfg6.win 2).cut (grid6.coords t) ((dat6 V c).after 2 t) = _
  rw [after6_2]
  unfold out6_2
  rw [View.canon_unit_zero hz]
  simp only [View.ld_unit_zero (S := S10000x128) hz, View.ld_unit_zero (S := S1x128) hz]
  obtain ⟨-, -, -, -, e0, e1⟩ := idx_facts6 t
  funext j
  obtain ⟨p, q, rfl⟩ : ∃ (p : Fin 10000) (q : Fin 128), j = ix2 p q := ⟨j 0, j 1, eq_ix2 j⟩
  refine (pay6_apply _ _ p q).trans ?_
  rw [View.read_apply]
  have hp : t.val * 10000 + p.val < 100000 := by
    have hN : grid6.N = 10 := N_6
    have ht : t.val < grid6.N := t.isLt
    have := p.isLt
    omega
  have hi : ((cfg6.win 2).blk t).view.emb (ix2 p q) = ix2 (⟨t.val * 10000 + p.val, hp⟩ : Fin 100000) q := by
    funext a; apply Fin.ext
    match a with
    | ⟨0, _⟩ => show win6_2.index t (0 : Fin 2) * 10000 + 1 * p.val = t.val * 10000 + p.val; rw [e0]; omega
    | ⟨1, _⟩ => show win6_2.index t (1 : Fin 2) * 128 + 1 * q.val = q.val; rw [e1]; omega
  show _ = reluRow (V c main_v85) (V c main_v86) (((cfg6.win 2).blk t).view.emb (ix2 p q))
  rw [hi]
  refine Eq.trans ?_ (reluRow_apply _ _ _ q).symm
  rw [blk6_0_apply V c t (ix2 p q) (ix2 (⟨t.val * 10000 + p.val, hp⟩ : Fin 100000) q) rfl rfl,
    blk6_1_apply V c t (ix2 (0 : Fin 1) q) (ix2 (0 : Fin 1) q) rfl rfl]

/-- An index of the result is in point `t`'s block iff each coordinate is in the block's range on its axis. -/
theorem mem_blk6 (t : Fin cfg6.N) (i : S100000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v87).slice (win6_2.rect t)).set ↔ _
  rw [View.set_slice_whole, Rect.mem_set_unit]
  exact Iff.rfl

/-- Row `r` lies in the block of point `r / 10000`, and every point writes back: the blocks cover the result. -/
theorem cover6 (i : S100000x128.Idx) :
    ∃ t : Fin cfg6.N, (cfg6.win 2).flush t = true ∧ i ∈ ((cfg6.win 2).blk t).view.set := by
  have hN : grid6.N = 10 := N_6
  have hi0 : (i 0).val < 100000 := idx2_lt0 i
  have hi1 : (i 1).val < 128 := idx2_lt1 i
  have ht : (i 0).val / 10000 < grid6.N := by rw [hN]; omega
  refine ⟨⟨(i 0).val / 10000, ht⟩, flush6_2 _, ?_⟩
  rw [mem_blk6]
  obtain ⟨-, -, -, -, e0, e1⟩ := idx_facts6 ⟨(i 0).val / 10000, ht⟩
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win6_2.index ⟨(i 0).val / 10000, ht⟩ (1 : Fin 2) * 128 ≤ (i 1).val ∧ (i 1).val < win6_2.index ⟨(i 0).val / 10000, ht⟩ (1 : Fin 2) * 128 + 128
    rw [e1]
    omega

/-- The result array after region 6, index by index. -/
theorem final6 : (dat6 (F := Ideal) V c).arrAt 2 cfg6.N = reluRow (V c main_v85) (V c main_v86) :=
  (dat6 (F := Ideal) V c).arrAt_eq_of_cover 2 (reluRow (V c main_v85) (V c main_v86)) (fun t _ => flushed6_eq V c t) cover6

/-! ## Region 8: operand `main_v101`, bias row `main_v102`, result `main_v103` -/

/-- The body's value on one block: entry (p, q) is max (x (p, q) + row (0, q)) 0. The casts to the same shape are the
    identity, the row broadcast down the block reads the row, the splat of the zero word reads zero. -/
theorem pay8_apply (row : Vec Ideal S1x128 .f32) (x : Vec Ideal S10000x128 .f32) (p : Fin 10000) (q : Fin 128) :
    k8_pay1 row x (ix2 p q) = max (x (ix2 p q) + row (ix2 (0 : Fin 1) q)) (Ideal.ofBits .f32 0x00000000#32) := by
  unfold k8_pay1
  rw [shapeCast_self, shapeCast_self, shapeCast_self]
  rw [maximumf_apply, addf_apply, broadcast_apply]
  rw [broadcastTo_apply row broadcasts_S1x128_S10000x128 (ix2 p q) (ix2 (0 : Fin 1) q) (by
    intro a
    match a with
    | ⟨0, _⟩ => rfl
    | ⟨1, _⟩ => rfl)]
  rfl

/-- The index maps over the grid: the operand's and the result's row block is the point's number, the bias row's
    block is always the first, and no window moves along the columns. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The operand's block at point `t` is rows `10000 t … 10000 t + 9999` of the operand. -/
theorem blk8_0_apply (t : Fin cfg8.N) (x : S10000x128.Idx) (k : S100000x128.Idx)
    (hk0 : (k 0).val = t.val * 10000 + (x 0).val) (hk1 : (k 1).val = (x 1).val) :
    (iblk8 V c 0 t : Vec Ideal S10000x128 .f32) x = (V c main_v101 : S100000x128.Idx → Elt Ideal .f32) k := by
  obtain ⟨e0, e1, -⟩ := idx_facts8 t
  unfold iblk8
  rw [View.read_apply]
  show V c main_v101 _ = V c main_v101 _
  refine congrArg _ (funext fun a => Fin.ext ?_)
  match a with
  | ⟨0, _⟩ => show win8_0.index t (0 : Fin 2) * 10000 + 1 * (x 0).val = (k 0).val; rw [e0, hk0]; omega
  | ⟨1, _⟩ => show win8_0.index t (1 : Fin 2) * 128 + 1 * (x 1).val = (k 1).val; rw [e1, hk1]; omega

/-- The bias window's block at every point is the whole bias row. -/
theorem blk8_1_apply (t : Fin cfg8.N) (x : S1x128.Idx) (k : S1x128.Idx)
    (hk0 : (k 0).val = (x 0).val) (hk1 : (k 1).val = (x 1).val) :
    (iblk8 V c 1 t : Vec Ideal S1x128 .f32) x = (V c main_v102 : S1x128.Idx → Elt Ideal .f32) k := by
  obtain ⟨-, -, e0, e1, -⟩ := idx_facts8 t
  unfold iblk8
  rw [View.read_apply]
  show V c main_v102 _ = V c main_v102 _
  refine congrArg _ (funext fun a => Fin.ext ?_)
  match a with
  | ⟨0, _⟩ => show win8_1.index t (0 : Fin 2) * 1 + 1 * (x 0).val = (k 0).val; rw [e0, hk0]; omega
  | ⟨1, _⟩ => show win8_1.index t (1 : Fin 2) * 128 + 1 * (x 1).val = (k 1).val; rw [e1, hk1]; omega

/-- What point `t` writes back is block `t` of relu (a + b): the body's value at (p, q) of its block reads the operand at
    row `10000 t + p` and the bias at column `q`, and the result's block `t` starts at that same row. -/
theorem flushed8_eq (t : Fin cfg8.N) :
    (dat8 (F := Ideal) V c).flushed 2 t = ((cfg8.win 2).blk t).view.read (Elt Ideal) (reluRow (V c main_v101) (V c main_v102)) := by
  show (cfg8.win 2).cut (grid8.coords t) ((dat8 V c).after 2 t) = _
  rw [after8_2]
  unfold out8_2
  rw [View.canon_unit_zero hz]
  simp only [View.ld_unit_zero (S := S10000x128) hz, View.ld_unit_zero (S := S1x128) hz]
  obtain ⟨-, -, -, -, e0, e1⟩ := idx_facts8 t
  funext j
  obtain ⟨p, q, rfl⟩ : ∃ (p : Fin 10000) (q : Fin 128), j = ix2 p q := ⟨j 0, j 1, eq_ix2 j⟩
  refine (pay8_apply _ _ p q).trans ?_
  rw [View.read_apply]
  have hp : t.val * 10000 + p.val < 100000 := by
    have hN : grid8.N = 10 := N_8
    have ht : t.val < grid8.N := t.isLt
    have := p.isLt
    omega
  have hi : ((cfg8.win 2).blk t).view.emb (ix2 p q) = ix2 (⟨t.val * 10000 + p.val, hp⟩ : Fin 100000) q := by
    funext a; apply Fin.ext
    match a with
    | ⟨0, _⟩ => show win8_2.index t (0 : Fin 2) * 10000 + 1 * p.val = t.val * 10000 + p.val; rw [e0]; omega
    | ⟨1, _⟩ => show win8_2.index t (1 : Fin 2) * 128 + 1 * q.val = q.val; rw [e1]; omega
  show _ = reluRow (V c main_v101) (V c main_v102) (((cfg8.win 2).blk t).view.emb (ix2 p q))
  rw [hi]
  refine Eq.trans ?_ (reluRow_apply _ _ _ q).symm
  rw [blk8_0_apply V c t (ix2 p q) (ix2 (⟨t.val * 10000 + p.val, hp⟩ : Fin 100000) q) rfl rfl,
    blk8_1_apply V c t (ix2 (0 : Fin 1) q) (ix2 (0 : Fin 1) q) rfl rfl]

/-- An index of the result is in point `t`'s block iff each coordinate is in the block's range on its axis. -/
theorem mem_blk8 (t : Fin cfg8.N) (i : S100000x128.Idx) :
    i ∈ ((cfg8.win 2).blk t).view.set ↔ ∀ a : Fin 2, win8_2.index t a * S10000x128.size a ≤ (i a).val ∧ (i a).val < win8_2.index t a * S10000x128.size a + S10000x128.size a := by
  show i ∈ ((View.whole main_v103).slice (win8_2.rect t)).set ↔ _
  rw [View.set_slice_whole, Rect.mem_set_unit]
  exact Iff.rfl

/-- Row `r` lies in the block of point `r / 10000`, and every point writes back: the blocks cover the result. -/
theorem cover8 (i : S100000x128.Idx) :
    ∃ t : Fin cfg8.N, (cfg8.win 2).flush t = true ∧ i ∈ ((cfg8.win 2).blk t).view.set := by
  have hN : grid8.N = 10 := N_8
  have hi0 : (i 0).val < 100000 := idx2_lt0 i
  have hi1 : (i 1).val < 128 := idx2_lt1 i
  have ht : (i 0).val / 10000 < grid8.N := by rw [hN]; omega
  refine ⟨⟨(i 0).val / 10000, ht⟩, flush8_2 _, ?_⟩
  rw [mem_blk8]
  obtain ⟨-, -, -, -, e0, e1⟩ := idx_facts8 ⟨(i 0).val / 10000, ht⟩
  intro a
  match a with
  | ⟨0, _⟩ =>
    show win8_2.index ⟨(i 0).val / 10000, ht⟩ (0 : Fin 2) * 10000 ≤ (i 0).val ∧ (i 0).val < win8_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win8_2.index ⟨(i 0).val / 10000, ht⟩ (1 : Fin 2) * 128 ≤ (i 1).val ∧ (i 1).val < win8_2.index ⟨(i 0).val / 10000, ht⟩ (1 : Fin 2) * 128 + 128
    rw [e1]
    omega

/-- The result array after region 8, index by index. -/
theorem final8 : (dat8 (F := Ideal) V c).arrAt 2 cfg8.N = reluRow (V c main_v101) (V c main_v102) :=
  (dat8 (F := Ideal) V c).arrAt_eq_of_cover 2 (reluRow (V c main_v101) (V c main_v102)) (fun t _ => flushed8_eq V c t) cover8

/-! ## The four regions' results -/

theorem region1_val : (dat1 (F := Ideal) V c).arrAt 2 cfg1.N = Cert.Spec.biasRelu (F := Ideal) (V c main_v49) (V c main_v50) :=
  (final1 V c).trans (biasRelu_eq _ _).symm
theorem region3_val : (dat3 (F := Ideal) V c).arrAt 2 cfg3.N = Cert.Spec.biasRelu (F := Ideal) (V c main_v65) (V c main_v66) :=
  (final3 V c).trans (biasRelu_eq _ _).symm
theorem region6_val : (dat6 (F := Ideal) V c).arrAt 2 cfg6.N = Cert.Spec.biasRelu (F := Ideal) (V c main_v85) (V c main_v86) :=
  (final6 V c).trans (biasRelu_eq _ _).symm
theorem region8_val : (dat8 (F := Ideal) V c).arrAt 2 cfg8.N = Cert.Spec.biasRelu (F := Ideal) (V c main_v101) (V c main_v102) :=
  (final8 V c).trans (biasRelu_eq _ _).symm

end Cert.KernelIdeal.Hand

end
-- ==== Proof.RegHeads.lean ====
/-
  The two head regions: the actor's tanh (a · W + b) over the nodes and the critic's two-layer perceptron over the 64 graphs.
-/
import proofs.«143567_j2740189135247_1_alg».proof.Proof.Gen.KernelIdeal.Frame
import proofs.«143567_j2740189135247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

namespace Heads

/-- A contraction over one axis of extent `n` between two matrices, re-indexed by that axis' coordinate, once the
    operand indices' coordinates are known. -/
theorem sum_contr {m n p : Nat} (D : DotDims ⟨2, ![m, n]⟩ ⟨2, ![n, p]⟩ ⟨2, ![m, p]⟩)
    (hr : D.contr.rank = 1) (hs : D.contr.size ⟨0, by omega⟩ = n)
    (hl0 : ∀ (i : (⟨2, ![m, p]⟩ : Shape).Idx) (q : D.contr.Idx), (D.lhsIdx i q (0 : Fin 2)).val = (i (0 : Fin 2)).val)
    (hl1 : ∀ (i : (⟨2, ![m, p]⟩ : Shape).Idx) (q : D.contr.Idx), (D.lhsIdx i q (1 : Fin 2)).val = (q ⟨0, by omega⟩).val)
    (hr0 : ∀ (i : (⟨2, ![m, p]⟩ : Shape).Idx) (q : D.contr.Idx), (D.rhsIdx i q (0 : Fin 2)).val = (q ⟨0, by omega⟩).val)
    (hr1 : ∀ (i : (⟨2, ![m, p]⟩ : Shape).Idx) (q : D.contr.Idx), (D.rhsIdx i q (1 : Fin 2)).val = (i (1 : Fin 2)).val)
    (f : (⟨2, ![m, n]⟩ : Shape).Idx → EReal) (g : (⟨2, ![n, p]⟩ : Shape).Idx → EReal) (r : Fin m) (c : Fin p) :
    ∑ k : D.contr.Idx, f (D.lhsIdx (ix2 r c) k) * g (D.rhsIdx (ix2 r c) k) = ∑ k : Fin n, f (ix2 r k) * g (ix2 k c) := by
  rw [← Equiv.sum_comp (contrEquiv1 D n hr hs).symm]
  refine Finset.sum_congr rfl fun k _ => ?_
  have hk := contrEquiv1_symm_val D n hr hs k
  have el : D.lhsIdx (ix2 r c) ((contrEquiv1 D n hr hs).symm k) = ix2 r k := funext fun a => Fin.ext (by
    match a with
    | ⟨0, _⟩ => exact hl0 _ _
    | ⟨1, _⟩ => exact (hl1 _ _).trans hk)
  have er : D.rhsIdx (ix2 r c) ((contrEquiv1 D n hr hs).symm k) = ix2 k c := funext fun a => Fin.ext (by
    match a with
    | ⟨0, _⟩ => exact (hr0 _ _).trans hk
    | ⟨1, _⟩ => exact hr1 _ _)
  rw [el, er]

theorem hz : (![0, 0] : Fin 2 → Nat) = fun _ => 0 := funext fun a => by fin_cases a <;> rfl

/-! ## The actor's head -/

theorem k4_l0 (i : S10000x8.Idx) (q : dot_S10000x128_S128x8_S10000x8_1_0_0_1_n_n.contr.Idx) :
    (dot_S10000x128_S128x8_S10000x8_1_0_0_1_n_n.lhsIdx i q (0 : Fin 2)).val = (i (0 : Fin 2)).val := by
  unfold DotDims.lhsIdx
  rw [dif_neg (show ¬(0 : Fin 2) ∈ dot_S10000x128_S128x8_S10000x8_1_0_0_1_n_n.lhsBatch by decide), dif_pos (show (0 : Fin 2) ∈ dot_S10000x128_S128x8_S10000x8_1_0_0_1_n_n.lhsNonContracting by decide)]
  rfl
theorem k4_l1 (i : S10000x8.Idx) (q : dot_S10000x128_S128x8_S10000x8_1_0_0_1_n_n.contr.Idx) :
    (dot_S10000x128_S128x8_S10000x8_1_0_0_1_n_n.lhsIdx i q (1 : Fin 2)).val = (q ⟨0, by decide⟩).val :=
  dot_S10000x128_S128x8_S10000x8_1_0_0_1_n_n.lhsIdx_val_of_single rfl i q
theorem k4_r0 (i : S10000x8.Idx) (q : dot_S10000x128_S128x8_S10000x8_1_0_0_1_n_n.contr.Idx) :
    (dot_S10000x128_S128x8_S10000x8_1_0_0_1_n_n.rhsIdx i q (0 : Fin 2)).val = (q ⟨0, by decide⟩).val :=
  dot_S10000x128_S128x8_S10000x8_1_0_0_1_n_n.rhsIdx_val_of_single rfl i q
theorem k4_r1 (i : S10000x8.Idx) (q : dot_S10000x128_S128x8_S10000x8_1_0_0_1_n_n.contr.Idx) :
    (dot_S10000x128_S128x8_S10000x8_1_0_0_1_n_n.rhsIdx i q (1 : Fin 2)).val = (i (1 : Fin 2)).val := by
  unfold DotDims.rhsIdx
  rw [dif_neg (show ¬(1 : Fin 2) ∈ dot_S10000x128_S128x8_S10000x8_1_0_0_1_n_n.rhsBatch by decide), dif_pos (show (1 : Fin 2) ∈ dot_S10000x128_S128x8_S10000x8_1_0_0_1_n_n.rhsNonContracting by decide)]
  rfl

/-- The head's payload at row `p`, column `q` of a block: tanh of the row of `x0` times the column of `x1`, plus the bias. -/
theorem pay4_apply (x0 : Vec Ideal S10000x128 .f32) (x1 : Vec Ideal S128x8 .f32) (x2 : Vec Ideal S1x8 .f32) (p : Fin 10000) (q : Fin 8) :
    k4_pay1 (F := Ideal) x0 x1 x2 (ix2 p q) = Ideal.tanh ((∑ k : Fin 128, x0 (ix2 p k) * x1 (ix2 k q)) + x2 (ix2 (0 : Fin 1) q)) := by
  unfold k4_pay1
  simp only [shapeCast_self]
  show Ideal.tanh (matmul (F := Ideal) dot_S10000x128_S128x8_S10000x8_1_0_0_1_n_n none (truncf (F := Ideal) .bf16 x0 bitsLt_bf16_f32) (truncf (F := Ideal) .bf16 x1 bitsLt_bf16_f32) (constant (F := Ideal) S10000x8 .f32 0x00000000#32) (ix2 p q) + broadcastTo S10000x8 x2 broadcasts_S1x8_S10000x8 (ix2 p q)) = _
  refine congrArg Ideal.tanh (congrArg₂ (· + ·) ?_ ?_)
  · simp only [matmul]
    rw [Ideal.matmul_constant_zero_apply]
    exact sum_contr dot_S10000x128_S128x8_S10000x8_1_0_0_1_n_n rfl rfl k4_l0 k4_l1 k4_r0 k4_r1 _ _ p q
  · exact broadcastTo_1b_ab_apply x2 broadcasts_S1x8_S10000x8 p q

theorem h4_l0 (i : Cert.ReferenceIdeal.S100000x8.Idx) (q : Cert.ReferenceIdeal.dot_S100000x128_S128x8_S100000x8_1_0_0_1_n_n.contr.Idx) :
    (Cert.ReferenceIdeal.dot_S100000x128_S128x8_S100000x8_1_0_0_1_n_n.lhsIdx i q (0 : Fin 2)).val = (i (0 : Fin 2)).val := by
  unfold DotDims.lhsIdx
  rw [dif_neg (show ¬(0 : Fin 2) ∈ Cert.ReferenceIdeal.dot_S100000x128_S128x8_S100000x8_1_0_0_1_n_n.lhsBatch by decide), dif_pos (show (0 : Fin 2) ∈ Cert.ReferenceIdeal.dot_S100000x128_S128x8_S100000x8_1_0_0_1_n_n.lhsNonContracting by decide)]
  rfl
theorem h4_l1 (i : Cert.ReferenceIdeal.S100000x8.Idx) (q : Cert.ReferenceIdeal.dot_S100000x128_S128x8_S100000x8_1_0_0_1_n_n.contr.Idx) :
    (Cert.ReferenceIdeal.dot_S100000x128_S128x8_S100000x8_1_0_0_1_n_n.lhsIdx i q (1 : Fin 2)).val = (q ⟨0, by decide⟩).val :=
  Cert.ReferenceIdeal.dot_S100000x128_S128x8_S100000x8_1_0_0_1_n_n.lhsIdx_val_of_single rfl i q
theorem h4_r0 (i : Cert.ReferenceIdeal.S100000x8.Idx) (q : Cert.ReferenceIdeal.dot_S100000x128_S128x8_S100000x8_1_0_0_1_n_n.contr.Idx) :
    (Cert.ReferenceIdeal.dot_S100000x128_S128x8_S100000x8_1_0_0_1_n_n.rhsIdx i q (0 : Fin 2)).val = (q ⟨0, by decide⟩).val :=
  Cert.ReferenceIdeal.dot_S100000x128_S128x8_S100000x8_1_0_0_1_n_n.rhsIdx_val_of_single rfl i q
theorem h4_r1 (i : Cert.ReferenceIdeal.S100000x8.Idx) (q : Cert.ReferenceIdeal.dot_S100000x128_S128x8_S100000x8_1_0_0_1_n_n.contr.Idx) :
    (Cert.ReferenceIdeal.dot_S100000x128_S128x8_S100000x8_1_0_0_1_n_n.rhsIdx i q (1 : Fin 2)).val = (i (1 : Fin 2)).val := by
  unfold DotDims.rhsIdx
  rw [dif_neg (show ¬(1 : Fin 2) ∈ Cert.ReferenceIdeal.dot_S100000x128_S128x8_S100000x8_1_0_0_1_n_n.rhsBatch by decide), dif_pos (show (1 : Fin 2) ∈ Cert.ReferenceIdeal.dot_S100000x128_S128x8_S100000x8_1_0_0_1_n_n.rhsNonContracting by decide)]
  rfl

/-- The actor's head at row `r`, column `j`: tanh of the row of `a` times the column of `W`, plus the bias. -/
theorem meanHead_apply (a : Cert.Spec.FC Ideal Cert.ReferenceIdeal.S100000x128) (W : Cert.Spec.FC Ideal Cert.ReferenceIdeal.S128x8)
    (b : Cert.Spec.FC Ideal Cert.ReferenceIdeal.S1x8) (r : Fin 100000) (j : Fin 8) :
    Cert.Spec.meanHead (F := Ideal) a W b (ix2 r j) = Ideal.tanh ((∑ k : Fin 128, a (ix2 r k) * W (ix2 k j)) + b (ix2 (0 : Fin 1) j)) := by
  unfold Cert.Spec.meanHead
  show Ideal.tanh (Host.dotGeneral (F := Ideal) Cert.ReferenceIdeal.dot_S100000x128_S128x8_S100000x8_1_0_0_1_n_n none a W (ix2 r j)
    + broadcastInDim Cert.ReferenceIdeal.S100000x8 ![0, 1] Cert.ReferenceIdeal.Gen.bcast_S1x8_S100000x8_0_1 b (ix2 r j)) = _
  refine congrArg Ideal.tanh (congrArg₂ (· + ·) ?_ ?_)
  · simp only [Host.dotGeneral]
    rw [Ideal.dotGeneral_apply]
    exact sum_contr Cert.ReferenceIdeal.dot_S100000x128_S128x8_S100000x8_1_0_0_1_n_n rfl rfl h4_l0 h4_l1 h4_r0 h4_r1 _ _ r j
  · exact broadcastInDim_apply _ Cert.ReferenceIdeal.Gen.bcast_S1x8_S100000x8_0_1 b (ix2 r j) (ix2 (0 : Fin 1) j) (fun ax => match ax with
      | ⟨0, _⟩ => by show 0 = if (1 : Nat) = 1 then 0 else r.val; rw [if_pos rfl]
      | ⟨1, _⟩ => by show j.val = if (8 : Nat) = 1 then 0 else j.val; rw [if_neg (by decide)])

/-- One element of the head's block against one element of the head of the whole arrays: the block's operand rows are
    the rows `10000 T …` of the operand, its weight and bias the whole weight and bias. -/
theorem head4_point (x0 : Vec Ideal S10000x128 .f32) (x1 : Vec Ideal S128x8 .f32) (x2 : Vec Ideal S1x8 .f32)
    (a : Cert.Spec.FC Ideal Cert.ReferenceIdeal.S100000x128) (W : Cert.Spec.FC Ideal Cert.ReferenceIdeal.S128x8) (b : Cert.Spec.FC Ideal Cert.ReferenceIdeal.S1x8) (T : Nat)
    (h0 : ∀ (p : Fin 10000) (k : Fin 128) (r : Fin 100000), r.val = T * 10000 + p.val → x0 (ix2 p k) = a (ix2 r k))
    (h1 : ∀ (k : Fin 128) (q : Fin 8), x1 (ix2 k q) = W (ix2 k q))
    (h2 : ∀ q : Fin 8, x2 (ix2 (0 : Fin 1) q) = b (ix2 (0 : Fin 1) q))
    (y : S10000x8.Idx) (i : S100000x8.Idx) (hi0 : (i 0).val = T * 10000 + (y 0).val) (hi1 : (i 1).val = (y 1).val) :
    k4_pay1 (F := Ideal) x0 x1 x2 y = Cert.Spec.meanHead (F := Ideal) a W b i := by
  obtain ⟨p, q, rfl⟩ : ∃ (p : Fin 10000) (q : Fin 8), y = ix2 p q := ⟨y 0, y 1, eq_ix2 y⟩
  obtain ⟨r, j, rfl⟩ : ∃ (r : Fin 100000) (j : Fin 8), i = ix2 r j := ⟨i 0, i 1, eq_ix2 i⟩
  obtain rfl : j = q := Fin.ext hi1
  rw [pay4_apply]
  refine Eq.trans ?_ (meanHead_apply a W b r j).symm
  refine congrArg Ideal.tanh (congrArg₂ (· + ·) (Finset.sum_congr rfl fun k _ => ?_) (h2 j))
  rw [h0 p k r hi0, h1 k j]

/-- The block index maps of the head's four windows, decided over the grid: the operand and the result move down the
    rows with the point, the weight and the bias stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The operand's block at point `t` is rows `10000 t … 10000 t + 9999` of the operand. -/
theorem iblk4_0_apply (t : Fin cfg4.N) (p : Fin 10000) (k : Fin 128) (r : Fin 100000) (hr : r.val = t.val * 10000 + p.val) :
    (iblk4 (F := Ideal) V c 0 t : Vec Ideal S10000x128 .f32) (ix2 p k) = (V c main_v67 : S100000x128.Idx → EReal) (ix2 r k) := by
  unfold iblk4
  rw [View.read_apply]
  show V c main_v67 (((cfg4.win 0).blk t).view.emb (ix2 p k)) = V c main_v67 (ix2 r k)
  congr 1
  funext a; apply Fin.ext
  match a with
  | ⟨0, _⟩ => show win4_0.index t (0 : Fin 2) * 10000 + 1 * p.val = r.val; rw [(idx4 t).1, hr]; omega
  | ⟨1, _⟩ => show win4_0.index t (1 : Fin 2) * 128 + 1 * k.val = k.val; rw [(idx4 t).2.1]; omega

/-- The weight's block is the whole weight. -/
theorem iblk4_1_apply (t : Fin cfg4.N) (k : Fin 128) (q : Fin 8) :
    (iblk4 (F := Ideal) V c 1 t : Vec Ideal S128x8 .f32) (ix2 k q) = (V c main_arg7 : S128x8.Idx → EReal) (ix2 k q) := by
  unfold iblk4
  rw [View.read_apply]
  show V c main_arg7 (((cfg4.win 1).blk t).view.emb (ix2 k q)) = V c main_arg7 (ix2 k q)
  congr 1
  funext a; apply Fin.ext
  match a with
  | ⟨0, _⟩ => show win4_1.index t (0 : Fin 2) * 128 + 1 * k.val = k.val; rw [(idx4 t).2.2.1]; omega
  | ⟨1, _⟩ => show win4_1.index t (1 : Fin 2) * 8 + 1 * q.val = q.val; rw [(idx4 t).2.2.2.1]; omega

/-- The bias' block is the whole bias row. -/
theorem iblk4_2_apply (t : Fin cfg4.N) (q : Fin 8) :
    (iblk4 (F := Ideal) V c 2 t : Vec Ideal S1x8 .f32) (ix2 (0 : Fin 1) q) = (V c main_v68 : S1x8.Idx → EReal) (ix2 (0 : Fin 1) q) := by
  unfold iblk4
  rw [View.read_apply]
  show V c main_v68 (((cfg4.win 2).blk t).view.emb (ix2 (0 : Fin 1) q)) = V c main_v68 (ix2 (0 : Fin 1) q)
  congr 1
  funext a; apply Fin.ext
  match a with
  | ⟨0, _⟩ => show win4_2.index t (0 : Fin 2) * 1 + 1 * 0 = 0; rw [(idx4 t).2.2.2.2.1]
  | ⟨1, _⟩ => show win4_2.index t (1 : Fin 2) * 8 + 1 * q.val = q.val; rw [(idx4 t).2.2.2.2.2.1]; omega

/-- What point `t` writes back is block `t` of the head of the arrays as the region finds them. -/
theorem flushed4_eq (t : Fin cfg4.N) :
    (dat4 (F := Ideal) V c).flushed 3 t
      = ((cfg4.win 3).blk t).view.read (Elt Ideal) (Cert.Spec.meanHead (F := Ideal) (V c main_v67) (V c main_arg7) (V c main_v68)) := by
  show (cfg4.win 3).cut (grid4.coords t) ((dat4 V c).after 3 t) = _
  rw [after4_3]
  unfold out4_3
  rw [View.canon_unit_zero hz]
  simp only [View.ld_unit_zero (S := S10000x128) hz, View.ld_unit_zero (S := S128x8) hz, View.ld_unit_zero (S := S1x8) hz]
  funext y
  show k4_pay1 (F := Ideal) (iblk4 V c 0 t) (iblk4 V c 1 t) (iblk4 V c 2 t) y
    = Cert.Spec.meanHead (F := Ideal) (V c main_v67) (V c main_arg7) (V c main_v68) (((cfg4.win 3).blk t).view.emb y)
  refine head4_point (iblk4 V c 0 t) (iblk4 V c 1 t) (iblk4 V c 2 t) _ _ _ t.val
    (fun p k r hr => iblk4_0_apply V c t p k r hr) (fun k q => iblk4_1_apply V c t k q) (fun q => iblk4_2_apply V c t q) y _ ?_ ?_
  · show win4_3.index t (0 : Fin 2) * 10000 + 1 * (y 0).val = t.val * 10000 + (y 0).val
    rw [(idx4 t).2.2.2.2.2.2.1]; omega
  · show win4_3.index t (1 : Fin 2) * 8 + 1 * (y 1).val = (y 1).val
    rw [(idx4 t).2.2.2.2.2.2.2]; omega

/-- An index of the result is in point `t`'s block iff each coordinate is in the block's range on its axis. -/
theorem mem_blk4 (t : Fin cfg4.N) (i : S100000x8.Idx) :
    i ∈ ((cfg4.win 3).blk t).view.set ↔ ∀ a : Fin 2, win4_3.index t a * S10000x8.size a ≤ (i a).val ∧ (i a).val < win4_3.index t a * S10000x8.size a + S10000x8.size a := by
  show i ∈ ((View.whole main_v69).slice (win4_3.rect t)).set ↔ _
  rw [View.set_slice_whole, Rect.mem_set_unit]
  exact Iff.rfl

/-- Row `r` of the result lies in the block of point `r / 10000`. -/
theorem cover4 (i : S100000x8.Idx) : ∃ t : Fin cfg4.N, (cfg4.win 3).flush t = true ∧ i ∈ ((cfg4.win 3).blk t).view.set := by
  have hi0 : (i 0).val < 100000 := (i 0).isLt
  have hi1 : (i 1).val < 8 := (i 1).isLt
  have hN : cfg4.N = 10 := N_4
  have ht : (i 0).val / 10000 < cfg4.N := by rw [hN]; omega
  refine ⟨⟨(i 0).val / 10000, ht⟩, flush4_3 _, ?_⟩
  rw [mem_blk4]
  obtain ⟨-, -, -, -, -, -, e6, e7⟩ := idx4 ⟨(i 0).val / 10000, ht⟩
  intro a
  match a with
  | ⟨0, _⟩ =>
    show win4_3.index ⟨(i 0).val / 10000, ht⟩ (0 : Fin 2) * 10000 ≤ (i 0).val ∧ (i 0).val < win4_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, ht⟩ (1 : Fin 2) * 8 ≤ (i 1).val ∧ (i 1).val < win4_3.index ⟨(i 0).val / 10000, ht⟩ (1 : Fin 2) * 8 + 8
    rw [e7]; omega

/-! ## The critic's head -/

theorem k9a_l0 (i : S64x64.Idx) (q : dot_S64x128_S128x64_S64x64_1_0_0_1_n_n.contr.Idx) :
    (dot_S64x128_S128x64_S64x64_1_0_0_1_n_n.lhsIdx i q (0 : Fin 2)).val = (i (0 : Fin 2)).val := by
  unfold DotDims.lhsIdx
  rw [dif_neg (show ¬(0 : Fin 2) ∈ dot_S64x128_S128x64_S64x64_1_0_0_1_n_n.lhsBatch by decide), dif_pos (show (0 : Fin 2) ∈ dot_S64x128_S128x64_S64x64_1_0_0_1_n_n.lhsNonContracting by decide)]
  rfl
theorem k9a_l1 (i : S64x64.Idx) (q : dot_S64x128_S128x64_S64x64_1_0_0_1_n_n.contr.Idx) :
    (dot_S64x128_S128x64_S64x64_1_0_0_1_n_n.lhsIdx i q (1 : Fin 2)).val = (q ⟨0, by decide⟩).val :=
  dot_S64x128_S128x64_S64x64_1_0_0_1_n_n.lhsIdx_val_of_single rfl i q
theorem k9a_r0 (i : S64x64.Idx) (q : dot_S64x128_S128x64_S64x64_1_0_0_1_n_n.contr.Idx) :
    (dot_S64x128_S128x64_S64x64_1_0_0_1_n_n.rhsIdx i q (0 : Fin 2)).val = (q ⟨0, by decide⟩).val :=
  dot_S64x128_S128x64_S64x64_1_0_0_1_n_n.rhsIdx_val_of_single rfl i q
theorem k9a_r1 (i : S64x64.Idx) (q : dot_S64x128_S128x64_S64x64_1_0_0_1_n_n.contr.Idx) :
    (dot_S64x128_S128x64_S64x64_1_0_0_1_n_n.rhsIdx i q (1 : Fin 2)).val = (i (1 : Fin 2)).val := by
  unfold DotDims.rhsIdx
  rw [dif_neg (show ¬(1 : Fin 2) ∈ dot_S64x128_S128x64_S64x64_1_0_0_1_n_n.rhsBatch by decide), dif_pos (show (1 : Fin 2) ∈ dot_S64x128_S128x64_S64x64_1_0_0_1_n_n.rhsNonContracting by decide)]
  rfl

theorem k9b_l0 (i : S64x1.Idx) (q : dot_S64x64_S64x1_S64x1_1_0_0_1_n_n.contr.Idx) :
    (dot_S64x64_S64x1_S64x1_1_0_0_1_n_n.lhsIdx i q (0 : Fin 2)).val = (i (0 : Fin 2)).val := by
  unfold DotDims.lhsIdx
  rw [dif_neg (show ¬(0 : Fin 2) ∈ dot_S64x64_S64x1_S64x1_1_0_0_1_n_n.lhsBatch by decide), dif_pos (show (0 : Fin 2) ∈ dot_S64x64_S64x1_S64x1_1_0_0_1_n_n.lhsNonContracting by decide)]
  rfl
theorem k9b_l1 (i : S64x1.Idx) (q : dot_S64x64_S64x1_S64x1_1_0_0_1_n_n.contr.Idx) :
    (dot_S64x64_S64x1_S64x1_1_0_0_1_n_n.lhsIdx i q (1 : Fin 2)).val = (q ⟨0, by decide⟩).val :=
  dot_S64x64_S64x1_S64x1_1_0_0_1_n_n.lhsIdx_val_of_single rfl i q
theorem k9b_r0 (i : S64x1.Idx) (q : dot_S64x64_S64x1_S64x1_1_0_0_1_n_n.contr.Idx) :
    (dot_S64x64_S64x1_S64x1_1_0_0_1_n_n.rhsIdx i q (0 : Fin 2)).val = (q ⟨0, by decide⟩).val :=
  dot_S64x64_S64x1_S64x1_1_0_0_1_n_n.rhsIdx_val_of_single rfl i q
theorem k9b_r1 (i : S64x1.Idx) (q : dot_S64x64_S64x1_S64x1_1_0_0_1_n_n.contr.Idx) :
    (dot_S64x64_S64x1_S64x1_1_0_0_1_n_n.rhsIdx i q (1 : Fin 2)).val = (i (1 : Fin 2)).val := by
  unfold DotDims.rhsIdx
  rw [dif_neg (show ¬(1 : Fin 2) ∈ dot_S64x64_S64x1_S64x1_1_0_0_1_n_n.rhsBatch by decide), dif_pos (show (1 : Fin 2) ∈ dot_S64x64_S64x1_S64x1_1_0_0_1_n_n.rhsNonContracting by decide)]
  rfl

theorem h9a_l0 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.lhsIdx i q (0 : Fin 2)).val = (i (0 : Fin 2)).val := by
  unfold DotDims.lhsIdx
  rw [dif_neg (show ¬(0 : Fin 2) ∈ Cert.ReferenceIdeal.dot_S64x128_S128x64_S64x64_1_0_0_1_n_n.lhsBatch by decide), dif_pos (show (0 : Fin 2) ∈ Cert.ReferenceIdeal.dot_S64x128_S128x64_S64x64_1_0_0_1_n_n.lhsNonContracting by decide)]
  rfl
theorem h9a_l1 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.lhsIdx i q (1 : Fin 2)).val = (q ⟨0, by decide⟩).val :=
  Cert.ReferenceIdeal.dot_S64x128_S128x64_S64x64_1_0_0_1_n_n.lhsIdx_val_of_single rfl i q
theorem h9a_r0 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.rhsIdx i q (0 : Fin 2)).val = (q ⟨0, by decide⟩).val :=
  Cert.ReferenceIdeal.dot_S64x128_S128x64_S64x64_1_0_0_1_n_n.rhsIdx_val_of_single rfl i q
theorem h9a_r1 (i : Cert.ReferenceIdeal.S64x64.Idx) (q : Cert.ReferenceIdeal.dot_S64x128_S128x64_S64x64_1_0_0_1_n_n.contr.Idx) :
    (Cert.ReferenceIdeal.dot_S64x128_S128x64_S64x64_1_0_0_1_n_n.rhsIdx i q (1 : Fin 2)).val = (i (1 : Fin 2)).val := by
  unfold DotDims.rhsIdx
  rw [dif_neg (show ¬(1 : Fin 2) ∈ Cert.ReferenceIdeal.dot_S64x128_S128x64_S64x64_1_0_0_1_n_n.rhsBatch by decide), dif_pos (show (1 : Fin 2) ∈ Cert.ReferenceIdeal.dot_S64x128_S128x64_S64x64_1_0_0_1_n_n.rhsNonContracting by decide)]
  rfl

theorem h9b_l0 (i : Cert.ReferenceIdeal.S64x1.Idx) (q : Cert.ReferenceIdeal.dot_S64x64_S64x1_S64x1_1_0_0_1_n_n.contr.Idx) :
    (Cert.ReferenceIdeal.dot_S64x64_S64x1_S64x1_1_0_0_1_n_n.lhsIdx i q (0 : Fin 2)).val = (i (0 : Fin 2)).val := by
  unfold DotDims.lhsIdx
  rw [dif_neg (show ¬(0 : Fin 2) ∈ Cert.ReferenceIdeal.dot_S64x64_S64x1_S64x1_1_0_0_1_n_n.lhsBatch by decide), dif_pos (show (0 : Fin 2) ∈ Cert.ReferenceIdeal.dot_S64x64_S64x1_S64x1_1_0_0_1_n_n.lhsNonContracting by decide)]
  rfl
theorem h9b_l1 (i : Cert.ReferenceIdeal.S64x1.Idx) (q : Cert.ReferenceIdeal.dot_S64x64_S64x1_S64x1_1_0_0_1_n_n.contr.Idx) :
    (Cert.ReferenceIdeal.dot_S64x64_S64x1_S64x1_1_0_0_1_n_n.lhsIdx i q (1 : Fin 2)).val = (q ⟨0, by decide⟩).val :=
  Cert.ReferenceIdeal.dot_S64x64_S64x1_S64x1_1_0_0_1_n_n.lhsIdx_val_of_single rfl i q
theorem h9b_r0 (i : Cert.ReferenceIdeal.S64x1.Idx) (q : Cert.ReferenceIdeal.dot_S64x64_S64x1_S64x1_1_0_0_1_n_n.contr.Idx) :
    (Cert.ReferenceIdeal.dot_S64x64_S64x1_S64x1_1_0_0_1_n_n.rhsIdx i q (0 : Fin 2)).val = (q ⟨0, by decide⟩).val :=
  Cert.ReferenceIdeal.dot_S64x64_S64x1_S64x1_1_0_0_1_n_n.rhsIdx_val_of_single rfl i q
theorem h9b_r1 (i : Cert.ReferenceIdeal.S64x1.Idx) (q : Cert.ReferenceIdeal.dot_S64x64_S64x1_S64x1_1_0_0_1_n_n.contr.Idx) :
    (Cert.ReferenceIdeal.dot_S64x64_S64x1_S64x1_1_0_0_1_n_n.rhsIdx i q (1 : Fin 2)).val = (i (1 : Fin 2)).val := by
  unfold DotDims.rhsIdx
  rw [dif_neg (show ¬(1 : Fin 2) ∈ Cert.ReferenceIdeal.dot_S64x64_S64x1_S64x1_1_0_0_1_n_n.rhsBatch by decide), dif_pos (show (1 : Fin 2) ∈ Cert.ReferenceIdeal.dot_S64x64_S64x1_S64x1_1_0_0_1_n_n.rhsNonContracting by decide)]
  rfl

/-- The critic head's payload at row `p`: the hidden layer relu (x0 · x1 + x2) of that row, times the column of `x3`, plus `x4`. -/
theorem pay9_apply (x0 : Vec Ideal S64x128 .f32) (x1 : Vec Ideal S128x64 .f32) (x2 : Vec Ideal S1x64 .f32) (x3 : Vec Ideal S64x1 .f32)
    (x4 : Vec Ideal S1x1 .f32) (p : Fin 64) (q : Fin 1) :
    k9_pay1 (F := Ideal) x0 x1 x2 x3 x4 (ix2 p q)
      = (∑ k : Fin 64, max ((∑ l : Fin 128, x0 (ix2 p l) * x1 (ix2 l k)) + x2 (ix2 (0 : Fin 1) k)) (Ideal.ofBits .f32 0x00000000#32) * x3 (ix2 k q))
        + x4 (ix2 (0 : Fin 1) q) := by
  unfold k9_pay1
  simp only [shapeCast_self]
  rw [addf_apply]
  refine congrArg₂ (· + ·) ?_ (broadcastTo_1b_ab_apply x4 broadcasts_S1x1_S64x1 p q)
  simp only [matmul]
  rw [Ideal.matmul_constant_zero_apply]
  refine (sum_contr dot_S64x64_S64x1_S64x1_1_0_0_1_n_n rfl rfl k9b_l0 k9b_l1 k9b_r0 k9b_r1 _ _ p q).trans ?_
  refine Finset.sum_congr rfl fun k _ => ?_
  show max (FloatOps.matmul (F := Ideal) dot_S64x128_S128x64_S64x64_1_0_0_1_n_n none (truncf (F := Ideal) .bf16 x0 bitsLt_bf16_f32) (truncf (F := Ideal) .bf16 x1 bitsLt_bf16_f32) (constant (F := Ideal) S64x64 .f32 0x00000000#32) (ix2 p k)
      + broadcastTo S64x64 x2 broadcasts_S1x64_S64x64 (ix2 p k)) (Ideal.ofBits .f32 0x00000000#32) * x3 (ix2 k q) = _
  refine congrArg₂ (· * ·) (congrArg₂ max (congrArg₂ (· + ·) ?_ (broadcastTo_1b_ab_apply x2 broadcasts_S1x64_S64x64 p k)) rfl) rfl
  rw [Ideal.matmul_constant_zero_apply]
  exact sum_contr dot_S64x128_S128x64_S64x64_1_0_0_1_n_n rfl rfl k9a_l0 k9a_l1 k9a_r0 k9a_r1 _ _ p k

/-- The critic's head at row `r`. -/
theorem valueHead_apply (g : Cert.Spec.FC Ideal Cert.ReferenceIdeal.S64x128) (W1 : Cert.Spec.FC Ideal Cert.ReferenceIdeal.S128x64)
    (b1 : Cert.Spec.FC Ideal Cert.ReferenceIdeal.S1x64) (W2 : Cert.Spec.FC Ideal Cert.ReferenceIdeal.S64x1) (b2 : Cert.Spec.FC Ideal Cert.ReferenceIdeal.S1x1)
    (r : Fin 64) (j : Fin 1) :
    Cert.Spec.valueHead (F := Ideal) g W1 b1 W2 b2 (ix2 r j)
      = (∑ k : Fin 64, max ((∑ l : Fin 128, g (ix2 r l) * W1 (ix2 l k)) + b1 (ix2 (0 : Fin 1) k)) (Ideal.ofBits .f32 0x00000000#32) * W2 (ix2 k j))
        + b2 (ix2 (0 : Fin 1) j) := by
  unfold Cert.Spec.valueHead
  rw [addf_apply]
  refine congrArg₂ (· + ·) ?_ (broadcastInDim_apply _ Cert.ReferenceIdeal.Gen.bcast_S1x1_S64x1_0_1 b2 (ix2 r j) (ix2 (0 : Fin 1) j) (fun ax => match ax with
      | ⟨0, _⟩ => by show 0 = if (1 : Nat) = 1 then 0 else r.val; rw [if_pos rfl]
      | ⟨1, _⟩ => by show j.val = if (1 : Nat) = 1 then 0 else j.val; rw [if_pos rfl]; exact Nat.lt_one_iff.mp j.isLt))
  simp only [Host.dotGeneral]
  rw [Ideal.dotGeneral_apply]
  refine (sum_contr Cert.ReferenceIdeal.dot_S64x64_S64x1_S64x1_1_0_0_1_n_n rfl rfl h9b_l0 h9b_l1 h9b_r0 h9b_r1 _ _ r j).trans ?_
  refine Finset.sum_congr rfl fun k _ => ?_
  show max (FloatOps.dotGeneral (F := Ideal) Cert.ReferenceIdeal.dot_S64x128_S128x64_S64x64_1_0_0_1_n_n none HostSchedule.single g W1 (ix2 r k)
      + broadcastInDim Cert.ReferenceIdeal.S64x64 ![0, 1] Cert.ReferenceIdeal.Gen.bcast_S1x64_S64x64_0_1 b1 (ix2 r k)) (Ideal.ofBits .f32 0x00000000#32) * W2 (ix2 k j) = _
  refine congrArg₂ (· * ·) (congrArg₂ max (congrArg₂ (· + ·) ?_ (broadcastInDim_apply _ Cert.ReferenceIdeal.Gen.bcast_S1x64_S64x64_0_1 b1 (ix2 r k) (ix2 (0 : Fin 1) k) (fun ax => match ax with
      | ⟨0, _⟩ => by show 0 = if (1 : Nat) = 1 then 0 else r.val; rw [if_pos rfl]
      | ⟨1, _⟩ => by show k.val = if (64 : Nat) = 1 then 0 else k.val; rw [if_neg (by decide)]))) rfl) rfl
  rw [Ideal.dotGeneral_apply]
  exact sum_contr Cert.ReferenceIdeal.dot_S64x128_S128x64_S64x64_1_0_0_1_n_n rfl rfl h9a_l0 h9a_l1 h9a_r0 h9a_r1 _ _ r k

/-- The critic head's one grid point reads and writes every window at block index zero: each block is its whole array. -/
theorem idx9 : ∀ t : Fin cfg9.N, (∀ a : Fin 2, win9_0.index t a = 0) ∧ (∀ a : Fin 2, win9_1.index t a = 0) ∧ (∀ a : Fin 2, win9_2.index t a = 0)
    ∧ (∀ a : Fin 2, win9_3.index t a = 0) ∧ (∀ a : Fin 2, win9_4.index t a = 0) ∧ (∀ a : Fin 2, win9_5.index t a = 0) :=
  (by decide +kernel : ∀ t : Fin grid9.N, _)

theorem iblk9_0_eq (t : Fin cfg9.N) : (iblk9 (F := Ideal) V c 0 t : Vec Ideal S64x128 .f32) = (V c main_v115 : S64x128.Idx → EReal) := by
  funext y
  unfold iblk9
  rw [View.read_apply]
  show V c main_v115 (((cfg9.win 0).blk t).view.emb y) = V c main_v115 y
  congr 1
  funext a; apply Fin.ext
  match a with
  | ⟨0, _⟩ => show win9_0.index t (0 : Fin 2) * 64 + 1 * (y 0).val = (y 0).val; rw [(idx9 t).1 0]; omega
  | ⟨1, _⟩ => show win9_0.index t (1 : Fin 2) * 128 + 1 * (y 1).val = (y 1).val; rw [(idx9 t).1 1]; omega

theorem iblk9_1_eq (t : Fin cfg9.N) : (iblk9 (F := Ideal) V c 1 t : Vec Ideal S128x64 .f32) = (V c main_arg14 : S128x64.Idx → EReal) := by
  funext y
  unfold iblk9
  rw [View.read_apply]
  show V c main_arg14 (((cfg9.win 1).blk t).view.emb y) = V c main_arg14 y
  congr 1
  funext a; apply Fin.ext
  match a with
  | ⟨0, _⟩ => show win9_1.index t (0 : Fin 2) * 128 + 1 * (y 0).val = (y 0).val; rw [(idx9 t).2.1 0]; omega
  | ⟨1, _⟩ => show win9_1.index t (1 : Fin 2) * 64 + 1 * (y 1).val = (y 1).val; rw [(idx9 t).2.1 1]; omega

theorem iblk9_2_eq (t : Fin cfg9.N) : (iblk9 (F := Ideal) V c 2 t : Vec Ideal S1x64 .f32) = (V c main_v116 : S1x64.Idx → EReal) := by
  funext y
  unfold iblk9
  rw [View.read_apply]
  show V c main_v116 (((cfg9.win 2).blk t).view.emb y) = V c main_v116 y
  congr 1
  funext a; apply Fin.ext
  match a with
  | ⟨0, _⟩ => show win9_2.index t (0 : Fin 2) * 1 + 1 * (y 0).val = (y 0).val; rw [(idx9 t).2.2.1 0]; omega
  | ⟨1, _⟩ => show win9_2.index t (1 : Fin 2) * 64 + 1 * (y 1).val = (y 1).val; rw [(idx9 t).2.2.1 1]; omega

theorem iblk9_3_eq (t : Fin cfg9.N) : (iblk9 (F := Ideal) V c 3 t : Vec Ideal S64x1 .f32) = (V c main_arg16 : S64x1.Idx → EReal) := by
  funext y
  unfold iblk9
  rw [View.read_apply]
  show V c main_arg16 (((cfg9.win 3).blk t).view.emb y) = V c main_arg16 y
  congr 1
  funext a; apply Fin.ext
  match a with
  | ⟨0, _⟩ => show win9_3.index t (0 : Fin 2) * 64 + 1 * (y 0).val = (y 0).val; rw [(idx9 t).2.2.2.1 0]; omega
  | ⟨1, _⟩ => show win9_3.index t (1 : Fin 2) * 1 + 1 * (y 1).val = (y 1).val; rw [(idx9 t).2.2.2.1 1]; omega

theorem iblk9_4_eq (t : Fin cfg9.N) : (iblk9 (F := Ideal) V c 4 t : Vec Ideal S1x1 .f32) = (V c main_v117 : S1x1.Idx → EReal) := by
  funext y
  unfold iblk9
  rw [View.read_apply]
  show V c main_v117 (((cfg9.win 4).blk t).view.emb y) = V c main_v117 y
  congr 1
  funext a; apply Fin.ext
  match a with
  | ⟨0, _⟩ => show win9_4.index t (0 : Fin 2) * 1 + 1 * (y 0).val = (y 0).val; rw [(idx9 t).2.2.2.2.1 0]; omega
  | ⟨1, _⟩ => show win9_4.index t (1 : Fin 2) * 1 + 1 * (y 1).val = (y 1).val; rw [(idx9 t).2.2.2.2.1 1]; omega

/-- One element of the critic head's payload on blocks that are the whole arrays is that element of the head. -/
theorem head9_point (x0 : Vec Ideal S64x128 .f32) (x1 : Vec Ideal S128x64 .f32) (x2 : Vec Ideal S1x64 .f32) (x3 : Vec Ideal S64x1 .f32) (x4 : Vec Ideal S1x1 .f32)
    (g : Cert.Spec.FC Ideal Cert.ReferenceIdeal.S64x128) (W1 : Cert.Spec.FC Ideal Cert.ReferenceIdeal.S128x64)
    (b1 : Cert.Spec.FC Ideal Cert.ReferenceIdeal.S1x64) (W2 : Cert.Spec.FC Ideal Cert.ReferenceIdeal.S64x1) (b2 : Cert.Spec.FC Ideal Cert.ReferenceIdeal.S1x1)
    (h0 : x0 = g) (h1 : x1 = W1) (h2 : x2 = b1) (h3 : x3 = W2) (h4 : x4 = b2)
    (y : S64x1.Idx) (i : S64x1.Idx) (hi0 : (i 0).val = (y 0).val) (hi1 : (i 1).val = (y 1).val) :
    k9_pay1 (F := Ideal) x0 x1 x2 x3 x4 y = Cert.Spec.valueHead (F := Ideal) g W1 b1 W2 b2 i := by
  subst h0 h1 h2 h3 h4
  obtain ⟨p, q, rfl⟩ : ∃ (p : Fin 64) (q : Fin 1), y = ix2 p q := ⟨y 0, y 1, eq_ix2 y⟩
  obtain ⟨r, j, rfl⟩ : ∃ (r : Fin 64) (j : Fin 1), i = ix2 r j := ⟨i 0, i 1, eq_ix2 i⟩
  obtain rfl : r = p := Fin.ext hi0
  obtain rfl : j = q := Fin.ext hi1
  rw [pay9_apply]
  exact (valueHead_apply x0 x1 x2 x3 x4 r j).symm

/-- What the one point writes back is its block of the head of the arrays as the region finds them. -/
theorem flushed9_eq (t : Fin cfg9.N) :
    (dat9 (F := Ideal) V c).flushed 5 t
      = ((cfg9.win 5).blk t).view.read (Elt Ideal) (Cert.Spec.valueHead (F := Ideal) (V c main_v115) (V c main_arg14) (V c main_v116) (V c main_arg16) (V c main_v117)) := by
  show (cfg9.win 5).cut (grid9.coords t) ((dat9 V c).after 5 t) = _
  rw [after9_5]
  unfold out9_5
  rw [View.canon_unit_zero hz]
  simp only [View.ld_unit_zero (S := S64x128) hz, View.ld_unit_zero (S := S128x64) hz, View.ld_unit_zero (S := S1x64) hz,
    View.ld_unit_zero (S := S64x1) hz, View.ld_unit_zero (S := S1x1) hz]
  funext y
  show k9_pay1 (F := Ideal) (iblk9 V c 0 t) (iblk9 V c 1 t) (iblk9 V c 2 t) (iblk9 V c 3 t) (iblk9 V c 4 t) y
    = Cert.Spec.valueHead (F := Ideal) (V c main_v115) (V c main_arg14) (V c main_v116) (V c main_arg16) (V c main_v117) (((cfg9.win 5).blk t).view.emb y)
  refine head9_point (iblk9 V c 0 t) (iblk9 V c 1 t) (iblk9 V c 2 t) (iblk9 V c 3 t) (iblk9 V c 4 t) _ _ _ _ _
    (iblk9_0_eq V c t) (iblk9_1_eq V c t) (iblk9_2_eq V c t) (iblk9_3_eq V c t) (iblk9_4_eq V c t) y _ ?_ ?_
  · show win9_5.index t (0 : Fin 2) * 64 + 1 * (y 0).val = (y 0).val
    rw [(idx9 t).2.2.2.2.2 0]; omega
  · show win9_5.index t (1 : Fin 2) * 1 + 1 * (y 1).val = (y 1).val
    rw [(idx9 t).2.2.2.2.2 1]; omega

/-- An index of the result is in point `t`'s block iff each coordinate is in the block's range on its axis. -/
theorem mem_blk9 (t : Fin cfg9.N) (i : S64x1.Idx) :
    i ∈ ((cfg9.win 5).blk t).view.set ↔ ∀ a : Fin 2, win9_5.index t a * S64x1.size a ≤ (i a).val ∧ (i a).val < win9_5.index t a * S64x1.size a + S64x1.size a := by
  show i ∈ ((View.whole main_v118).slice (win9_5.rect t)).set ↔ _
  rw [View.set_slice_whole, Rect.mem_set_unit]
  exact Iff.rfl

/-- The one point's block is the whole result. -/
theorem cover9 (i : S64x1.Idx) : ∃ t : Fin cfg9.N, (cfg9.win 5).flush t = true ∧ i ∈ ((cfg9.win 5).blk t).view.set := by
  have hi0 : (i 0).val < 64 := (i 0).isLt
  have hi1 : (i 1).val < 1 := (i 1).isLt
  refine ⟨t9_0, flush9_5 t9_0, ?_⟩
  rw [mem_blk9]
  intro a
  match a with
  | ⟨0, _⟩ =>
    show win9_5.index t9_0 (0 : Fin 2) * 64 ≤ (i 0).val ∧ (i 0).val < win9_5.index t9_0 (0 : Fin 2) * 64 + 64
    rw [(idx9 t9_0).2.2.2.2.2 0]; omega
  | ⟨1, _⟩ =>
    show win9_5.index t9_0 (1 : Fin 2) * 1 ≤ (i 1).val ∧ (i 1).val < win9_5.index t9_0 (1 : Fin 2) * 1 + 1
    rw [(idx9 t9_0).2.2.2.2.2 1]; omega

end Heads

theorem region4_val : (dat4 (F := Ideal) V c).arrAt 3 cfg4.N = Cert.Spec.meanHead (F := Ideal) (V c main_v67) (V c main_arg7) (V c main_v68) :=
  (dat4 (F := Ideal) V c).arrAt_eq_of_cover 3 (Cert.Spec.meanHead (F := Ideal) (V c main_v67) (V c main_arg7) (V c main_v68))
    (fun t _ => Heads.flushed4_eq V c t) Heads.cover4
theorem region9_val : (dat9 (F := Ideal) V c).arrAt 5 cfg9.N = Cert.Spec.valueHead (F := Ideal) (V c main_v115) (V c main_arg14) (V c main_v116) (V c main_arg16) (V c main_v117) :=
  (dat9 (F := Ideal) V c).arrAt_eq_of_cover 5 (Cert.Spec.valueHead (F := Ideal) (V c main_v115) (V c main_arg14) (V c main_v116) (V c main_arg16) (V c main_v117))
    (fun t _ => Heads.flushed9_eq V c t) Heads.cover9

end Cert.KernelIdeal.Hand

end
-- ==== Proof.KVal.lean ====
/-
  The idealized kernel's three results as the specification's functions of its arguments: the contents of the buffers
  are followed through @main's twenty segments. A stretch of host operations leaves the specification's stage of what
  it started from; a kernel region leaves in its result array the stage its body computes (a matrix product, a bias
  and relu, one of the two heads) of its operand arrays as it finds them; every other buffer is carried unchanged.
  The edge lists and edge weights are computed once, before the first region, and read again by each of the four
  layers; the reference recomputes them per layer, which is the same function of the same edge array.
-/
import proofs.«143567_j2740189135247_1_alg».proof.Proof.KRun
import proofs.«143567_j2740189135247_1_alg».proof.Proof.Carry
import proofs.«143567_j2740189135247_1_alg».proof.Proof.HostSkip
import proofs.«143567_j2740189135247_1_alg».proof.Proof.HostVal
import proofs.«143567_j2740189135247_1_alg».proof.Proof.RegLinear
import proofs.«143567_j2740189135247_1_alg».proof.Proof.RegBiasRelu
import proofs.«143567_j2740189135247_1_alg».proof.Proof.RegHeads

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem congr3 {α β γ δ : Sort _} (f : α → β → γ → δ) {a a' : α} {b b' : β} {c c' : γ} (ha : a = a') (hb : b = b') (hc : c = c') :
    f a b c = f a' b' c' := by subst ha hb hc; rfl
theorem congr4 {α β γ δ ε : Sort _} (f : α → β → γ → δ → ε) {a a' : α} {b b' : β} {c c' : γ} {d d' : δ}
    (ha : a = a') (hb : b = b') (hc : c = c') (hd : d = d') : f a b c d = f a' b' c' d' := by subst ha hb hc hd; rfl
theorem congr5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by subst ha hb hc hd he; rfl

/-! ## Buffers that are carried -/

section Carried

variable {F : FTy → Type} [FloatOps F]
variable (m : (ℓ : Loc nD τ sig) → Buf (Elt F) ℓ) (ρ : Dev nD → PrngReg) (c : Dev nD)

/-- A buffer the first three host stretches do not write holds its launch contents at the first region's entry. -/
theorem pre3 (b : Ref sig .tc) (h0 : b ∉ written0) (h1 : b ∉ written0_1) (h2 : b ∉ written0_2) :
    W3 m ρ c (Proc.devRef .tc b) = m ((c : Thread nD τ).loc b) :=
  (skip0_2 (W2 m ρ c) b h2).trans ((skip0_1 (W1 m ρ c) b h1).trans ((skip0 (W0 m ρ c) b h0).trans rfl))

/-- Written by no later host stretch and the result of no region. -/
abbrev Later (b : Ref sig .tc) : Prop :=
  b ∉ written1 ∧ b ∉ written3 ∧ b ∉ written4 ∧ b ∉ written5 ∧ b ∉ written6 ∧ b ∉ written8 ∧ b ∉ written9 ∧
  b ≠ main_v36 ∧ b ≠ main_v51 ∧ b ≠ main_v52 ∧ b ≠ main_v67 ∧ b ≠ main_v69 ∧ b ≠ main_v72 ∧ b ≠ main_v87 ∧ b ≠ main_v88 ∧ b ≠ main_v103 ∧ b ≠ main_v118

variable (b : Ref sig .tc) (u : Later b)
include u

theorem from3_4 : W4 m ρ c (Proc.devRef .tc b) = W3 m ρ c (Proc.devRef .tc b) := keep0 m ρ c b u.2.2.2.2.2.2.2.1
theorem from3_5 : W5 m ρ c (Proc.devRef .tc b) = W3 m ρ c (Proc.devRef .tc b) := (skip1 (W4 m ρ c) b u.1).trans (from3_4 m ρ c b u)
theorem from3_6 : W6 m ρ c (Proc.devRef .tc b) = W3 m ρ c (Proc.devRef .tc b) := (keep1 m ρ c b u.2.2.2.2.2.2.2.2.1).trans (from3_5 m ρ c b u)
theorem from3_7 : W7 m ρ c (Proc.devRef .tc b) = W3 m ρ c (Proc.devRef .tc b) := (keep2 m ρ c b u.2.2.2.2.2.2.2.2.2.1).trans (from3_6 m ρ c b u)
theorem from3_8 : W8 m ρ c (Proc.devRef .tc b) = W3 m ρ c (Proc.devRef .tc b) := (skip3 (W7 m ρ c) b u.2.1).trans (from3_7 m ρ c b u)
theorem from3_9 : W9 m ρ c (Proc.devRef .tc b) = W3 m ρ c (Proc.devRef .tc b) := (keep3 m ρ c b u.2.2.2.2.2.2.2.2.2.2.1).trans (from3_8 m ρ c b u)
theorem from3_10 : W10 m ρ c (Proc.devRef .tc b) = W3 m ρ c (Proc.devRef .tc b) := (skip4 (W9 m ρ c) b u.2.2.1).trans (from3_9 m ρ c b u)
theorem from3_11 : W11 m ρ c (Proc.devRef .tc b) = W3 m ρ c (Proc.devRef .tc b) := (keep4 m ρ c b u.2.2.2.2.2.2.2.2.2.2.2.1).trans (from3_10 m ρ c b u)
theorem from3_12 : W12 m ρ c (Proc.devRef .tc b) = W3 m ρ c (Proc.devRef .tc b) := (skip5 (W11 m ρ c) b u.2.2.2.1).trans (from3_11 m ρ c b u)
theorem from3_13 : W13 m ρ c (Proc.devRef .tc b) = W3 m ρ c (Proc.devRef .tc b) := (keep5 m ρ c b u.2.2.2.2.2.2.2.2.2.2.2.2.1).trans (from3_12 m ρ c b u)
theorem from3_14 : W14 m ρ c (Proc.devRef .tc b) = W3 m ρ c (Proc.devRef .tc b) := (skip6 (W13 m ρ c) b u.2.2.2.2.1).trans (from3_13 m ρ c b u)
theorem from3_15 : W15 m ρ c (Proc.devRef .tc b) = W3 m ρ c (Proc.devRef .tc b) := (keep6 m ρ c b u.2.2.2.2.2.2.2.2.2.2.2.2.2.1).trans (from3_14 m ρ c b u)
theorem from3_16 : W16 m ρ c (Proc.devRef .tc b) = W3 m ρ c (Proc.devRef .tc b) := (keep7 m ρ c b u.2.2.2.2.2.2.2.2.2.2.2.2.2.2.1).trans (from3_15 m ρ c b u)
theorem from3_17 : W17 m ρ c (Proc.devRef .tc b) = W3 m ρ c (Proc.devRef .tc b) := (skip8 (W16 m ρ c) b u.2.2.2.2.2.1).trans (from3_16 m ρ c b u)
theorem from3_18 : W18 m ρ c (Proc.devRef .tc b) = W3 m ρ c (Proc.devRef .tc b) := (keep8 m ρ c b u.2.2.2.2.2.2.2.2.2.2.2.2.2.2.2.1).trans (from3_17 m ρ c b u)
theorem from3_19 : W19 m ρ c (Proc.devRef .tc b) = W3 m ρ c (Proc.devRef .tc b) := (skip9 (W18 m ρ c) b u.2.2.2.2.2.2.1).trans (from3_18 m ρ c b u)

end Carried

/-! ## The values, segment by segment (at the exact extended reals) -/

variable (m : (ℓ : Loc nD τ sig) → Buf (Elt Ideal) ℓ) (ρ : Dev nD → PrngReg) (c : Dev nD)

/-- The extended edges' sources, targets and weights, of the edge array at launch. -/
abbrev eS : Cert.Spec.IC Ideal Cert.ReferenceIdeal.S1700000 := Cert.Spec.srcIdx (F := Ideal) (m ((c : Thread nD τ).loc main_arg1))
abbrev eD : Cert.Spec.IC Ideal Cert.ReferenceIdeal.S1700000 := Cert.Spec.dstIdx (F := Ideal) (m ((c : Thread nD τ).loc main_arg1))
abbrev eN : Cert.Spec.FC Ideal Cert.ReferenceIdeal.S1700000 := Cert.Spec.edgeNorm (F := Ideal) (eS m c) (eD m c)

theorem S3 : W3 m ρ c (Proc.devRef .tc main_v5) = eS m c := pre_src (W0 m ρ c)
theorem D3 : W3 m ρ c (Proc.devRef .tc main_v6) = eD m c := pre_dst (W0 m ρ c)
theorem N3 : W3 m ρ c (Proc.devRef .tc main_v35) = eN m c := pre_norm (W0 m ρ c)

theorem later_v5 : Later main_v5 := by decide
theorem later_v6 : Later main_v6 := by decide
theorem later_v35 : Later main_v35 := by decide
theorem later_arg0 : Later main_arg0 := by decide
theorem later_arg2 : Later main_arg2 := by decide
theorem later_arg3 : Later main_arg3 := by decide
theorem later_arg4 : Later main_arg4 := by decide
theorem later_arg5 : Later main_arg5 := by decide
theorem later_arg6 : Later main_arg6 := by decide
theorem later_arg7 : Later main_arg7 := by decide
theorem later_arg8 : Later main_arg8 := by decide
theorem later_arg9 : Later main_arg9 := by decide
theorem later_arg10 : Later main_arg10 := by decide
theorem later_arg11 : Later main_arg11 := by decide
theorem later_arg12 : Later main_arg12 := by decide
theorem later_arg13 : Later main_arg13 := by decide
theorem later_arg14 : Later main_arg14 := by decide
theorem later_arg15 : Later main_arg15 := by decide
theorem later_arg16 : Later main_arg16 := by decide
theorem later_arg17 : Later main_arg17 := by decide

/-! ### The actor: two layers and the tanh head -/

theorem v36_4 : W4 m ρ c (Proc.devRef .tc main_v36) = Cert.Spec.linear (F := Ideal) (m ((c : Thread nD τ).loc main_arg0)) (m ((c : Thread nD τ).loc main_arg3)) :=
  (W4_arr m ρ c 2).trans ((region0_val (V3 m ρ) c).trans (congrArg₂ (Cert.Spec.linear (F := Ideal)) (pre3 m ρ c main_arg0 (by decide) (by decide) (by decide)) (pre3 m ρ c main_arg3 (by decide) (by decide) (by decide))))
theorem v49_5 : W5 m ρ c (Proc.devRef .tc main_v49) = Cert.Spec.aggregate (F := Ideal) (Cert.Spec.linear (F := Ideal) (m ((c : Thread nD τ).loc main_arg0)) (m ((c : Thread nD τ).loc main_arg3))) (eS m c) (eD m c) (eN m c) :=
  (agg1 (W4 m ρ c)).trans (congr4 (Cert.Spec.aggregate (F := Ideal)) (v36_4 m ρ c) ((from3_4 m ρ c main_v5 later_v5).trans (S3 m ρ c)) ((from3_4 m ρ c main_v6 later_v6).trans (D3 m ρ c)) ((from3_4 m ρ c main_v35 later_v35).trans (N3 m ρ c)))
theorem v50_5 : W5 m ρ c (Proc.devRef .tc main_v50) = Cert.Spec.row128 (F := Ideal) (m ((c : Thread nD τ).loc main_arg4)) :=
  (bias1 (W4 m ρ c)).trans (congrArg (Cert.Spec.row128 (F := Ideal)) ((from3_4 m ρ c main_arg4 later_arg4).trans (pre3 m ρ c main_arg4 (by decide) (by decide) (by decide))))
theorem v51_6 : W6 m ρ c (Proc.devRef .tc main_v51) = (Cert.Spec.layer (F := Ideal) (m ((c : Thread nD τ).loc main_arg0)) (m ((c : Thread nD τ).loc main_arg3)) (m ((c : Thread nD τ).loc main_arg4)) (eS m c) (eD m c) (eN m c)) :=
  (W6_arr m ρ c 2).trans ((region1_val (V5 m ρ) c).trans (congrArg₂ (Cert.Spec.biasRelu (F := Ideal)) (v49_5 m ρ c) (v50_5 m ρ c)))
theorem v52_7 : W7 m ρ c (Proc.devRef .tc main_v52) = Cert.Spec.linear (F := Ideal) (Cert.Spec.layer (F := Ideal) (m ((c : Thread nD τ).loc main_arg0)) (m ((c : Thread nD τ).loc main_arg3)) (m ((c : Thread nD τ).loc main_arg4)) (eS m c) (eD m c) (eN m c)) (m ((c : Thread nD τ).loc main_arg5)) :=
  (W7_arr m ρ c 2).trans ((region2_val (V6 m ρ) c).trans (congrArg₂ (Cert.Spec.linear (F := Ideal)) (v51_6 m ρ c) ((from3_6 m ρ c main_arg5 later_arg5).trans (pre3 m ρ c main_arg5 (by decide) (by decide) (by decide)))))
theorem v65_8 : W8 m ρ c (Proc.devRef .tc main_v65) = Cert.Spec.aggregate (F := Ideal) (Cert.Spec.linear (F := Ideal) (Cert.Spec.layer (F := Ideal) (m ((c : Thread nD τ).loc main_arg0)) (m ((c : Thread nD τ).loc main_arg3)) (m ((c : Thread nD τ).loc main_arg4)) (eS m c) (eD m c) (eN m c)) (m ((c : Thread nD τ).loc main_arg5))) (eS m c) (eD m c) (eN m c) :=
  (agg3 (W7 m ρ c)).trans (congr4 (Cert.Spec.aggregate (F := Ideal)) (v52_7 m ρ c) ((from3_7 m ρ c main_v5 later_v5).trans (S3 m ρ c)) ((from3_7 m ρ c main_v6 later_v6).trans (D3 m ρ c)) ((from3_7 m ρ c main_v35 later_v35).trans (N3 m ρ c)))
theorem v66_8 : W8 m ρ c (Proc.devRef .tc main_v66) = Cert.Spec.row128 (F := Ideal) (m ((c : Thread nD τ).loc main_arg6)) :=
  (bias3 (W7 m ρ c)).trans (congrArg (Cert.Spec.row128 (F := Ideal)) ((from3_7 m ρ c main_arg6 later_arg6).trans (pre3 m ρ c main_arg6 (by decide) (by decide) (by decide))))
theorem v67_9 : W9 m ρ c (Proc.devRef .tc main_v67) = (Cert.Spec.layer (F := Ideal) (Cert.Spec.layer (F := Ideal) (m ((c : Thread nD τ).loc main_arg0)) (m ((c : Thread nD τ).loc main_arg3)) (m ((c : Thread nD τ).loc main_arg4)) (eS m c) (eD m c) (eN m c)) (m ((c : Thread nD τ).loc main_arg5)) (m ((c : Thread nD τ).loc main_arg6)) (eS m c) (eD m c) (eN m c)) :=
  (W9_arr m ρ c 2).trans ((region3_val (V8 m ρ) c).trans (congrArg₂ (Cert.Spec.biasRelu (F := Ideal)) (v65_8 m ρ c) (v66_8 m ρ c)))
theorem v67_10 : W10 m ρ c (Proc.devRef .tc main_v67) = (Cert.Spec.layer (F := Ideal) (Cert.Spec.layer (F := Ideal) (m ((c : Thread nD τ).loc main_arg0)) (m ((c : Thread nD τ).loc main_arg3)) (m ((c : Thread nD τ).loc main_arg4)) (eS m c) (eD m c) (eN m c)) (m ((c : Thread nD τ).loc main_arg5)) (m ((c : Thread nD τ).loc main_arg6)) (eS m c) (eD m c) (eN m c)) :=
  (skip4 (W9 m ρ c) main_v67 (by decide)).trans (v67_9 m ρ c)
theorem v68_10 : W10 m ρ c (Proc.devRef .tc main_v68) = Cert.Spec.row8 (F := Ideal) (m ((c : Thread nD τ).loc main_arg8)) :=
  (bias4 (W9 m ρ c)).trans (congrArg (Cert.Spec.row8 (F := Ideal)) ((from3_9 m ρ c main_arg8 later_arg8).trans (pre3 m ρ c main_arg8 (by decide) (by decide) (by decide))))
theorem v69_11 : W11 m ρ c (Proc.devRef .tc main_v69) = Cert.Spec.meanHead (F := Ideal) (Cert.Spec.layer (F := Ideal) (Cert.Spec.layer (F := Ideal) (m ((c : Thread nD τ).loc main_arg0)) (m ((c : Thread nD τ).loc main_arg3)) (m ((c : Thread nD τ).loc main_arg4)) (eS m c) (eD m c) (eN m c)) (m ((c : Thread nD τ).loc main_arg5)) (m ((c : Thread nD τ).loc main_arg6)) (eS m c) (eD m c) (eN m c)) (m ((c : Thread nD τ).loc main_arg7)) (Cert.Spec.row8 (F := Ideal) (m ((c : Thread nD τ).loc main_arg8))) :=
  (W11_arr m ρ c 3).trans ((region4_val (V10 m ρ) c).trans (congr3 (Cert.Spec.meanHead (F := Ideal)) (v67_10 m ρ c) ((from3_10 m ρ c main_arg7 later_arg7).trans (pre3 m ρ c main_arg7 (by decide) (by decide) (by decide))) (v68_10 m ρ c)))
/-- The first result is carried from region 4's exit to the end. -/
theorem v69_20 : W20 m ρ c (Proc.devRef .tc main_v69) = W11 m ρ c (Proc.devRef .tc main_v69) :=
  (keep9 m ρ c main_v69 (by decide)).trans <| (skip9 (W18 m ρ c) main_v69 (by decide)).trans <| (keep8 m ρ c main_v69 (by decide)).trans <|
  (skip8 (W16 m ρ c) main_v69 (by decide)).trans <| (keep7 m ρ c main_v69 (by decide)).trans <| (keep6 m ρ c main_v69 (by decide)).trans <|
  (skip6 (W13 m ρ c) main_v69 (by decide)).trans <| (keep5 m ρ c main_v69 (by decide)).trans <| (skip5 (W11 m ρ c) main_v69 (by decide))

/-- The first result: the actor's mean. -/
theorem mean_val : W20 m ρ c (Proc.devRef .tc main_v69) = Cert.Spec.mean (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (v69_20 m ρ c).trans (v69_11 m ρ c)

/-! ### The standard deviation -/

theorem v71_12 : W12 m ρ c (Proc.devRef .tc main_v71) = Cert.Spec.stdOf (F := Ideal) (m ((c : Thread nD τ).loc main_arg9)) :=
  (std5 (W11 m ρ c)).trans (congrArg (Cert.Spec.stdOf (F := Ideal)) ((from3_11 m ρ c main_arg9 later_arg9).trans (pre3 m ρ c main_arg9 (by decide) (by decide) (by decide))))
/-- The second result is carried from the stretch that computes it to the end. -/
theorem std_val : W20 m ρ c (Proc.devRef .tc main_v71) = Cert.Spec.stdOf (F := Ideal) (m ((c : Thread nD τ).loc main_arg9)) :=
  (keep9 m ρ c main_v71 (by decide)).trans <| (skip9 (W18 m ρ c) main_v71 (by decide)).trans <| (keep8 m ρ c main_v71 (by decide)).trans <|
  (skip8 (W16 m ρ c) main_v71 (by decide)).trans <| (keep7 m ρ c main_v71 (by decide)).trans <| (keep6 m ρ c main_v71 (by decide)).trans <|
  (skip6 (W13 m ρ c) main_v71 (by decide)).trans <| (keep5 m ρ c main_v71 (by decide)).trans (v71_12 m ρ c)

/-! ### The critic: two layers, the pooling and the perceptron head -/

theorem v72_13 : W13 m ρ c (Proc.devRef .tc main_v72) = Cert.Spec.linear (F := Ideal) (m ((c : Thread nD τ).loc main_arg0)) (m ((c : Thread nD τ).loc main_arg10)) :=
  (W13_arr m ρ c 2).trans ((region5_val (V12 m ρ) c).trans (congrArg₂ (Cert.Spec.linear (F := Ideal)) ((from3_12 m ρ c main_arg0 later_arg0).trans (pre3 m ρ c main_arg0 (by decide) (by decide) (by decide))) ((from3_12 m ρ c main_arg10 later_arg10).trans (pre3 m ρ c main_arg10 (by decide) (by decide) (by decide)))))
theorem v85_14 : W14 m ρ c (Proc.devRef .tc main_v85) = Cert.Spec.aggregate (F := Ideal) (Cert.Spec.linear (F := Ideal) (m ((c : Thread nD τ).loc main_arg0)) (m ((c : Thread nD τ).loc main_arg10))) (eS m c) (eD m c) (eN m c) :=
  (agg6 (W13 m ρ c)).trans (congr4 (Cert.Spec.aggregate (F := Ideal)) (v72_13 m ρ c) ((from3_13 m ρ c main_v5 later_v5).trans (S3 m ρ c)) ((from3_13 m ρ c main_v6 later_v6).trans (D3 m ρ c)) ((from3_13 m ρ c main_v35 later_v35).trans (N3 m ρ c)))
theorem v86_14 : W14 m ρ c (Proc.devRef .tc main_v86) = Cert.Spec.row128 (F := Ideal) (m ((c : Thread nD τ).loc main_arg11)) :=
  (bias6 (W13 m ρ c)).trans (congrArg (Cert.Spec.row128 (F := Ideal)) ((from3_13 m ρ c main_arg11 later_arg11).trans (pre3 m ρ c main_arg11 (by decide) (by decide) (by decide))))
theorem v87_15 : W15 m ρ c (Proc.devRef .tc main_v87) = (Cert.Spec.layer (F := Ideal) (m ((c : Thread nD τ).loc main_arg0)) (m ((c : Thread nD τ).loc main_arg10)) (m ((c : Thread nD τ).loc main_arg11)) (eS m c) (eD m c) (eN m c)) :=
  (W15_arr m ρ c 2).trans ((region6_val (V14 m ρ) c).trans (congrArg₂ (Cert.Spec.biasRelu (F := Ideal)) (v85_14 m ρ c) (v86_14 m ρ c)))
theorem v88_16 : W16 m ρ c (Proc.devRef .tc main_v88) = Cert.Spec.linear (F := Ideal) (Cert.Spec.layer (F := Ideal) (m ((c : Thread nD τ).loc main_arg0)) (m ((c : Thread nD τ).loc main_arg10)) (m ((c : Thread nD τ).loc main_arg11)) (eS m c) (eD m c) (eN m c)) (m ((c : Thread nD τ).loc main_arg12)) :=
  (W16_arr m ρ c 2).trans ((region7_val (V15 m ρ) c).trans (congrArg₂ (Cert.Spec.linear (F := Ideal)) (v87_15 m ρ c) ((from3_15 m ρ c main_arg12 later_arg12).trans (pre3 m ρ c main_arg12 (by decide) (by decide) (by decide)))))
theorem v101_17 : W17 m ρ c (Proc.devRef .tc main_v101) = Cert.Spec.aggregate (F := Ideal) (Cert.Spec.linear (F := Ideal) (Cert.Spec.layer (F := Ideal) (m ((c : Thread nD τ).loc main_arg0)) (m ((c : Thread nD τ).loc main_arg10)) (m ((c : Thread nD τ).loc main_arg11)) (eS m c) (eD m c) (eN m c)) (m ((c : Thread nD τ).loc main_arg12))) (eS m c) (eD m c) (eN m c) :=
  (agg8 (W16 m ρ c)).trans (congr4 (Cert.Spec.aggregate (F := Ideal)) (v88_16 m ρ c) ((from3_16 m ρ c main_v5 later_v5).trans (S3 m ρ c)) ((from3_16 m ρ c main_v6 later_v6).trans (D3 m ρ c)) ((from3_16 m ρ c main_v35 later_v35).trans (N3 m ρ c)))
theorem v102_17 : W17 m ρ c (Proc.devRef .tc main_v102) = Cert.Spec.row128 (F := Ideal) (m ((c : Thread nD τ).loc main_arg13)) :=
  (bias8 (W16 m ρ c)).trans (congrArg (Cert.Spec.row128 (F := Ideal)) ((from3_16 m ρ c main_arg13 later_arg13).trans (pre3 m ρ c main_arg13 (by decide) (by decide) (by decide))))
theorem v103_18 : W18 m ρ c (Proc.devRef .tc main_v103) = (Cert.Spec.layer (F := Ideal) (Cert.Spec.layer (F := Ideal) (m ((c : Thread nD τ).loc main_arg0)) (m ((c : Thread nD τ).loc main_arg10)) (m ((c : Thread nD τ).loc main_arg11)) (eS m c) (eD m c) (eN m c)) (m ((c : Thread nD τ).loc main_arg12)) (m ((c : Thread nD τ).loc main_arg13)) (eS m c) (eD m c) (eN m c)) :=
  (W18_arr m ρ c 2).trans ((region8_val (V17 m ρ) c).trans (congrArg₂ (Cert.Spec.biasRelu (F := Ideal)) (v101_17 m ρ c) (v102_17 m ρ c)))
theorem v115_19 : W19 m ρ c (Proc.devRef .tc main_v115) = Cert.Spec.pool (F := Ideal) (Cert.Spec.layer (F := Ideal) (Cert.Spec.layer (F := Ideal) (m ((c : Thread nD τ).loc main_arg0)) (m ((c : Thread nD τ).loc main_arg10)) (m ((c : Thread nD τ).loc main_arg11)) (eS m c) (eD m c) (eN m c)) (m ((c : Thread nD τ).loc main_arg12)) (m ((c : Thread nD τ).loc main_arg13)) (eS m c) (eD m c) (eN m c)) (m ((c : Thread nD τ).loc main_arg2)) :=
  (pool9 (W18 m ρ c)).trans (congrArg₂ (Cert.Spec.pool (F := Ideal)) (v103_18 m ρ c) ((from3_18 m ρ c main_arg2 later_arg2).trans (pre3 m ρ c main_arg2 (by decide) (by decide) (by decide))))
theorem v116_19 : W19 m ρ c (Proc.devRef .tc main_v116) = Cert.Spec.row64 (F := Ideal) (m ((c : Thread nD τ).loc main_arg15)) :=
  (bias9a (W18 m ρ c)).trans (congrArg (Cert.Spec.row64 (F := Ideal)) ((from3_18 m ρ c main_arg15 later_arg15).trans (pre3 m ρ c main_arg15 (by decide) (by decide) (by decide))))
theorem v117_19 : W19 m ρ c (Proc.devRef .tc main_v117) = Cert.Spec.row1 (F := Ideal) (m ((c : Thread nD τ).loc main_arg17)) :=
  (bias9b (W18 m ρ c)).trans (congrArg (Cert.Spec.row1 (F := Ideal)) ((from3_18 m ρ c main_arg17 later_arg17).trans (pre3 m ρ c main_arg17 (by decide) (by decide) (by decide))))

/-- The third result: the critic's value. -/
theorem value_val : W20 m ρ c (Proc.devRef .tc main_v118) = Cert.Spec.value (F := Ideal) (m ((c : Thread nD τ).loc main_arg0)) (m ((c : Thread nD τ).loc main_arg1)) (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (W20_arr m ρ c 5).trans ((region9_val (V19 m ρ) c).trans (congr5 (Cert.Spec.valueHead (F := Ideal)) (v115_19 m ρ c) ((from3_19 m ρ c main_arg14 later_arg14).trans (pre3 m ρ c main_arg14 (by decide) (by decide) (by decide))) (v116_19 m ρ c) ((from3_19 m ρ c main_arg16 later_arg16).trans (pre3 m ρ c main_arg16 (by decide) (by decide) (by decide))) (v117_19 m ρ c)))

/-! ## The run, read -/

/-- Every weakly fair execution of the idealized kernel terminates with its three results at the specification's
    functions of the arguments, the arguments unchanged. -/
theorem run_val : θ_run defs (onTc (τ := τ) (main (F := Ideal))) ⟨m, fun _ => 0, ρ⟩ (fun r => ∀ c : Dev nD,
      r.2.mem ((c.tc : Thread nD τ).loc main_v69) = Cert.Spec.mean (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v71) = Cert.Spec.stdOf (F := Ideal) (m ((c : Thread nD τ).loc main_arg9))
      ∧ r.2.mem ((c.tc : Thread nD τ).loc main_v118) = Cert.Spec.value (F := Ideal) (m ((c : Thread nD τ).loc main_arg0)) (m ((c : Thread nD τ).loc main_arg1)) (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v69 (by decide))).trans (mean_val m ρ c),
     (h c _ (mem_uc main_v71 (by decide))).trans (std_val m ρ c),
     (h c _ (mem_uc main_v118 (by decide))).trans (value_val m ρ c),
     (h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c)⟩)
    (run_all m ρ)

end Cert.KernelIdeal.Hand

end
-- ==== Proof.lean ====
/-
  The certificate of a two-branch graph network (an actor and a critic, each two graph-convolution layers over one
  graph of 100000 nodes and 1600000 edges plus self loops) against its plain reference, over the extended reals.

  The kernel program runs the dense parts as ten pipelined kernel regions (four matrix products x · W in row blocks of
  10000, four bias-and-relu passes, the actor's tanh head and the critic's perceptron head) and leaves the edge
  normalisation, the gathers, the scatter-adds and the pooling to host operations — the reference's own operations.
  At the exact extended reals rounding to bf16 is the identity, and a matrix product accumulated from zero is the plain
  sum over the contracted index, the reference's dot_general; bias-and-relu, tanh and the perceptron are the same
  pointwise expressions. So each region leaves the reference's stage of its operands, every host stretch is literally
  the reference's, and the three results — the actor's mean, the standard deviation, the critic's value — are one
  function of the arguments on both sides (`Cert.Spec.mean`, `stdOf`, `value`). The kernel computes the edge lists
  and weights once where the reference recomputes them in each layer: the same function of the same edge array.
  No finiteness of the inputs is used: only commutativity and associativity of sums of products enter.

  The three frames are the generated ones (the reference's is its run with the results dropped); the ideal
  pass rewrote nothing, so the kernel's idealization is its own text read at the extended reals.
-/
import proofs.«143567_j2740189135247_1_alg».proof.Defs
import proofs.«143567_j2740189135247_1_alg».proof.Proof.Gen.Kernel
import proofs.«143567_j2740189135247_1_alg».proof.Proof.Gen.Kernel.Skeleton
import proofs.«143567_j2740189135247_1_alg».proof.Proof.Gen.Kernel.Launch
import proofs.«143567_j2740189135247_1_alg».proof.Proof.Gen.Kernel.Points
import proofs.«143567_j2740189135247_1_alg».proof.Proof.Gen.Kernel.Frame
import proofs.«143567_j2740189135247_1_alg».proof.Proof.Gen.KernelIdeal
import proofs.«143567_j2740189135247_1_alg».proof.Proof.Gen.KernelIdeal.Skeleton
import proofs.«143567_j2740189135247_1_alg».proof.Proof.Gen.KernelIdeal.Launch
import proofs.«143567_j2740189135247_1_alg».proof.Proof.Gen.KernelIdeal.Points
import proofs.«143567_j2740189135247_1_alg».proof.Proof.Gen.KernelIdeal.Frame
import proofs.«143567_j2740189135247_1_alg».proof.Proof.Gen.ReferenceIdeal
import proofs.«143567_j2740189135247_1_alg».proof.Proof.Gen.Pre_finite_inputs
import proofs.«143567_j2740189135247_1_alg».proof.Proof.RefRunP
import proofs.«143567_j2740189135247_1_alg».proof.Proof.RefSide
import proofs.«143567_j2740189135247_1_alg».proof.Proof.KVal
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- The ideal pass rewrote no operation. -/
theorem preserves : Cert.preserves_Kernel_KernelIdeal := trivial

/-- Both idealized programs end with the specification's mean, standard deviation and value of their arguments, and
    the arguments agree. -/
theorem algebraic : Cert.algebraic_KernelIdeal_ReferenceIdeal := by
  intro m ρ m' ρ' _ hagree
  refine ⟨_, _, _, Cert.KernelIdeal.Hand.run_val m ρ, ?_⟩
  refine (θ_run Cert.ReferenceIdeal.defs _ _).mono (fun _ h c => ?_) (Cert.ReferenceIdeal.ValueP.run (F := Ideal) m' ρ')
  obtain ⟨h0, h1, h2, hargs⟩ := h c
  obtain ⟨a0, a1, a2, a3, a4, a5, a6, a7, a8, a9, a10, a11, a12, a13, a14, a15, a16, a17⟩ := hagree c
  refine ⟨h0.trans ?_, h1.trans ?_, h2.trans ?_, hargs⟩
  · rw [Cert.RefSide.mean_eq, a0, a1, a3, a4, a5, a6, a7, a8]
  · rw [a9]; rfl
  · rw [Cert.RefSide.value_eq, a0, a1, a2, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
